-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S768 : Shape := ⟨1, ![768]⟩
abbrev S768x768 : Shape := ⟨2, ![768, 768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_

variable [Facts]

def fn_part6 {F : FTy → Type} [FloatOps F] (main_arg21 : FVec F S768 .f32) (main_v98 : IVec S_ 1) (main_v101 : IVec S768x768 1) (main_c_39 : IVec S_ 1) : IVec S_ 1 :=
  let main_v102 : IVec S_ 1 := (fun x v => Host.reduce IntOp.andi x v reducesTo_S768x768_S_d0_1 h_S_) main_v101 main_c_39
  let main_v103 : IVec S_ 1 := andi main_v98 main_v102
  let main_v104 : FVec F S768 .f32 := Host.absf main_arg21
  let main_cst_40 : FVec F S_ .f32 := constant S_ .f32 0x7F800000#32
  let main_v105 : FVec F S768 .f32 := broadcastInDim S768 ![] bcast_S_S768 main_cst_40
  let main_v106 : IVec S768 1 := cmpf .olt main_v104 main_v105
  let main_c_41 : IVec S_ 1 := constantI S_ 1 1#1
  let main_v107 : IVec S_ 1 := (fun x v => Host.reduce IntOp.andi x v reducesTo_S768_S_d0 h_S_) main_v106 main_c_41
  let main_v108 : IVec S_ 1 := andi main_v103 main_v107
  main_v108

def fn_part5 {F : FTy → Type} [FloatOps F] (main_arg18 : FVec F S768x768 .f32) (main_arg19 : FVec F S768 .f32) (main_arg20 : FVec F S768x768 .f32) (main_arg21 : FVec F S768 .f32) (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  let main_v89 : FVec F S768x768 .f32 := Host.absf main_arg18
  let main_cst_34 : FVec F S_ .f32 := constant S_ .f32 0x7F800000#32
  let main_v90 : FVec F S768x768 .f32 := broadcastInDim S768x768 ![] bcast_S_S768x768 main_cst_34
  let main_v91 : IVec S768x768 1 := cmpf .olt main_v89 main_v90
  let main_c_35 : IVec S_ 1 := constantI S_ 1 1#1
  let main_v92 : IVec S_ 1 := (fun x v => Host.reduce IntOp.andi x v reducesTo_S768x768_S_d0_1 h_S_) main_v91 main_c_35
  let main_v93 : IVec S_ 1 := andi main_v88 main_v92
  let main_v94 : FVec F S768 .f32 := Host.absf main_arg19
  let main_cst_36 : FVec F S_ .f32 := constant S_ .f32 0x7F800000#32
  let main_v95 : FVec F S768 .f32 := broadcastInDim S768 ![] bcast_S_S768 main_cst_36
  let main_v96 : IVec S768 1 := cmpf .olt main_v94 main_v95
  let main_c_37 : IVec S_ 1 := constantI S_ 1 1#1
  let main_v97 : IVec S_ 1 := (fun x v => Host.reduce IntOp.andi x v reducesTo_S768_S_d0 h_S_) main_v96 main_c_37
  let main_v98 : IVec S_ 1 := andi main_v93 main_v97
  let main_v99 : FVec F S768x768 .f32 := Host.absf main_arg20
  let main_cst_38 : FVec F S_ .f32 := constant S_ .f32 0x7F800000#32
  let main_v100 : FVec F S768x768 .f32 := broadcastInDim S768x768 ![] bcast_S_S768x768 main_cst_38
  let main_v101 : IVec S768x768 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S768x768 .f32) (main_arg15 : FVec F S768 .f32) (main_arg16 : FVec F S768x768 .f32) (main_arg17 : FVec F S768 .f32) (main_arg18 : FVec F S768x768 .f32) (main_arg19 : FVec F S768 .f32) (main_arg20 : FVec F S768x768 .f32) (main_arg21 : FVec F S768 .f32) (main_v63 : IVec S_ 1) (main_v67 : IVec S_ 1) : IVec S_ 1 :=
  let main_v68 : IVec S_ 1 := andi main_v63 main_v67
  let main_v69 : FVec F S768x768 .f32 := Host.absf main_arg14
  let main_cst_26 : FVec F S_ .f32 := constant S_ .f32 0x7F800000#32
  let main_v70 : FVec F S768x768 .f32 := broadcastInDim S768x768 ![] bcast_S_S768x768 main_cst_26
  let main_v71 : IVec S768x768 1 := cmpf .olt main_v69 main_v70
  let main_c_27 : IVec S_ 1 := constantI S_ 1 1#1
  let main_v72 : IVec S_ 1 := (fun x v => Host.reduce IntOp.andi x v reducesTo_S768x768_S_d0_1 h_S_) main_v71 main_c_27
  let main_v73 : IVec S_ 1 := andi main_v68 main_v72
  let main_v74 : FVec F S768 .f32 := Host.absf main_arg15
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  let main_v79 : FVec F S768x768 .f32 := Host.absf main_arg16
  let main_cst_30 : FVec F S_ .f32 := constant S_ .f32 0x7F800000#32
  let main_v80 : FVec F S768x768 .f32 := broadcastInDim S768x768 ![] bcast_S_S768x768 main_cst_30
  let main_v81 : IVec S768x768 1 := cmpf .olt main_v79 main_v80
  let main_c_31 : IVec S_ 1 := constantI S_ 1 1#1
  let main_v82 : IVec S_ 1 := (fun x v => Host.reduce IntOp.andi x v reducesTo_S768x768_S_d0_1 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S768 .f32) (main_arg12 : FVec F S768x768 .f32) (main_arg13 : FVec F S768 .f32) (main_arg14 : FVec F S768x768 .f32) (main_arg15 : FVec F S768 .f32) (main_arg16 : FVec F S768x768 .f32) (main_arg17 : FVec F S768 .f32) (main_arg18 : FVec F S768x768 .f32) (main_arg19 : FVec F S768 .f32) (main_arg20 : FVec F S768x768 .f32) (main_arg21 : FVec F S768 .f32) (main_v48 : IVec S_ 1) (main_v49 : FVec F S768x768 .f32) (main_v50 : FVec F S768x768 .f32) : IVec S_ 1 :=
  let main_v51 : IVec S768x768 1 := cmpf .olt main_v49 main_v50
  let main_c_19 : IVec S_ 1 := constantI S_ 1 1#1
  let main_v52 : IVec S_ 1 := (fun x v => Host.reduce IntOp.andi x v reducesTo_S768x768_S_d0_1 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768x768 .f32 := Host.absf main_arg12
  let main_cst_22 : FVec F S_ .f32 := constant S_ .f32 0x7F800000#32
  let main_v60 : FVec F S768x768 .f32 := broadcastInDim S768x768 ![] bcast_S_S768x768 main_cst_22
  let main_v61 : IVec S768x768 1 := cmpf .olt main_v59 main_v60
  let main_c_23 : IVec S_ 1 := constantI S_ 1 1#1
  let main_v62 : IVec S_ 1 := (fun x v => Host.reduce IntOp.andi x v reducesTo_S768x768_S_d0_1 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S768 .f32) (main_arg8 : FVec F S768x768 .f32) (main_arg9 : FVec F S768 .f32) (main_arg10 : FVec F S768x768 .f32) (main_arg11 : FVec F S768 .f32) (main_arg12 : FVec F S768x768 .f32) (main_arg13 : FVec F S768 .f32) (main_arg14 : FVec F S768x768 .f32) (main_arg15 : FVec F S768 .f32) (main_arg16 : FVec F S768x768 .f32) (main_arg17 : FVec F S768 .f32) (main_arg18 : FVec F S768x768 .f32) (main_arg19 : FVec F S768 .f32) (main_arg20 : FVec F S768x768 .f32) (main_arg21 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x768 .f32 := Host.absf main_arg8
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x768 .f32 := Host.absf main_arg10
  let main_cst_18 : FVec F S_ .f32 := constant S_ .f32 0x7F800000#32
  let main_v50 : FVec F S768x768 .f32 := broadcastInDim S768x768 ![] bcast_S_S768x768 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S768 .f32) (main_arg5 : FVec F S768 .f32) (main_arg6 : FVec F S768x768 .f32) (main_arg7 : FVec F S768 .f32) (main_arg8 : FVec F S768x768 .f32) (main_arg9 : FVec F S768 .f32) (main_arg10 : FVec F S768x768 .f32) (main_arg11 : FVec F S768 .f32) (main_arg12 : FVec F S768x768 .f32) (main_arg13 : FVec F S768 .f32) (main_arg14 : FVec F S768x768 .f32) (main_arg15 : FVec F S768 .f32) (main_arg16 : FVec F S768x768 .f32) (main_arg17 : FVec F S768 .f32) (main_arg18 : FVec F S768x768 .f32) (main_arg19 : FVec F S768 .f32) (main_arg20 : FVec F S768x768 .f32) (main_arg21 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8x1024x768 .f32) (main_arg1 : FVec F S8x1024x768 .f32) (main_arg2 : FVec F S768 .f32) (main_arg3 : FVec F S768 .f32) (main_arg4 : FVec F S768 .f32) (main_arg5 : FVec F S768 .f32) (main_arg6 : FVec F S768x768 .f32) (main_arg7 : FVec F S768 .f32) (main_arg8 : FVec F S768x768 .f32) (main_arg9 : FVec F S768 .f32) (main_arg10 : FVec F S768x768 .f32) (main_arg11 : FVec F S768 .f32) (main_arg12 : FVec F S768x768 .f32) (main_arg13 : FVec F S768 .f32) (main_arg14 : FVec F S768x768 .f32) (main_arg15 : FVec F S768 .f32) (main_arg16 : FVec F S768x768 .f32) (main_arg17 : FVec F S768 .f32) (main_arg18 : FVec F S768x768 .f32) (main_arg19 : FVec F S768 .f32) (main_arg20 : FVec F S768x768 .f32) (main_arg21 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S8x1024x768 .f32 := Host.absf main_arg1
  let main_cst_0 : FVec F S_ .f32 := constant S_ .f32 0x7F800000#32
  let main_v5 : FVec F S8x1024x768 .f32 := broadcastInDim S8x1024x768 ![] bcast_S_S8x1024x768 main_cst_0
  let main_v6 : IVec S8x1024x768 1 := cmpf .olt main_v4 main_v5
  let main_c_1 : IVec S_ 1 := constantI S_ 1 1#1
  let main_v7 : IVec S_ 1 := (fun x v => Host.reduce IntOp.andi x v reducesTo_S8x1024x768_S_d0_1_2 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8x1024x768 : Shape := ⟨3, ![8, 1024, 768]⟩
abbrev S768 : Shape := ⟨1, ![768]⟩
abbrev S768x768 : Shape := ⟨2, ![768, 768]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩
abbrev S1x768 : Shape := ⟨2, ![1, 768]⟩
abbrev S1x512x128 : Shape := ⟨3, ![1, 512, 128]⟩
abbrev S1x1024x128 : Shape := ⟨3, ![1, 1024, 128]⟩
abbrev S128x768 : Shape := ⟨2, ![128, 768]⟩
abbrev S512x128 : Shape := ⟨2, ![512, 128]⟩
abbrev S1024x128 : Shape := ⟨2, ![1024, 128]⟩
abbrev S512x64 : Shape := ⟨2, ![512, 64]⟩
abbrev S1024x64 : Shape := ⟨2, ![1024, 64]⟩
abbrev S64x1024 : Shape := ⟨2, ![64, 1024]⟩
abbrev S512x1024 : Shape := ⟨2, ![512, 1024]⟩
abbrev S64x768 : Shape := ⟨2, ![64, 768]⟩

abbrev nBuf : Space → Nat
  | .hbm => 38
  | .vmem => 56
  | .smem => 0
  | _ => 0

abbrev bufTy : (tb : Table) → Fin (tcTables nBuf tb) → BufTy
  | .hbm, ⟨0, _⟩ => ⟨S8x1024x768, .f32⟩
  | .hbm, ⟨1, _⟩ => ⟨S8x1024x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768x768, .f32⟩
  | .hbm, ⟨11, _⟩ => ⟨S768, .f32⟩
  | .hbm, ⟨12, _⟩ => ⟨S768x768, .f32⟩
  | .hbm, ⟨13, _⟩ => ⟨S768, .f32⟩
  | .hbm, ⟨14, _⟩ => ⟨S768x768, .f32⟩
  | .hbm, ⟨15, _⟩ => ⟨S768, .f32⟩
  | .hbm, ⟨16, _⟩ => ⟨S768x768, .f32⟩
  | .hbm, ⟨17, _⟩ => ⟨S768, .f32⟩
  | .hbm, ⟨18, _⟩ => ⟨S768x768, .f32⟩
  | .hbm, ⟨19, _⟩ => ⟨S768, .f32⟩
  | .hbm, ⟨20, _⟩ => ⟨S768x768, .f32⟩
  | .hbm, ⟨21, _⟩ => ⟨S768, .f32⟩
  | .hbm, ⟨22, _⟩ => ⟨S768x768, .bf16⟩
  | .hbm, ⟨23, _⟩ => ⟨S768x768, .bf16⟩
  | .hbm, ⟨24, _⟩ => ⟨S768x768, .bf16⟩
  | .hbm, ⟨25, _⟩ => ⟨S768x768, .bf16⟩
  | .hbm, ⟨26, _⟩ => ⟨S768x768, .bf16⟩
  | .hbm, ⟨27, _⟩ => ⟨S768x768, .bf16⟩
  | .hbm, ⟨28, _⟩ => ⟨S768x768, .bf16⟩
  | .hbm, ⟨29, _⟩ => ⟨S768x768, .bf16⟩
  | .hbm, ⟨30, _⟩ => ⟨S8x1024x768, .bf16⟩
  | .hbm, ⟨31, _⟩ => ⟨S8x1024x768, .bf16⟩
  | .hbm, ⟨32, _⟩ => ⟨S8x1024x768, .bf16⟩
  | .hbm, ⟨33, _⟩ => ⟨S8x1024x768, .bf16⟩
  | .hbm, ⟨34, _⟩ => ⟨S8x1024x768, .bf16⟩
  | .hbm, ⟨35, _⟩ => ⟨S8x1024x768, .bf16⟩
  | .hbm, ⟨36, _⟩ => ⟨S8x1024x768, .f32⟩
  | .hbm, ⟨37, _⟩ => ⟨S8x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S768, .f32⟩
  | .local _ .vmem, ⟨5, _⟩ => ⟨S768, .f32⟩
  | .local _ .vmem, ⟨6, _⟩ => ⟨S768, .f32⟩
  | .local _ .vmem, ⟨7, _⟩ => ⟨S768, .f32⟩
  | .local _ .vmem, ⟨8, _⟩ => ⟨S768x768, .bf16⟩
  | .local _ .vmem, ⟨9, _⟩ => ⟨S768, .f32⟩
  | .local _ .vmem, ⟨10, _⟩ => ⟨S768x768, .bf16⟩
  | .local _ .vmem, ⟨11, _⟩ => ⟨S768, .f32⟩
  | .local _ .vmem, ⟨12, _⟩ => ⟨S768x768, .bf16⟩
  | .local _ .vmem, ⟨13, _⟩ => ⟨S768, .f32⟩
  | .local _ .vmem, ⟨14, _⟩ => ⟨S768x768, .bf16⟩
  | .local _ .vmem, ⟨15, _⟩ => ⟨S768, .f32⟩
  | .local _ .vmem, ⟨16, _⟩ => ⟨S768x768, .bf16⟩
  | .local _ .vmem, ⟨17, _⟩ => ⟨S768, .f32⟩
  | .local _ .vmem, ⟨18, _⟩ => ⟨S768x768, .bf16⟩
  | .local _ .vmem, ⟨19, _⟩ => ⟨S768, .f32⟩
  | .local _ .vmem, ⟨20, _⟩ => ⟨S1x512x768, .bf16⟩
  | .local _ .vmem, ⟨21, _⟩ => ⟨S1x512x768, .bf16⟩
  | .local _ .vmem, ⟨22, _⟩ => ⟨S1x512x768, .bf16⟩
  | .local _ .vmem, ⟨23, _⟩ => ⟨S1x512x768, .bf16⟩
  | .local _ .vmem, ⟨24, _⟩ => ⟨S1x512x768, .bf16⟩
  | .local _ .vmem, ⟨25, _⟩ => ⟨S1x512x768, .bf16⟩
  | .local _ .vmem, ⟨26, _⟩ => ⟨S1x512x768, .bf16⟩
  | .local _ .vmem, ⟨27, _⟩ => ⟨S1x512x768, .bf16⟩
  | .local _ .vmem, ⟨28, _⟩ => ⟨S1x512x768, .bf16⟩
  | .local _ .vmem, ⟨29, _⟩ => ⟨S1x512x768, .bf16⟩
  | .local _ .vmem, ⟨30, _⟩ => ⟨S1x512x768, .bf16⟩
  | .local _ .vmem, ⟨31, _⟩ => ⟨S1x512x768, .bf16⟩
  | .local _ .vmem, ⟨32, _⟩ => ⟨S1x512x128, .bf16⟩
  | .local _ .vmem, ⟨33, _⟩ => ⟨S1x512x128, .bf16⟩
  | .local _ .vmem, ⟨34, _⟩ => ⟨S1x1024x128, .bf16⟩
  | .local _ .vmem, ⟨35, _⟩ => ⟨S1x1024x128, .bf16⟩
  | .local _ .vmem, ⟨36, _⟩ => ⟨S1x1024x128, .bf16⟩
  | .local _ .vmem, ⟨37, _⟩ => ⟨S1x1024x128, .bf16⟩
  | .local _ .vmem, ⟨38, _⟩ => ⟨S128x768, .bf16⟩
  | .local _ .vmem, ⟨39, _⟩ => ⟨S128x768, .bf16⟩
  | .local _ .vmem, ⟨40, _⟩ => ⟨S768, .f32⟩
  | .local _ .vmem, ⟨41, _⟩ => ⟨S1x512x768, .f32⟩
  | .local _ .vmem, ⟨42, _⟩ => ⟨S1x512x768, .f32⟩
  | .local _ .vmem, ⟨43, _⟩ => ⟨S512x768, .f32⟩
  | .local _ .vmem, ⟨44, _⟩ => ⟨S1x512x128, .bf16⟩
  | .local _ .vmem, ⟨45, _⟩ => ⟨S1x512x128, .bf16⟩
  | .local _ .vmem, ⟨46, _⟩ => ⟨S1x1024x128, .bf16⟩
  | .local _ .vmem, ⟨47, _⟩ => ⟨S1x1024x128, .bf16⟩
  | .local _ .vmem, ⟨48, _⟩ => ⟨S1x1024x128, .bf16⟩
  | .local _ .vmem, ⟨49, _⟩ => ⟨S1x1024x128, .bf16⟩
  | .local _ .vmem, ⟨50, _⟩ => ⟨S128x768, .bf16⟩
  | .local _ .vmem, ⟨51, _⟩ => ⟨S128x768, .bf16⟩
  | .local _ .vmem, ⟨52, _⟩ => ⟨S768, .f32⟩
  | .local _ .vmem, ⟨53, _⟩ => ⟨S1x512x768, .f32⟩
  | .local _ .vmem, ⟨54, _⟩ => ⟨S1x512x768, .f32⟩
  | .local _ .vmem, ⟨55, _⟩ => ⟨S512x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8_0 : Ref sig .tc := ⟨.hbm, 30, rfl⟩
abbrev main_v8_1 : Ref sig .tc := ⟨.hbm, 31, rfl⟩
abbrev main_v8_2 : Ref sig .tc := ⟨.hbm, 32, rfl⟩
abbrev main_v8_3 : Ref sig .tc := ⟨.hbm, 33, rfl⟩
abbrev main_v8_4 : Ref sig .tc := ⟨.hbm, 34, rfl⟩
abbrev main_v8_5 : Ref sig .tc := ⟨.hbm, 35, rfl⟩
abbrev main_v9 : Ref sig .tc := ⟨.hbm, 36, rfl⟩
abbrev main_v10 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg3_1 : Ref sig .tc := ⟨.vmem, 39, rfl⟩
abbrev cc1_stg4_0 : Ref sig .tc := ⟨.vmem, 40, rfl⟩
abbrev cc1_stg5_0 : Ref sig .tc := ⟨.vmem, 41, rfl⟩
abbrev cc1_stg5_1 : Ref sig .tc := ⟨.vmem, 42, rfl⟩
abbrev cc1_scratch0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg5_0 : Ref sig .tc := ⟨.vmem, 53, rfl⟩
abbrev cc2_stg5_1 : Ref sig .tc := ⟨.vmem, 54, rfl⟩
abbrev cc2_scratch0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc1_sem0_0 : DmaSem sig := 32
abbrev cc1_sem0_1 : DmaSem sig := 33
abbrev cc1_sem1_0 : DmaSem sig := 34
abbrev cc1_sem1_1 : DmaSem sig := 35
abbrev cc1_sem2_0 : DmaSem sig := 36
abbrev cc1_sem2_1 : DmaSem sig := 37
abbrev cc1_sem3_0 : DmaSem sig := 38
abbrev cc1_sem3_1 : DmaSem sig := 39
abbrev cc1_sem4_0 : DmaSem sig := 40
abbrev cc1_sem5_0 : DmaSem sig := 41
abbrev cc1_sem5_1 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem5_0 : DmaSem sig := 52
abbrev cc2_sem5_1 : DmaSem sig := 53

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S768x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S768x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S768x768 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x768 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x768 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x768 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x768 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x768 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x768 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev grid1 : Pipeline.Grid := ⟨3, ![8, 2, 6], ![false, false, false]⟩

def k1_cond2 (i : grid1.Coords) : BitVec 1 :=
  let arg2 : BitVec 32 := BitVec.ofNat 32 (i 2).val
  let c5_i32 : BitVec 32 := 5#32
  let v59 : BitVec 1 := Scalar.cmpi .eq arg2 c5_i32
  let v60 : BitVec 32 := Scalar.extui v59
  let c0_i32_27 : BitVec 32 := 0#32
  let v61 : BitVec 1 := Scalar.cmpi .ne v60 c0_i32_27
  v61

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S128x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![8, 2, 6], ![false, false, false]⟩

def k2_cond2 (i : grid2.Coords) : BitVec 1 :=
  let arg2 : BitVec 32 := BitVec.ofNat 32 (i 2).val
  let c5_i32 : BitVec 32 := 5#32
  let v59 : BitVec 1 := Scalar.cmpi .eq arg2 c5_i32
  let v60 : BitVec 32 := Scalar.extui v59
  let c0_i32_27 : BitVec 32 := 0#32
  let v61 : BitVec 1 := Scalar.cmpi .ne v60 c0_i32_27
  v61

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_4 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S128x768 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 1 → Memref sig .tc .vmem S768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S1x512x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  bitsLt_bf16_f32 : FTy.bits .bf16 < FTy.bits .f32
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S512x768_S1x512x768 : S512x768.ShapeCasts S1x512x768
  packedbf16_S1x512x768_S1x512x768_0_0_0 : (Rect.unit (s := S1x512x768) ![0, 0, 0] S1x512x768.size inb_S1x512x768_S1x512x768_0_0_0).PackedRows (EltTy.packing .bf16)
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S512x128_o0_0_S512x64 : S512x128.Slices ![0, 0] S512x64
  slices_S1024x128_o0_0_S1024x64 : S1024x128.Slices ![0, 0] S1024x64
  transposes_S1024x64_p1_0_S64x1024 : S1024x64.Transposes [1, 0] S64x1024
  reduces_S512x1024_S512 : S512x1024.Reduces [1] S512
  broadcasts_S512x1_S512x1024 : S512x1.Broadcasts S512x1024
  slices_S512x128_o0_64_S512x64 : S512x128.Slices ![0, 64] S512x64
  slices_S1024x128_o0_64_S1024x64 : S1024x128.Slices ![0, 64] S1024x64
  inb_S128x768_S64x768_0_0 : ∀ a, (![0, 0] : Fin 2 → Nat) a + S64x768.size a ≤ S128x768.size a
  h_S64x768 : 0 < S64x768.numel
  shapeCasts_S64x768_S64x768 : S64x768.ShapeCasts S64x768
  inb_S128x768_S64x768_64_0 : ∀ a, (![64, 0] : Fin 2 → Nat) a + S64x768.size a ≤ S128x768.size a
  dot_S512x768_S768x768_S512x768_1_0_0_1_n_n_wf : DotDims.WF S512x768 S768x768 S512x768 [1] [0] [0] [1] [] []
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  dot_S512x64_S64x768_S512x768_1_0_0_1_n_n_wf : DotDims.WF S512x64 S64x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x1024x768.size a
  hwx0_0 : ∀ i : grid0.Coords, EltTy.bits .f32 = 32 ∨ (Rect.block (s := S8x1024x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S8x1024x768.size a
  hwx0_1 : ∀ i : grid0.Coords, EltTy.bits .f32 = 32 ∨ (Rect.block (s := S8x1024x768) S1x512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x768.size a ≤ S768x768.size a
  hwx0_8 : ∀ i : grid0.Coords, EltTy.bits .bf16 = 32 ∨ (Rect.block (s := S768x768) S768x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768.size a ≤ S768.size a
  hwx0_9 : ∀ i : grid0.Coords, EltTy.bits .f32 = 32 ∨ (Rect.block (s := S768) S768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x768.size a ≤ S768x768.size a
  hwx0_10 : ∀ i : grid0.Coords, EltTy.bits .bf16 = 32 ∨ (Rect.block (s := S768x768) S768x768.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768.size a ≤ S768.size a
  hwx0_11 : ∀ i : grid0.Coords, EltTy.bits .f32 = 32 ∨ (Rect.block (s := S768) S768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768x768.size a ≤ S768x768.size a
  hwx0_12 : ∀ i : grid0.Coords, EltTy.bits .bf16 = 32 ∨ (Rect.block (s := S768x768) S768x768.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768.size a ≤ S768.size a
  hwx0_13 : ∀ i : grid0.Coords, EltTy.bits .f32 = 32 ∨ (Rect.block (s := S768) S768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768x768.size a ≤ S768x768.size a
  hwx0_14 : ∀ i : grid0.Coords, EltTy.bits .bf16 = 32 ∨ (Rect.block (s := S768x768) S768x768.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S768.size a ≤ S768.size a
  hwx0_15 : ∀ i : grid0.Coords, EltTy.bits .f32 = 32 ∨ (Rect.block (s := S768) S768.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S768x768.size a ≤ S768x768.size a
  hwx0_16 : ∀ i : grid0.Coords, EltTy.bits .bf16 = 32 ∨ (Rect.block (s := S768x768) S768x768.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S768.size a ≤ S768.size a
  hwx0_17 : ∀ i : grid0.Coords, EltTy.bits .f32 = 32 ∨ (Rect.block (s := S768) S768.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x512x768.size a ≤ S8x1024x768.size a
  hwx0_18 : ∀ i : grid0.Coords, EltTy.bits .bf16 = 32 ∨ (Rect.block (s := S8x1024x768) S1x512x768.size (cc0_transform_18 i) (hinb0_18 i)).WholeWords (EltTy.packing .bf16)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x512x768.size a ≤ S8x1024x768.size a
  hwx0_19 : ∀ i : grid0.Coords, EltTy.bits .bf16 = 32 ∨ (Rect.block (s := S8x1024x768) S1x512x768.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x512x768.size a ≤ S8x1024x768.size a
  hwx0_20 : ∀ i : grid0.Coords, EltTy.bits .bf16 = 32 ∨ (Rect.block (s := S8x1024x768) S1x512x768.size (cc0_transform_20 i) (hinb0_20 i)).WholeWords (EltTy.packing .bf16)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x512x768.size a ≤ S8x1024x768.size a
  hwx0_21 : ∀ i : grid0.Coords, EltTy.bits .bf16 = 32 ∨ (Rect.block (s := S8x1024x768) S1x512x768.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x512x768.size a ≤ S8x1024x768.size a
  hwx0_22 : ∀ i : grid0.Coords, EltTy.bits .bf16 = 32 ∨ (Rect.block (s := S8x1024x768) S1x512x768.size (cc0_transform_22 i) (hinb0_22 i)).WholeWords (EltTy.packing .bf16)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x512x768.size a ≤ S8x1024x768.size a
  hwx0_23 : ∀ i : grid0.Coords, EltTy.bits .bf16 = 32 ∨ (Rect.block (s := S8x1024x768) S1x512x768.size (cc0_transform_23 i) (hinb0_23 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S8x1024x768.size a
  hwx1_0 : ∀ i : grid1.Coords, EltTy.bits .bf16 = 32 ∨ (Rect.block (s := S8x1024x768) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x768.size a
  hwx1_1 : ∀ i : grid1.Coords, EltTy.bits .bf16 = 32 ∨ (Rect.block (s := S8x1024x768) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x768.size a
  hwx1_2 : ∀ i : grid1.Coords, EltTy.bits .bf16 = 32 ∨ (Rect.block (s := S8x1024x768) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x768.size a ≤ S768x768.size a
  hwx1_3 : ∀ i : grid1.Coords, EltTy.bits .bf16 = 32 ∨ (Rect.block (s := S768x768) S128x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768.size a ≤ S768.size a
  hwx1_4 : ∀ i : grid1.Coords, EltTy.bits .f32 = 32 ∨ (Rect.block (s := S768) S768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x768.size a ≤ S8x1024x768.size a
  hwx1_5 : ∀ i : grid1.Coords, EltTy.bits .f32 = 32 ∨ (Rect.block (s := S8x1024x768) S1x512x768.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x128.size a ≤ S8x1024x768.size a
  hwx2_0 : ∀ i : grid2.Coords, EltTy.bits .bf16 = 32 ∨ (Rect.block (s := S8x1024x768) S1x512x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x128.size a ≤ S8x1024x768.size a
  hwx2_1 : ∀ i : grid2.Coords, EltTy.bits .bf16 = 32 ∨ (Rect.block (s := S8x1024x768) S1x1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x128.size a ≤ S8x1024x768.size a
  hwx2_2 : ∀ i : grid2.Coords, EltTy.bits .bf16 = 32 ∨ (Rect.block (s := S8x1024x768) S1x1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x768.size a ≤ S768x768.size a
  hwx2_3 : ∀ i : grid2.Coords, EltTy.bits .bf16 = 32 ∨ (Rect.block (s := S768x768) S128x768.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S768.size a ≤ S768.size a
  hwx2_4 : ∀ i : grid2.Coords, EltTy.bits .f32 = 32 ∨ (Rect.block (s := S768) S768.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x768.size a ≤ S8x1024x768.size a
  hwx2_5 : ∀ i : grid2.Coords, EltTy.bits .f32 = 32 ∨ (Rect.block (s := S8x1024x768) S1x512x768.size (cc2_transform_5 i) (hinb2_5 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x768_S512x768_1_0_0_1_n_n : DotDims S512x64 S64x768 S512x768 where
  lhsContracting := [1]
  rhsContracting := [0]
  lhsNonContracting := [0]
  rhsNonContracting := [1]
  lhsBatch := []
  rhsBatch := []
  wf := dot_S512x64_S64x768_S512x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S768x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S768x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S768x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S768x768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S768.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S768x768.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S768.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8_0) S1x512x768.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v8_1) S1x512x768.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v8_2) S1x512x768.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v8_3) S1x512x768.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v8_4) S1x512x768.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v8_5) S1x512x768.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

abbrev win1_0 : Pipeline.Window sig grid1 :=
  Pipeline.Window.ofSpec (Memref.whole main_v8_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_4) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_5) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg19) S768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x512x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v8_3) S1x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S1x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8_2) S1x1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S128x768.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x512x768.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S768 : Shape := ⟨1, ![768]⟩
abbrev S768x768 : Shape := ⟨2, ![768, 768]⟩
abbrev S_ : Shape := ⟨0, ![]⟩
abbrev S8x1024 : Shape := ⟨2, ![8, 1024]⟩
abbrev S8x1024x1 : Shape := ⟨3, ![8, 1024, 1]⟩
abbrev S1x1x768 : Shape := ⟨3, ![1, 1, 768]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S8x12x1024 : Shape := ⟨3, ![8, 12, 1024]⟩
abbrev S8x12x1024x1 : Shape := ⟨4, ![8, 12, 1024, 1]⟩

abbrev nBuf : Space → Nat
  | .hbm => 166
  | .vmem => 0
  | .smem => 0
  | _ => 0

abbrev hbmTy0_0 (i : Nat) : BufTy := match i % 128 with
  | 0 => ⟨S8x1024x768, .f32⟩
  | 1 => ⟨S8x1024x768, .f32⟩
  | 2 => ⟨S768, .f32⟩
  | 3 => ⟨S768, .f32⟩
  | 4 => ⟨S768, .f32⟩
  | 5 => ⟨S768, .f32⟩
  | 6 => ⟨S768x768, .f32⟩
  | 7 => ⟨S768, .f32⟩
  | 8 => ⟨S768x768, .f32⟩
  | 9 => ⟨S768, .f32⟩
  | 10 => ⟨S768x768, .f32⟩
  | 11 => ⟨S768, .f32⟩
  | 12 => ⟨S768x768, .f32⟩
  | 13 => ⟨S768, .f32⟩
  | 14 => ⟨S768x768, .f32⟩
  | 15 => ⟨S768, .f32⟩
  | 16 => ⟨S768x768, .f32⟩
  | 17 => ⟨S768, .f32⟩
  | 18 => ⟨S768x768, .f32⟩
  | 19 => ⟨S768, .f32⟩
  | 20 => ⟨S768x768, .f32⟩
  | 21 => ⟨S768, .f32⟩
  | 22 => ⟨S_, .f32⟩
  | 23 => ⟨S8x1024, .f32⟩
  | 24 => ⟨S8x1024x1, .f32⟩
  | 25 => ⟨S_, .f32⟩
  | 26 => ⟨S8x1024x1, .f32⟩
  | 27 => ⟨S8x1024x1, .f32⟩
  | 28 => ⟨S8x1024x768, .f32⟩
  | 29 => ⟨S8x1024x768, .f32⟩
  | 30 => ⟨S8x1024x768, .f32⟩
  | 31 => ⟨S_, .f32⟩
  | 32 => ⟨S8x1024, .f32⟩
  | 33 => ⟨S8x1024x1, .f32⟩
  | 34 => ⟨S_, .f32⟩
  | 35 => ⟨S8x1024x1, .f32⟩
  | 36 => ⟨S8x1024x1, .f32⟩
  | 37 => ⟨S8x1024x768, .f32⟩
  | 38 => ⟨S8x1024x768, .f32⟩
  | 39 => ⟨S_, .f32⟩
  | 40 => ⟨S8x1024x1, .f32⟩
  | 41 => ⟨S8x1024x1, .f32⟩
  | 42 => ⟨S8x1024x1, .f32⟩
  | 43 => ⟨S8x1024x768, .f32⟩
  | 44 => ⟨S8x1024x768, .f32⟩
  | 45 => ⟨S1x1x768, .f32⟩
  | 46 => ⟨S8x1024x768, .f32⟩
  | 47 => ⟨S8x1024x768, .f32⟩
  | 48 => ⟨S1x1x768, .f32⟩
  | 49 => ⟨S8x1024x768, .f32⟩
  | 50 => ⟨S8x1024x768, .f32⟩
  | 51 => ⟨S_, .f32⟩
  | 52 => ⟨S8x1024, .f32⟩
  | 53 => ⟨S8x1024x1, .f32⟩
  | 54 => ⟨S_, .f32⟩
  | 55 => ⟨S8x1024x1, .f32⟩
  | 56 => ⟨S8x1024x1, .f32⟩
  | 57 => ⟨S8x1024x768, .f32⟩
  | 58 => ⟨S8x1024x768, .f32⟩
  | 59 => ⟨S8x1024x768, .f32⟩
  | 60 => ⟨S_, .f32⟩
  | 61 => ⟨S8x1024, .f32⟩
  | 62 => ⟨S8x1024x1, .f32⟩
  | 63 => ⟨S_, .f32⟩
  | 64 => ⟨S8x1024x1, .f32⟩
  | 65 => ⟨S8x1024x1, .f32⟩
  | 66 => ⟨S8x1024x768, .f32⟩
  | 67 => ⟨S8x1024x768, .f32⟩
  | 68 => ⟨S_, .f32⟩
  | 69 => ⟨S8x1024x1, .f32⟩
  | 70 => ⟨S8x1024x1, .f32⟩
  | 71 => ⟨S8x1024x1, .f32⟩
  | 72 => ⟨S8x1024x768, .f32⟩
  | 73 => ⟨S8x1024x768, .f32⟩
  | 74 => ⟨S1x1x768, .f32⟩
  | 75 => ⟨S8x1024x768, .f32⟩
  | 76 => ⟨S8x1024x768, .f32⟩
  | 77 => ⟨S1x1x768, .f32⟩
  | 78 => ⟨S8x1024x768, .f32⟩
  | 79 => ⟨S8x1024x768, .f32⟩
  | 80 => ⟨S8x1024x768, .f32⟩
  | 81 => ⟨S1x1x768, .f32⟩
  | 82 => ⟨S8x1024x768, .f32⟩
  | 83 => ⟨S8x1024x768, .f32⟩
  | 84 => ⟨S8x1024x12x64, .f32⟩
  | 85 => ⟨S8x12x1024x64, .f32⟩
  | 86 => ⟨S8x1024x768, .f32⟩
  | 87 => ⟨S1x1x768, .f32⟩
  | 88 => ⟨S8x1024x768, .f32⟩
  | 89 => ⟨S8x1024x768, .f32⟩
  | 90 => ⟨S8x1024x12x64, .f32⟩
  | 91 => ⟨S8x12x1024x64, .f32⟩
  | 92 => ⟨S8x1024x768, .f32⟩
  | 93 => ⟨S1x1x768, .f32⟩
  | 94 => ⟨S8x1024x768, .f32⟩
  | 95 => ⟨S8x1024x768, .f32⟩
  | 96 => ⟨S8x1024x12x64, .f32⟩
  | 97 => ⟨S8x12x1024x64, .f32⟩
  | 98 => ⟨S8x1024x768, .f32⟩
  | 99 => ⟨S1x1x768, .f32⟩
  | 100 => ⟨S8x1024x768, .f32⟩
  | 101 => ⟨S8x1024x768, .f32⟩
  | 102 => ⟨S8x1024x12x64, .f32⟩
  | 103 => ⟨S8x12x1024x64, .f32⟩
  | 104 => ⟨S8x1024x768, .f32⟩
  | 105 => ⟨S1x1x768, .f32⟩
  | 106 => ⟨S8x1024x768, .f32⟩
  | 107 => ⟨S8x1024x768, .f32⟩
  | 108 => ⟨S8x1024x12x64, .f32⟩
  | 109 => ⟨S8x12x1024x64, .f32⟩
  | 110 => ⟨S8x1024x768, .f32⟩
  | 111 => ⟨S1x1x768, .f32⟩
  | 112 => ⟨S8x1024x768, .f32⟩
  | 113 => ⟨S8x1024x768, .f32⟩
  | 114 => ⟨S8x1024x12x64, .f32⟩
  | 115 => ⟨S8x12x1024x64, .f32⟩
  | 116 => ⟨S8x12x1024x1024, .f32⟩
  | 117 => ⟨S_, .f32⟩
  | 118 => ⟨S8x12x1024x1024, .f32⟩
  | 119 => ⟨S8x12x1024x1024, .f32⟩
  | 120 => ⟨S_, .f32⟩
  | 121 => ⟨S8x12x1024, .f32⟩
  | 122 => ⟨S_, .f32⟩
  | 123 => ⟨S8x12x1024, .f32⟩
  | 124 => ⟨S8x12x1024, .f32⟩
  | 125 => ⟨S8x12x1024x1, .f32⟩
  | 126 => ⟨S8x12x1024x1024, .f32⟩
  | 127 => ⟨S8x12x1024x1024, .f32⟩
  | _ => ⟨S8x1024x768, .f32⟩

abbrev hbmTy0_1 (i : Nat) : BufTy := match i % 128 with
  | 0 => ⟨S8x12x1024x1024, .f32⟩
  | 1 => ⟨S_, .f32⟩
  | 2 => ⟨S8x12x1024, .f32⟩
  | 3 => ⟨S8x12x1024x1, .f32⟩
  | 4 => ⟨S8x12x1024x1024, .f32⟩
  | 5 => ⟨S8x12x1024x1024, .f32⟩
  | 6 => ⟨S8x12x1024x64, .f32⟩
  | 7 => ⟨S8x1024x12x64, .f32⟩
  | 8 => ⟨S8x1024x768, .f32⟩
  | 9 => ⟨S8x1024x768, .f32⟩
  | 10 => ⟨S1x1x768, .f32⟩
  | 11 => ⟨S8x1024x768, .f32⟩
  | 12 => ⟨S8x1024x768, .f32⟩
  | 13 => ⟨S8x12x1024x1024, .f32⟩
  | 14 => ⟨S_, .f32⟩
  | 15 => ⟨S8x12x1024x1024, .f32⟩
  | 16 => ⟨S8x12x1024x1024, .f32⟩
  | 17 => ⟨S_, .f32⟩
  | 18 => ⟨S8x12x1024, .f32⟩
  | 19 => ⟨S_, .f32⟩
  | 20 => ⟨S8x12x1024, .f32⟩
  | 21 => ⟨S8x12x1024, .f32⟩
  | 22 => ⟨S8x12x1024x1, .f32⟩
  | 23 => ⟨S8x12x1024x1024, .f32⟩
  | 24 => ⟨S8x12x1024x1024, .f32⟩
  | 25 => ⟨S8x12x1024x1024, .f32⟩
  | 26 => ⟨S_, .f32⟩
  | 27 => ⟨S8x12x1024, .f32⟩
  | 28 => ⟨S8x12x1024x1, .f32⟩
  | 29 => ⟨S8x12x1024x1024, .f32⟩
  | 30 => ⟨S8x12x1024x1024, .f32⟩
  | 31 => ⟨S8x12x1024x64, .f32⟩
  | 32 => ⟨S8x1024x12x64, .f32⟩
  | 33 => ⟨S8x1024x768, .f32⟩
  | 34 => ⟨S8x1024x768, .f32⟩
  | 35 => ⟨S1x1x768, .f32⟩
  | 36 => ⟨S8x1024x768, .f32⟩
  | 37 => ⟨S8x1024x768, .f32⟩
  | _ => ⟨S8x1024x768, .f32⟩

abbrev hbmTy (i : Nat) : BufTy := match i / 128 with
  | 0 => hbmTy0_0 i
  | 1 => hbmTy0_1 i
  | _ => ⟨S8x1024x768, .f32⟩

abbrev bufTy : (tb : Table) → Fin (tcTables nBuf tb) → BufTy
  | .hbm, ⟨i, _⟩ => hbmTy i
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_cst_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_9 : Ref sig .tc := ⟨.hbm, 117, rfl⟩
abbrev main_v85 : Ref sig .tc := ⟨.hbm, 118, rfl⟩
abbrev main_v86 : Ref sig .tc := ⟨.hbm, 119, rfl⟩
abbrev main_cst_10 : Ref sig .tc := ⟨.hbm, 120, rfl⟩
abbrev main_v87 : Ref sig .tc := ⟨.hbm, 121, rfl⟩
abbrev main_cst_11 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_12 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_13 : Ref sig .tc := ⟨.hbm, 142, rfl⟩
abbrev main_v106 : Ref sig .tc := ⟨.hbm, 143, rfl⟩
abbrev main_v107 : Ref sig .tc := ⟨.hbm, 144, rfl⟩
abbrev main_cst_14 : Ref sig .tc := ⟨.hbm, 145, rfl⟩
abbrev main_v108 : Ref sig .tc := ⟨.hbm, 146, rfl⟩
abbrev main_cst_15 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_16 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩

abbrev nD : Nat := 1
abbrev τ : Topo := Topo.v7x

variable {F : FTy → Type} [FloatOps F]

class Facts₀ : Prop where
  reducesTo_S8x1024x768_S8x1024_d2 : S8x1024x768.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x768_0_1_2 : S8x1024x1.BroadcastsInDim S8x1024x768 (![0, 1, 2] : Fin 3 → Fin S8x1024x768.rank)
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  shapeCasts_S8x1024x768_S8x1024x12x64 : S8x1024x768.ShapeCasts S8x1024x12x64
  transposes_S8x1024x12x64_S8x12x1024x64_0_2_1_3 : S8x1024x12x64.Transposes [0, 2, 1, 3] S8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S8x1024x768_S768x768_S8x1024x768_2_0_01_1_n_n_wf : DotDims.WF S8x1024x768 S768x768 S8x1024x768 [2] [0] [0, 1] [1] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x1024x768_S768x768_S8x1024x768_2_0_01_1_n_n : DotDims S8x1024x768 S768x768 S8x1024x768 where
  lhsContracting := [2]
  rhsContracting := [0]
  lhsNonContracting := [0, 1]
  rhsNonContracting := [1]
  lhsBatch := []
  rhsBatch := []
  wf := dot_S8x1024x768_S768x768_S8x1024x768_2_0_01_1_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.KRegion0.lean ====
/-
  Region 0 of the kernel program: both layer norms and the six projections, one grid point per (batch, half of the rows).
  The body loads its eighteen input blocks whole, computes, and stores each of its six output blocks whole; nothing is
  carried from one point to the next. Stated here, for any float instance: what each output block holds after the body as a
  function of the input blocks (the body's payloads composed), the body's triple, the proof data of the pipeline (each
  input's staging buffer at its block, each output's at that function of the point's input blocks) and the body obligation.
-/
import proofs.«176245_j63866163691863_2_alg».proof.Proof.Gen.Kernel.Launch
import proofs.«176245_j63866163691863_2_alg».proof.Proof.Gen.Kernel.Skeleton
import proofs.«176245_j63866163691863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (an unfetched window's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (an unfetched window's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (an unfetched window's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not (an unfetched window's index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not (an unfetched window's index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not (an unfetched window's index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not (an unfetched window's index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not (an unfetched window's index has not moved). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, fetched there or not (an unfetched window's index has not moved). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, fetched there or not (an unfetched window's index has not moved). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's staging buffer holds its block at every point, fetched there or not (an unfetched window's index has not moved). -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14's staging buffer holds its block at every point, fetched there or not (an unfetched window's index has not moved). -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-- Input window 15's staging buffer holds its block at every point, fetched there or not (an unfetched window's index has not moved). -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-- Input window 16's staging buffer holds its block at every point, fetched there or not (an unfetched window's index has not moved). -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-- Input window 17's staging buffer holds its block at every point, fetched there or not (an unfetched window's index has not moved). -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rA0 : Rect S1x512x768 := Rect.unit (s := S1x512x768) ![0, 0, 0] S1x512x768.size inb_S1x512x768_S1x512x768_0_0_0
abbrev rV0 : Rect S768 := Rect.unit (s := S768) ![0] S768.size inb_S768_S768_0
abbrev rW0 : Rect S768x768 := Rect.unit (s := S768x768) ![0, 0] S768x768.size inb_S768x768_S768x768_0_0

/-! ## The two normalised row blocks, as the body computes them from the input blocks -/

/-- The first input's block normalised over its last axis, scaled and shifted (in the matrix unit's input format). -/
def ln0_a (x0 : Vec F S1x512x768 .f32) (x2 x3 : Vec F S768 .f32) : FVec F S512x768 .f32 :=
  k0_pay3 (View.ld x0 rA0) (View.ld x2 rV0) (View.ld x3 rV0)
/-- The second input's block normalised over its last axis, scaled and shifted, in the matrix unit's input format. -/
def ln0_b (x1 : Vec F S1x512x768 .f32) (x4 x5 : Vec F S768 .f32) : FVec F S512x768 .bf16 :=
  k0_pay7 (k0_pay2 (View.ld x1 rA0)) (k0_pay4 (View.ld x1 rA0)) (k0_pay5 (View.ld x1 rA0)) (View.ld x4 rV0) (View.ld x5 rV0)

/-! ## What the body leaves in each output window's buffer: one whole-block store each -/

def out0_18 (x0 : Vec F S1x512x768 .f32) (x2 x3 : Vec F S768 .f32) (x6 : Vec F S768x768 .bf16) (x7 : Vec F S768 .f32) : Vec F S1x512x768 .bf16 :=
  View.canon [⟨rA0, k0_pay8 (ln0_a x0 x2 x3) (View.ld x6 rW0) (View.ld x7 rV0)⟩]
def out0_19 (x0 : Vec F S1x512x768 .f32) (x2 x3 : Vec F S768 .f32) (x8 : Vec F S768x768 .bf16) (x9 : Vec F S768 .f32) : Vec F S1x512x768 .bf16 :=
  View.canon [⟨rA0, k0_pay9 (ln0_a x0 x2 x3) (View.ld x8 rW0) (View.ld x9 rV0)⟩]
def out0_20 (x0 : Vec F S1x512x768 .f32) (x2 x3 : Vec F S768 .f32) (x10 : Vec F S768x768 .bf16) (x11 : Vec F S768 .f32) : Vec F S1x512x768 .bf16 :=
  View.canon [⟨rA0, k0_pay10 (k0_pay6 (ln0_a x0 x2 x3)) (View.ld x10 rW0) (View.ld x11 rV0)⟩]
def out0_21 (x1 : Vec F S1x512x768 .f32) (x4 x5 : Vec F S768 .f32) (x12 : Vec F S768x768 .bf16) (x13 : Vec F S768 .f32) : Vec F S1x512x768 .bf16 :=
  View.canon [⟨rA0, k0_pay11 (ln0_b x1 x4 x5) (View.ld x12 rW0) (View.ld x13 rV0)⟩]
def out0_22 (x1 : Vec F S1x512x768 .f32) (x4 x5 : Vec F S768 .f32) (x14 : Vec F S768x768 .bf16) (x15 : Vec F S768 .f32) : Vec F S1x512x768 .bf16 :=
  View.canon [⟨rA0, k0_pay12 (ln0_b x1 x4 x5) (View.ld x14 rW0) (View.ld x15 rV0)⟩]
def out0_23 (x1 : Vec F S1x512x768 .f32) (x4 x5 : Vec F S768 .f32) (x16 : Vec F S768x768 .bf16) (x17 : Vec F S768 .f32) : Vec F S1x512x768 .bf16 :=
  View.canon [⟨rA0, k0_pay1 (ln0_b x1 x4 x5) (k0_pay13 (View.ld x16 rW0)) (constant S512x768 .f32 0x00000000#32) (View.ld x17 rV0)⟩]

/-- One whole-block store covers the block. -/
theorem cover0_out (p0 : Vec F S1x512x768 .bf16) (y : S1x512x768.Idx) :
    ∃ pc ∈ ([⟨rA0, p0⟩] : List (View.Piece (Elt F) S1x512x768 .bf16)), y ∈ pc.1.set :=
  View.cover_of_tiled [⟨rA0, p0⟩] S1x512x768.size (by rfl) y

/-! ## The body's triple -/

set_option maxHeartbeats 4000000 in
/-- The kernel body on whole staging memrefs, the inputs' at read contents `x·` and the outputs' at anything, runs to the
    continuation holding the inputs' as they were and each output's at its function of the inputs'. -/
theorem sound_kernel0 (c : Dev nD) (E : Set ℕ) (i : grid0.Coords) (arg2 : Memref sig .tc .vmem S1x512x768 .f32) (harg2 : arg2.IsWhole) (arg3 : Memref sig .tc .vmem S1x512x768 .f32) (harg3 : arg3.IsWhole) (arg4 : Memref sig .tc .vmem S768 .f32) (harg4 : arg4.IsWhole) (arg5 : Memref sig .tc .vmem S768 .f32) (harg5 : arg5.IsWhole) (arg6 : Memref sig .tc .vmem S768 .f32) (harg6 : arg6.IsWhole) (arg7 : Memref sig .tc .vmem S768 .f32) (harg7 : arg7.IsWhole) (arg8 : Memref sig .tc .vmem S768x768 .bf16) (harg8 : arg8.IsWhole) (arg9 : Memref sig .tc .vmem S768 .f32) (harg9 : arg9.IsWhole) (arg10 : Memref sig .tc .vmem S768x768 .bf16) (harg10 : arg10.IsWhole) (arg11 : Memref sig .tc .vmem S768 .f32) (harg11 : arg11.IsWhole) (arg12 : Memref sig .tc .vmem S768x768 .bf16) (harg12 : arg12.IsWhole) (arg13 : Memref sig .tc .vmem S768 .f32) (harg13 : arg13.IsWhole) (arg14 : Memref sig .tc .vmem S768x768 .bf16) (harg14 : arg14.IsWhole) (arg15 : Memref sig .tc .vmem S768 .f32) (harg15 : arg15.IsWhole) (arg16 : Memref sig .tc .vmem S768x768 .bf16) (harg16 : arg16.IsWhole) (arg17 : Memref sig .tc .vmem S768 .f32) (harg17 : arg17.IsWhole) (arg18 : Memref sig .tc .vmem S768x768 .bf16) (harg18 : arg18.IsWhole) (arg19 : Memref sig .tc .vmem S768 .f32) (harg19 : arg19.IsWhole) (arg20 : Memref sig .tc .vmem S1x512x768 .bf16) (harg20 : arg20.IsWhole) (arg21 : Memref sig .tc .vmem S1x512x768 .bf16) (harg21 : arg21.IsWhole) (arg22 : Memref sig .tc .vmem S1x512x768 .bf16) (harg22 : arg22.IsWhole) (arg23 : Memref sig .tc .vmem S1x512x768 .bf16) (harg23 : arg23.IsWhole) (arg24 : Memref sig .tc .vmem S1x512x768 .bf16) (harg24 : arg24.IsWhole) (arg25 : Memref sig .tc .vmem S1x512x768 .bf16) (harg25 : arg25.IsWhole)
    (x0 : Vec F S1x512x768 .f32) (x1 : Vec F S1x512x768 .f32) (x2 : Vec F S768 .f32) (x3 : Vec F S768 .f32) (x4 : Vec F S768 .f32) (x5 : Vec F S768 .f32) (x6 : Vec F S768x768 .bf16) (x7 : Vec F S768 .f32) (x8 : Vec F S768x768 .bf16) (x9 : Vec F S768 .f32) (x10 : Vec F S768x768 .bf16) (x11 : Vec F S768 .f32) (x12 : Vec F S768x768 .bf16) (x13 : Vec F S768 .f32) (x14 : Vec F S768x768 .bf16) (x15 : Vec F S768 .f32) (x16 : Vec F S768x768 .bf16) (x17 : Vec F S768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare (out0_18 x0 x2 x3 x6 x7) ∗ owns (c : Thread nD τ) arg21 fullShare (out0_19 x0 x2 x3 x8 x9) ∗ owns (c : Thread nD τ) arg22 fullShare (out0_20 x0 x2 x3 x10 x11) ∗ owns (c : Thread nD τ) arg23 fullShare (out0_21 x1 x4 x5 x12 x13) ∗ owns (c : Thread nD τ) arg24 fullShare (out0_22 x1 x4 x5 x14 x15) ∗ owns (c : Thread nD τ) arg25 fullShare (out0_23 x1 x4 x5 x16 x17)) -∗ K ⟨⟩))
      ⊢ wp frame (wpE (defs₀ (F := F)) Variants.none c none) E (cc0__ln_qkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__ln_qkv_kernel_eq_skeleton]; unfold cc0__ln_qkv_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0; subst hf1; subst hf2; subst hf3; subst hf4; subst hf5; subst hf6; subst hf7; subst hf8; subst hf9; subst hf10; subst hf11; subst hf12; subst hf13; subst hf14; subst hf15; subst hf16; subst hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover0_out _)
  isplitl [H19]
  · iexists _; isplitr
    swap; · iexact H19
    ipureintro
    exact View.read_writes_eq_canon _ _ _ (cover0_out _)
  isplitl [H20]
  · iexists _; isplitr
    swap; · iexact H20
    ipureintro
    exact View.read_writes_eq_canon _ _ _ (cover0_out _)
  isplitl [H21]
  · iexists _; isplitr
    swap; · iexact H21
    ipureintro
    exact View.read_writes_eq_canon _ _ _ (cover0_out _)
  isplitl [H22]
  · iexists _; isplitr
    swap; · iexact H22
    ipureintro
    exact View.read_writes_eq_canon _ _ _ (cover0_out _)
  iexists _; isplitr
  swap; · iexact H23
  ipureintro
  exact View.read_writes_eq_canon _ _ _ (cover0_out _)

end Cert.Kernel.Hand

end
-- ==== Proof.KRegion0Dat.lean ====
/-
  Region 0's proof data and body obligation: after the body at point `t` each input window's staging buffer holds its block
  and each output window's holds the body's function of the point's input blocks; nothing is owed, the shares are full,
  and the region's invariant is the untouched rest.
-/
import proofs.«176245_j63866163691863_2_alg».proof.Proof.KRegion0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 0 on core `c`, at the region-entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => out0_18 (iblk0 V c 0 t) (iblk0 V c 2 t) (iblk0 V c 3 t) (iblk0 V c 6 t) (iblk0 V c 7 t)
    | ⟨19, _⟩ => out0_19 (iblk0 V c 0 t) (iblk0 V c 2 t) (iblk0 V c 3 t) (iblk0 V c 8 t) (iblk0 V c 9 t)
    | ⟨20, _⟩ => out0_20 (iblk0 V c 0 t) (iblk0 V c 2 t) (iblk0 V c 3 t) (iblk0 V c 10 t) (iblk0 V c 11 t)
    | ⟨21, _⟩ => out0_21 (iblk0 V c 1 t) (iblk0 V c 4 t) (iblk0 V c 5 t) (iblk0 V c 12 t) (iblk0 V c 13 t)
    | ⟨22, _⟩ => out0_22 (iblk0 V c 1 t) (iblk0 V c 4 t) (iblk0 V c 5 t) (iblk0 V c 14 t) (iblk0 V c 15 t)
    | ⟨23, _⟩ => out0_23 (iblk0 V c 1 t) (iblk0 V c 4 t) (iblk0 V c 5 t) (iblk0 V c 16 t) (iblk0 V c 17 t)
    | ⟨_ + 24, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = out0_18 (iblk0 V c 0 t) (iblk0 V c 2 t) (iblk0 V c 3 t) (iblk0 V c 6 t) (iblk0 V c 7 t) := by dsimp only [dat0]
theorem after0_19 (c : Dev nD) (t : Fin cfg0.N) : (dat0 V c).after 19 t = out0_19 (iblk0 V c 0 t) (iblk0 V c 2 t) (iblk0 V c 3 t) (iblk0 V c 8 t) (iblk0 V c 9 t) := by dsimp only [dat0]
theorem after0_20 (c : Dev nD) (t : Fin cfg0.N) : (dat0 V c).after 20 t = out0_20 (iblk0 V c 0 t) (iblk0 V c 2 t) (iblk0 V c 3 t) (iblk0 V c 10 t) (iblk0 V c 11 t) := by dsimp only [dat0]
theorem after0_21 (c : Dev nD) (t : Fin cfg0.N) : (dat0 V c).after 21 t = out0_21 (iblk0 V c 1 t) (iblk0 V c 4 t) (iblk0 V c 5 t) (iblk0 V c 12 t) (iblk0 V c 13 t) := by dsimp only [dat0]
theorem after0_22 (c : Dev nD) (t : Fin cfg0.N) : (dat0 V c).after 22 t = out0_22 (iblk0 V c 1 t) (iblk0 V c 4 t) (iblk0 V c 5 t) (iblk0 V c 14 t) (iblk0 V c 15 t) := by dsimp only [dat0]
theorem after0_23 (c : Dev nD) (t : Fin cfg0.N) : (dat0 V c).after 23 t = out0_23 (iblk0 V c 1 t) (iblk0 V c 4 t) (iblk0 V c 5 t) (iblk0 V c 16 t) (iblk0 V c 17 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t))

set_option maxHeartbeats 2000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel0 c Set.univ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
/-
  Region 1 of the kernel program (attention fused with the output projection; grid: batch × row block × head pair): what
  the body's runs share. The body has two conditionals on the head-pair coordinate `h`: the accumulator is zeroed at `h = 0`
  and the output block is stored at `h = 5`; so a point is in one of three cases — A (`h = 0`), B (`0 < h < 5`), C (`h = 5`).
  The accumulator is a scratch buffer carried from one point to the next; the output window is idle (neither stored nor written
  back) at the points of cases A and B.
-/
import proofs.«176245_j63866163691863_2_alg».proof.Proof.Gen.Kernel.Launch
import proofs.«176245_j63866163691863_2_alg».proof.Proof.Gen.Kernel.Skeleton
import proofs.«176245_j63866163691863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The accumulator is zeroed: the head-pair coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)

/-- The output block is stored: the head-pair coordinate is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S1x512x768 .f32 := (Memref.whole cc1_stg5_0 : Memref sig .tc .vmem S1x512x768 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x768 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S512x768 .f32 := Memref.whole cc1_scratch0
abbrev VS1_0 : View sig .tc .vmem S512x768 .f32 := scM1_0.view

/-- The region's untouched rest with the accumulator split out as a memref owned at some contents. -/
theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.KRegion1RunA.lean ====
/-
  Region 1, case A (the head-pair coordinate is 0: the accumulator is zeroed, then added to; nothing is stored to the output block):
  the whole body's triple on whole staging memrefs. What each buffer ends with is given as the list of pieces the body's
  stores leave in it, found by running the body.
-/
import proofs.«176245_j63866163691863_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case A, with the body's
    triple: the inputs' memrefs at their contents `x·`, the output's at contents `xi5` handed back untouched, the accumulator at anything; the body runs
    to the continuation holding the inputs' as they were and the accumulator with its pieces written. -/
noncomputable def kernelRun1_A (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KRegion1RunB.lean ====
/-
  Region 1, case B (the head-pair coordinate is 1..4: the accumulator is added to; nothing is stored to the output block):
  the whole body's triple on whole staging memrefs. What each buffer ends with is given as the list of pieces the body's
  stores leave in it, found by running the body.
-/
import proofs.«176245_j63866163691863_2_alg».proof.Proof.KRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case B, with the body's
    triple: the inputs' memrefs at their contents `x·`, the output's at contents `xi5` handed back untouched, the accumulator at what the point before left (`xs0`); the body runs
    to the continuation holding the inputs' as they were and the accumulator with its pieces written. -/
noncomputable def kernelRun1_B (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KRegion1RunC.lean ====
/-
  Region 1, case C (the head-pair coordinate is 5: the accumulator is added to, and accumulator + bias is stored to the output block):
  the whole body's triple on whole staging memrefs. What each buffer ends with is given as the list of pieces the body's
  stores leave in it, found by running the body.
-/
import proofs.«176245_j63866163691863_2_alg».proof.Proof.KRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case C, with the body's
    triple: the inputs' memrefs at their contents `x·`, the output's at anything, the accumulator at what the point before left (`xs0`); the body runs
    to the continuation holding the inputs' as they were, the output's with its pieces written and the accumulator with its pieces written. -/
noncomputable def kernelRun1_C (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.KRegion1Frame.lean ====
/-
  Region 1: what the output block and the accumulator hold after each point (by recursion on the point: the case the
  point is in, run at the point's memrefs and input blocks, the accumulator taken from the point before), the pipeline's
  proof data, and the body obligation at every point.
-/
import proofs.«176245_j63866163691863_2_alg».proof.Proof.KRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: a placeholder nothing consults, the window being idle at these points). -/
def out1_A_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) : Vec F S1x512x768 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the accumulator cover it. -/
theorem scover1_A_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (y : S512x768.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x768.size (by sl_kernel_rfl) y

/-- What case A leaves in the accumulator: its pieces read back. -/
def sout1_A_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) : Vec F S512x768 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- What case B leaves in the output window's staging buffer: its pieces read back (none: a placeholder nothing consults, the window being idle at these points). -/
def out1_B_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the accumulator cover it. -/
theorem scover1_B_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x768.size (by sl_kernel_rfl) y

/-- What case B leaves in the accumulator: its pieces read back. -/
def sout1_B_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's one store into the output block covers it. -/
theorem cover1_C_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S1x512x768.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x768.size (by sl_kernel_rfl) y

/-- What case C leaves in the output window's staging buffer: its pieces read back. -/
def out1_C_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the accumulator cover it. -/
theorem scover1_C_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x768.size (by sl_kernel_rfl) y

/-- What case C leaves in the accumulator: its pieces read back. -/
def sout1_C_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output block and the accumulator hold after each point -/

/-- After the body at position `n`: (the output window's staging buffer, the accumulator). -/
def outsAt1 (c : Dev nD) : (n : ℕ) → n < cfg1.N → Vec F S1x512x768 .f32 × Vec F S512x768 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 6 = 0 then
      if h1 : (n + 1) % 6 = 5 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 6 = 5 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 6 = 0) (h1 : ¬t.val % 6 = 5) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 6 = 0) (h1 : ¬t.val % 6 = 5) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 6 = 0) (h1 : t.val % 6 = 5) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the untouched rest; afterwards the accumulator at what
    the point before left in it, beside the other scoped buffers and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the point's case is decided by its position modulo 6;
    the invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 6 = 0
  · by_cases h1 : t.val % 6 = 5
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 6 = 5
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the untouched rest back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 96 := N_1; omega)

end Cert.Kernel.Hand

end
-- ==== Proof.KRegion2Runs.lean ====
/-
  Region 2 of the kernel program (attention fused with the output projection; grid: batch × row block × head pair): what
  the body's runs share. The body has two conditionals on the head-pair coordinate `h`: the accumulator is zeroed at `h = 0`
  and the output block is stored at `h = 5`; so a point is in one of three cases — A (`h = 0`), B (`0 < h < 5`), C (`h = 5`).
  The accumulator is a scratch buffer carried from one point to the next; the output window is idle (neither stored nor written
  back) at the points of cases A and B.
-/
import proofs.«176245_j63866163691863_2_alg».proof.Proof.Gen.Kernel.Launch
import proofs.«176245_j63866163691863_2_alg».proof.Proof.Gen.Kernel.Skeleton
import proofs.«176245_j63866163691863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The accumulator is zeroed: the head-pair coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 6 = 0 :=
  (by decide +kernel : ∀ t : Fin grid2.N, cond2_0 (grid2.coords t) ↔ t.val % 6 = 0)

/-- The output block is stored: the head-pair coordinate is 5. -/
abbrev cond2_1 (i : grid2.Coords) : Prop := k2_cond2 i = 1#1
theorem hcond2_1 : ∀ t : Fin cfg2.N, cond2_1 (grid2.coords t) ↔ t.val % 6 = 5 :=
  (by decide +kernel : ∀ t : Fin grid2.N, cond2_1 (grid2.coords t) ↔ t.val % 6 = 5)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
theorem liveAt2_5_C : ∀ t : Fin cfg2.N, ¬cond2_0 (grid2.coords t) → cond2_1 (grid2.coords t) → cfg2.idle 5 (grid2.coords t) = false := by decide +kernel

/-! ## The memrefs the body is called with -/

/-- One staging buffer of the output window, through which its contents are stated. -/
abbrev VO2_5 : View sig .tc .vmem S1x512x768 .f32 := (Memref.whole cc2_stg5_0 : Memref sig .tc .vmem S1x512x768 .f32).view
abbrev ms2_0 (t : Fin cfg2.N) : Memref sig .tc .vmem S1x512x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x768 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S768 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x768 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S512x768 .f32 := Memref.whole cc2_scratch0
abbrev VS2_0 : View sig .tc .vmem S512x768 .f32 := scM2_0.view

/-- The region's untouched rest with the accumulator split out as a memref owned at some contents. -/
theorem PhiA2_eq (c : Dev nD) :
    (Pipeline.ΦA spec2 c : sProp 𝕄)
      = iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.KRegion2RunA.lean ====
/-
  Region 2, case A (the head-pair coordinate is 0: the accumulator is zeroed, then added to; nothing is stored to the output block):
  the whole body's triple on whole staging memrefs. What each buffer ends with is given as the list of pieces the body's
  stores leave in it, found by running the body.
-/
import proofs.«176245_j63866163691863_2_alg».proof.Proof.KRegion2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case A, with the body's
    triple: the inputs' memrefs at their contents `x·`, the output's at contents `xi5` handed back untouched, the accumulator at anything; the body runs
    to the continuation holding the inputs' as they were and the accumulator with its pieces written. -/
noncomputable def kernelRun2_A (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__attn_outproj_kernel i arg3 harg3 arg4 harg4 arg5 harg5 arg6 harg6 arg7 harg7 arg8 harg8 arg9 harg9) K } := by
  refine ⟨[], ?_, fun xi5 E K => ?run⟩
  case run =>
    simp only [cc2__attn_outproj_kernel_eq_skeleton]; unfold cc2__attn_outproj_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KRegion2RunB.lean ====
/-
  Region 2, case B (the head-pair coordinate is 1..4: the accumulator is added to; nothing is stored to the output block):
  the whole body's triple on whole staging memrefs. What each buffer ends with is given as the list of pieces the body's
  stores leave in it, found by running the body.
-/
import proofs.«176245_j63866163691863_2_alg».proof.Proof.KRegion2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case B, with the body's
    triple: the inputs' memrefs at their contents `x·`, the output's at contents `xi5` handed back untouched, the accumulator at what the point before left (`xs0`); the body runs
    to the continuation holding the inputs' as they were and the accumulator with its pieces written. -/
noncomputable def kernelRun2_B (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__attn_outproj_kernel i arg3 harg3 arg4 harg4 arg5 harg5 arg6 harg6 arg7 harg7 arg8 harg8 arg9 harg9) K } := by
  refine ⟨[], ?_, fun xi5 E K => ?run⟩
  case run =>
    simp only [cc2__attn_outproj_kernel_eq_skeleton]; unfold cc2__attn_outproj_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KRegion2RunC.lean ====
/-
  Region 2, case C (the head-pair coordinate is 5: the accumulator is added to, and accumulator + bias is stored to the output block):
  the whole body's triple on whole staging memrefs. What each buffer ends with is given as the list of pieces the body's
  stores leave in it, found by running the body.
-/
import proofs.«176245_j63866163691863_2_alg».proof.Proof.KRegion2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case C, with the body's
    triple: the inputs' memrefs at their contents `x·`, the output's at anything, the accumulator at what the point before left (`xs0`); the body runs
    to the continuation holding the inputs' as they were, the output's with its pieces written and the accumulator with its pieces written. -/
noncomputable def kernelRun2_C (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__attn_outproj_kernel i arg3 harg3 arg4 harg4 arg5 harg5 arg6 harg6 arg7 harg7 arg8 harg8 arg9 harg9) K } := by
  refine ⟨?_, ?_, fun E K => ?run⟩
  case run =>
    simp only [cc2__attn_outproj_kernel_eq_skeleton]; unfold cc2__attn_outproj_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.KRegion2Frame.lean ====
/-
  Region 2: what the output block and the accumulator hold after each point (by recursion on the point: the case the
  point is in, run at the point's memrefs and input blocks, the accumulator taken from the point before), the pipeline's
  proof data, and the body obligation at every point.
-/
import proofs.«176245_j63866163691863_2_alg».proof.Proof.KRegion2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: a placeholder nothing consults, the window being idle at these points). -/
def out2_A_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) : Vec F S1x512x768 .f32 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3 x4).1)

/-- Case A's stores into the accumulator cover it. -/
theorem scover2_A_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (y : S512x768.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S512x768.size (by sl_kernel_rfl) y

/-- What case A leaves in the accumulator: its pieces read back. -/
def sout2_A_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) : Vec F S512x768 .f32 :=
  VS2_0.read (Elt F) (VS2_0.writes (Elt F) VS2_0.junk (kernelRun2_A c i arg3 harg3 arg4 harg4 arg5 harg5 arg6 harg6 arg7 harg7 arg8 harg8 arg9 harg9 hc0 hc1 x0 x1 x2 x3 x4).2.1)

/-- What case B leaves in the output window's staging buffer: its pieces read back (none: a placeholder nothing consults, the window being idle at these points). -/
def out2_B_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO2_5.read (Elt F) (VO2_5.writes (Elt F) VO2_5.junk (kernelRun2_B c i arg3 harg3 arg4 harg4 arg5 harg5 arg6 harg6 arg7 harg7 arg8 harg8 arg9 harg9 hc0 hc1 x0 x1 x2 x3 x4 xs0).1)

/-- Case B's stores into the accumulator cover it. -/
theorem scover2_B_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S512x768.size (by sl_kernel_rfl) y

/-- What case B leaves in the accumulator: its pieces read back. -/
def sout2_B_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS2_0.read (Elt F) (VS2_0.writes (Elt F) VS2_0.junk (kernelRun2_B c i arg3 harg3 arg4 harg4 arg5 harg5 arg6 harg6 arg7 harg7 arg8 harg8 arg9 harg9 hc0 hc1 x0 x1 x2 x3 x4 xs0).2.1)

/-- Case C's one store into the output block covers it. -/
theorem cover2_C_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S1x512x768.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S1x512x768.size (by sl_kernel_rfl) y

/-- What case C leaves in the output window's staging buffer: its pieces read back. -/
def out2_C_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs0).1)

/-- Case C's stores into the accumulator cover it. -/
theorem scover2_C_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S512x768.size (by sl_kernel_rfl) y

/-- What case C leaves in the accumulator: its pieces read back. -/
def sout2_C_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS2_0.read (Elt F) (VS2_0.writes (Elt F) VS2_0.junk (kernelRun2_C c i arg3 harg3 arg4 harg4 arg5 harg5 arg6 harg6 arg7 harg7 arg8 harg8 arg9 harg9 hc0 hc1 x0 x1 x2 x3 x4 xs0).2.1)

/-! ## What the output block and the accumulator hold after each point -/

/-- After the body at position `n`: (the output window's staging buffer, the accumulator). -/
def outsAt2 (c : Dev nD) : (n : ℕ) → n < cfg2.N → Vec F S1x512x768 .f32 × Vec F S512x768 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 6 = 0 then
      if h1 : (n + 1) % 6 = 5 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 6 = 5 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 6 = 0) (h1 : ¬t.val % 6 = 5) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 6 = 0) (h1 : ¬t.val % 6 = 5) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 6 = 0) (h1 : t.val % 6 = 5) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the untouched rest; afterwards the accumulator at what
    the point before left in it, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the point's case is decided by its position modulo 6;
    the invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 96 := lt_of_lt_of_eq t.isLt (show cfg2.N = 96 from N_2)
  by_cases h0 : t.val % 6 = 0
  · by_cases h1 : t.val % 6 = 5
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 6 = 5
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untouched rest back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 96 := N_2; omega)

end Cert.Kernel.Hand

end
-- ==== Proof.KMainRun.lean ====
/-
  The whole program's run: the host lines that cast the weight matrices, then the three regions one after the other.
  The buffers' contents at each boundary are a fold from the launch memory: a host stretch applies its operations; a region
  leaves its input arrays as entered and each output array at what its write-backs leave. Every weakly fair execution
  terminates, nothing faulting, and the final memory holds every unscoped buffer at the last boundary's contents: from this
  both the frame (each argument array reads back through the fold to its launch contents) and the two results follow.
-/
import proofs.«176245_j63866163691863_2_alg».proof.Proof.KRegion0Dat
import proofs.«176245_j63866163691863_2_alg».proof.Proof.KRegion1Frame
import proofs.«176245_j63866163691863_2_alg».proof.Proof.KRegion2Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- No host line writes a buffer other than its own result. -/
theorem W1_of (c : Dev nD) (b : Ref sig .tc) (hb : b ∉ ([main_v0, main_v1, main_v2, main_v3, main_v4, main_v5, main_v6, main_v7] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false, not_or] at hb
    refine ⟨?_, ?_, ?_, ?_, ?_, ?_, ?_, ?_⟩
    · exact StableHlo.devRef_ne_of_ne hb.1
    · exact StableHlo.devRef_ne_of_ne hb.2.1
    · exact StableHlo.devRef_ne_of_ne hb.2.2.1
    · exact StableHlo.devRef_ne_of_ne hb.2.2.2.1
    · exact StableHlo.devRef_ne_of_ne hb.2.2.2.2.1
    · exact StableHlo.devRef_ne_of_ne hb.2.2.2.2.2.1
    · exact StableHlo.devRef_ne_of_ne hb.2.2.2.2.2.2.1
    · exact StableHlo.devRef_ne_of_ne hb.2.2.2.2.2.2.2))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := (W2_arr m ρ c 9).trans (((dat0 (V1 m ρ) c).arrAt_in 9 rfl _).trans (A_eq0 (V1 m ρ) c 9))
    _ = W0 m ρ c (Proc.devRef .tc main_arg9) := W1_of m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := (W2_arr m ρ c 11).trans (((dat0 (V1 m ρ) c).arrAt_in 11 rfl _).trans (A_eq0 (V1 m ρ) c 11))
    _ = W0 m ρ c (Proc.devRef .tc main_arg11) := W1_of m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := (W2_arr m ρ c 13).trans (((dat0 (V1 m ρ) c).arrAt_in 13 rfl _).trans (A_eq0 (V1 m ρ) c 13))
    _ = W0 m ρ c (Proc.devRef .tc main_arg13) := W1_of m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := (W2_arr m ρ c 15).trans (((dat0 (V1 m ρ) c).arrAt_in 15 rfl _).trans (A_eq0 (V1 m ρ) c 15))
    _ = W0 m ρ c (Proc.devRef .tc main_arg15) := W1_of m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := (W2_arr m ρ c 17).trans (((dat0 (V1 m ρ) c).arrAt_in 17 rfl _).trans (A_eq0 (V1 m ρ) c 17))
    _ = W0 m ρ c (Proc.devRef .tc main_arg17) := W1_of m ρ c main_arg17 (by decide)
    _ = m ((c : Thread nD τ).loc main_arg17) := rfl
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := W1_of m ρ c main_arg18 (by decide)
    _ = m ((c : Thread nD τ).loc main_arg18) := rfl
theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := (W3_arr m ρ c 4).trans (((dat1 (V2 m ρ) c).arrAt_in 4 rfl _).trans (A_eq1 (V2 m ρ) c 4))
    _ = W1 m ρ c (Proc.devRef .tc main_arg19) := W2_of_ne m ρ c main_arg19 (by decide)
    _ = W0 m ρ c (Proc.devRef .tc main_arg19) := W1_of m ρ c main_arg19 (by decide)
    _ = m ((c : Thread nD τ).loc main_arg19) := rfl
theorem W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := W1_of m ρ c main_arg20 (by decide)
    _ = m ((c : Thread nD τ).loc main_arg20) := rfl
theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := (W4_arr m ρ c 4).trans (((dat2 (V3 m ρ) c).arrAt_in 4 rfl _).trans (A_eq2 (V3 m ρ) c 4))
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := W1_of m ρ c main_arg21 (by decide)
    _ = m ((c : Thread nD τ).loc main_arg21) := rfl

/-! ## The two results are the last two regions' output arrays -/

theorem W4_main_v9 (c : Dev nD) : W4 m ρ c (Proc.devRef .tc main_v9) = (dat1 (V2 m ρ) c).arrAt 5 cfg1.N :=
  (W4_of_ne m ρ c main_v9 (by decide)).trans (W3_arr m ρ c 5)
theorem W4_main_v10 (c : Dev nD) : W4 m ρ c (Proc.devRef .tc main_v10) = (dat2 (V3 m ρ) c).arrAt 5 cfg2.N :=
  W4_arr m ρ c 5

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m ρ) c).trans h2

  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's. Its arrays are split out of the unscoped buffers and put back at the exit contents; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (hout2 (V3 m ρ) c).trans h2

  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c)⟩)
    (run_all m ρ)

end Cert.Kernel.Hand

end
-- ==== Proof.Region0.lean ====
/-
  Region 0 of the kernel program: both layer norms and the six projections, one grid point per (batch, half of the rows).
  The body loads its eighteen input blocks whole, computes, and stores each of its six output blocks whole; nothing is
  carried from one point to the next. Stated here, for any float instance: what each output block holds after the body as a
  function of the input blocks (the body's payloads composed), the body's triple, the proof data of the pipeline (each
  input's staging buffer at its block, each output's at that function of the point's input blocks) and the body obligation.
-/
import proofs.«176245_j63866163691863_2_alg».proof.Proof.Gen.KernelIdeal.Launch
import proofs.«176245_j63866163691863_2_alg».proof.Proof.Gen.KernelIdeal.Skeleton
import proofs.«176245_j63866163691863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (an unfetched window's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (an unfetched window's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (an unfetched window's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not (an unfetched window's index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not (an unfetched window's index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not (an unfetched window's index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not (an unfetched window's index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not (an unfetched window's index has not moved). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, fetched there or not (an unfetched window's index has not moved). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, fetched there or not (an unfetched window's index has not moved). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's staging buffer holds its block at every point, fetched there or not (an unfetched window's index has not moved). -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14's staging buffer holds its block at every point, fetched there or not (an unfetched window's index has not moved). -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-- Input window 15's staging buffer holds its block at every point, fetched there or not (an unfetched window's index has not moved). -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-- Input window 16's staging buffer holds its block at every point, fetched there or not (an unfetched window's index has not moved). -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-- Input window 17's staging buffer holds its block at every point, fetched there or not (an unfetched window's index has not moved). -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rA0 : Rect S1x512x768 := Rect.unit (s := S1x512x768) ![0, 0, 0] S1x512x768.size inb_S1x512x768_S1x512x768_0_0_0
abbrev rV0 : Rect S768 := Rect.unit (s := S768) ![0] S768.size inb_S768_S768_0
abbrev rW0 : Rect S768x768 := Rect.unit (s := S768x768) ![0, 0] S768x768.size inb_S768x768_S768x768_0_0

/-! ## The two normalised row blocks, as the body computes them from the input blocks -/

/-- The first input's block normalised over its last axis, scaled and shifted (in the matrix unit's input format). -/
def ln0_a (x0 : Vec F S1x512x768 .f32) (x2 x3 : Vec F S768 .f32) : FVec F S512x768 .f32 :=
  k0_pay3 (View.ld x0 rA0) (View.ld x2 rV0) (View.ld x3 rV0)
/-- The second input's block normalised over its last axis, scaled and shifted, in the matrix unit's input format. -/
def ln0_b (x1 : Vec F S1x512x768 .f32) (x4 x5 : Vec F S768 .f32) : FVec F S512x768 .bf16 :=
  k0_pay7 (k0_pay2 (View.ld x1 rA0)) (k0_pay4 (View.ld x1 rA0)) (k0_pay5 (View.ld x1 rA0)) (View.ld x4 rV0) (View.ld x5 rV0)

/-! ## What the body leaves in each output window's buffer: one whole-block store each -/

def out0_18 (x0 : Vec F S1x512x768 .f32) (x2 x3 : Vec F S768 .f32) (x6 : Vec F S768x768 .bf16) (x7 : Vec F S768 .f32) : Vec F S1x512x768 .bf16 :=
  View.canon [⟨rA0, k0_pay8 (ln0_a x0 x2 x3) (View.ld x6 rW0) (View.ld x7 rV0)⟩]
def out0_19 (x0 : Vec F S1x512x768 .f32) (x2 x3 : Vec F S768 .f32) (x8 : Vec F S768x768 .bf16) (x9 : Vec F S768 .f32) : Vec F S1x512x768 .bf16 :=
  View.canon [⟨rA0, k0_pay9 (ln0_a x0 x2 x3) (View.ld x8 rW0) (View.ld x9 rV0)⟩]
def out0_20 (x0 : Vec F S1x512x768 .f32) (x2 x3 : Vec F S768 .f32) (x10 : Vec F S768x768 .bf16) (x11 : Vec F S768 .f32) : Vec F S1x512x768 .bf16 :=
  View.canon [⟨rA0, k0_pay10 (k0_pay6 (ln0_a x0 x2 x3)) (View.ld x10 rW0) (View.ld x11 rV0)⟩]
def out0_21 (x1 : Vec F S1x512x768 .f32) (x4 x5 : Vec F S768 .f32) (x12 : Vec F S768x768 .bf16) (x13 : Vec F S768 .f32) : Vec F S1x512x768 .bf16 :=
  View.canon [⟨rA0, k0_pay11 (ln0_b x1 x4 x5) (View.ld x12 rW0) (View.ld x13 rV0)⟩]
def out0_22 (x1 : Vec F S1x512x768 .f32) (x4 x5 : Vec F S768 .f32) (x14 : Vec F S768x768 .bf16) (x15 : Vec F S768 .f32) : Vec F S1x512x768 .bf16 :=
  View.canon [⟨rA0, k0_pay12 (ln0_b x1 x4 x5) (View.ld x14 rW0) (View.ld x15 rV0)⟩]
def out0_23 (x1 : Vec F S1x512x768 .f32) (x4 x5 : Vec F S768 .f32) (x16 : Vec F S768x768 .bf16) (x17 : Vec F S768 .f32) : Vec F S1x512x768 .bf16 :=
  View.canon [⟨rA0, k0_pay1 (ln0_b x1 x4 x5) (k0_pay13 (View.ld x16 rW0)) (constant S512x768 .f32 0x00000000#32) (View.ld x17 rV0)⟩]

/-- One whole-block store covers the block. -/
theorem cover0_out (p0 : Vec F S1x512x768 .bf16) (y : S1x512x768.Idx) :
    ∃ pc ∈ ([⟨rA0, p0⟩] : List (View.Piece (Elt F) S1x512x768 .bf16)), y ∈ pc.1.set :=
  View.cover_of_tiled [⟨rA0, p0⟩] S1x512x768.size (by rfl) y

/-! ## The body's triple -/

set_option maxHeartbeats 4000000 in
/-- The kernel body on whole staging memrefs, the inputs' at read contents `x·` and the outputs' at anything, runs to the
    continuation holding the inputs' as they were and each output's at its function of the inputs'. -/
theorem sound_kernel0 (c : Dev nD) (E : Set ℕ) (i : grid0.Coords) (arg2 : Memref sig .tc .vmem S1x512x768 .f32) (harg2 : arg2.IsWhole) (arg3 : Memref sig .tc .vmem S1x512x768 .f32) (harg3 : arg3.IsWhole) (arg4 : Memref sig .tc .vmem S768 .f32) (harg4 : arg4.IsWhole) (arg5 : Memref sig .tc .vmem S768 .f32) (harg5 : arg5.IsWhole) (arg6 : Memref sig .tc .vmem S768 .f32) (harg6 : arg6.IsWhole) (arg7 : Memref sig .tc .vmem S768 .f32) (harg7 : arg7.IsWhole) (arg8 : Memref sig .tc .vmem S768x768 .bf16) (harg8 : arg8.IsWhole) (arg9 : Memref sig .tc .vmem S768 .f32) (harg9 : arg9.IsWhole) (arg10 : Memref sig .tc .vmem S768x768 .bf16) (harg10 : arg10.IsWhole) (arg11 : Memref sig .tc .vmem S768 .f32) (harg11 : arg11.IsWhole) (arg12 : Memref sig .tc .vmem S768x768 .bf16) (harg12 : arg12.IsWhole) (arg13 : Memref sig .tc .vmem S768 .f32) (harg13 : arg13.IsWhole) (arg14 : Memref sig .tc .vmem S768x768 .bf16) (harg14 : arg14.IsWhole) (arg15 : Memref sig .tc .vmem S768 .f32) (harg15 : arg15.IsWhole) (arg16 : Memref sig .tc .vmem S768x768 .bf16) (harg16 : arg16.IsWhole) (arg17 : Memref sig .tc .vmem S768 .f32) (harg17 : arg17.IsWhole) (arg18 : Memref sig .tc .vmem S768x768 .bf16) (harg18 : arg18.IsWhole) (arg19 : Memref sig .tc .vmem S768 .f32) (harg19 : arg19.IsWhole) (arg20 : Memref sig .tc .vmem S1x512x768 .bf16) (harg20 : arg20.IsWhole) (arg21 : Memref sig .tc .vmem S1x512x768 .bf16) (harg21 : arg21.IsWhole) (arg22 : Memref sig .tc .vmem S1x512x768 .bf16) (harg22 : arg22.IsWhole) (arg23 : Memref sig .tc .vmem S1x512x768 .bf16) (harg23 : arg23.IsWhole) (arg24 : Memref sig .tc .vmem S1x512x768 .bf16) (harg24 : arg24.IsWhole) (arg25 : Memref sig .tc .vmem S1x512x768 .bf16) (harg25 : arg25.IsWhole)
    (x0 : Vec F S1x512x768 .f32) (x1 : Vec F S1x512x768 .f32) (x2 : Vec F S768 .f32) (x3 : Vec F S768 .f32) (x4 : Vec F S768 .f32) (x5 : Vec F S768 .f32) (x6 : Vec F S768x768 .bf16) (x7 : Vec F S768 .f32) (x8 : Vec F S768x768 .bf16) (x9 : Vec F S768 .f32) (x10 : Vec F S768x768 .bf16) (x11 : Vec F S768 .f32) (x12 : Vec F S768x768 .bf16) (x13 : Vec F S768 .f32) (x14 : Vec F S768x768 .bf16) (x15 : Vec F S768 .f32) (x16 : Vec F S768x768 .bf16) (x17 : Vec F S768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare (out0_18 x0 x2 x3 x6 x7) ∗ owns (c : Thread nD τ) arg21 fullShare (out0_19 x0 x2 x3 x8 x9) ∗ owns (c : Thread nD τ) arg22 fullShare (out0_20 x0 x2 x3 x10 x11) ∗ owns (c : Thread nD τ) arg23 fullShare (out0_21 x1 x4 x5 x12 x13) ∗ owns (c : Thread nD τ) arg24 fullShare (out0_22 x1 x4 x5 x14 x15) ∗ owns (c : Thread nD τ) arg25 fullShare (out0_23 x1 x4 x5 x16 x17)) -∗ K ⟨⟩))
      ⊢ wp frame (wpE (defs₀ (F := F)) Variants.none c none) E (cc0__ln_qkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__ln_qkv_kernel_eq_skeleton]; unfold cc0__ln_qkv_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0; subst hf1; subst hf2; subst hf3; subst hf4; subst hf5; subst hf6; subst hf7; subst hf8; subst hf9; subst hf10; subst hf11; subst hf12; subst hf13; subst hf14; subst hf15; subst hf16; subst hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover0_out _)
  isplitl [H19]
  · iexists _; isplitr
    swap; · iexact H19
    ipureintro
    exact View.read_writes_eq_canon _ _ _ (cover0_out _)
  isplitl [H20]
  · iexists _; isplitr
    swap; · iexact H20
    ipureintro
    exact View.read_writes_eq_canon _ _ _ (cover0_out _)
  isplitl [H21]
  · iexists _; isplitr
    swap; · iexact H21
    ipureintro
    exact View.read_writes_eq_canon _ _ _ (cover0_out _)
  isplitl [H22]
  · iexists _; isplitr
    swap; · iexact H22
    ipureintro
    exact View.read_writes_eq_canon _ _ _ (cover0_out _)
  iexists _; isplitr
  swap; · iexact H23
  ipureintro
  exact View.read_writes_eq_canon _ _ _ (cover0_out _)

end Cert.KernelIdeal.Hand

end
-- ==== Proof.Region0Dat.lean ====
/-
  Region 0's proof data and body obligation: after the body at point `t` each input window's staging buffer holds its block
  and each output window's holds the body's function of the point's input blocks; nothing is owed, the shares are full,
  and the region's invariant is the untouched rest.
-/
import proofs.«176245_j63866163691863_2_alg».proof.Proof.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 0 on core `c`, at the region-entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => out0_18 (iblk0 V c 0 t) (iblk0 V c 2 t) (iblk0 V c 3 t) (iblk0 V c 6 t) (iblk0 V c 7 t)
    | ⟨19, _⟩ => out0_19 (iblk0 V c 0 t) (iblk0 V c 2 t) (iblk0 V c 3 t) (iblk0 V c 8 t) (iblk0 V c 9 t)
    | ⟨20, _⟩ => out0_20 (iblk0 V c 0 t) (iblk0 V c 2 t) (iblk0 V c 3 t) (iblk0 V c 10 t) (iblk0 V c 11 t)
    | ⟨21, _⟩ => out0_21 (iblk0 V c 1 t) (iblk0 V c 4 t) (iblk0 V c 5 t) (iblk0 V c 12 t) (iblk0 V c 13 t)
    | ⟨22, _⟩ => out0_22 (iblk0 V c 1 t) (iblk0 V c 4 t) (iblk0 V c 5 t) (iblk0 V c 14 t) (iblk0 V c 15 t)
    | ⟨23, _⟩ => out0_23 (iblk0 V c 1 t) (iblk0 V c 4 t) (iblk0 V c 5 t) (iblk0 V c 16 t) (iblk0 V c 17 t)
    | ⟨_ + 24, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = out0_18 (iblk0 V c 0 t) (iblk0 V c 2 t) (iblk0 V c 3 t) (iblk0 V c 6 t) (iblk0 V c 7 t) := by dsimp only [dat0]
theorem after0_19 (c : Dev nD) (t : Fin cfg0.N) : (dat0 V c).after 19 t = out0_19 (iblk0 V c 0 t) (iblk0 V c 2 t) (iblk0 V c 3 t) (iblk0 V c 8 t) (iblk0 V c 9 t) := by dsimp only [dat0]
theorem after0_20 (c : Dev nD) (t : Fin cfg0.N) : (dat0 V c).after 20 t = out0_20 (iblk0 V c 0 t) (iblk0 V c 2 t) (iblk0 V c 3 t) (iblk0 V c 10 t) (iblk0 V c 11 t) := by dsimp only [dat0]
theorem after0_21 (c : Dev nD) (t : Fin cfg0.N) : (dat0 V c).after 21 t = out0_21 (iblk0 V c 1 t) (iblk0 V c 4 t) (iblk0 V c 5 t) (iblk0 V c 12 t) (iblk0 V c 13 t) := by dsimp only [dat0]
theorem after0_22 (c : Dev nD) (t : Fin cfg0.N) : (dat0 V c).after 22 t = out0_22 (iblk0 V c 1 t) (iblk0 V c 4 t) (iblk0 V c 5 t) (iblk0 V c 14 t) (iblk0 V c 15 t) := by dsimp only [dat0]
theorem after0_23 (c : Dev nD) (t : Fin cfg0.N) : (dat0 V c).after 23 t = out0_23 (iblk0 V c 1 t) (iblk0 V c 4 t) (iblk0 V c 5 t) (iblk0 V c 16 t) (iblk0 V c 17 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t))

set_option maxHeartbeats 2000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel0 c Set.univ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  Region 1 of the kernel program (attention fused with the output projection; grid: batch × row block × head pair): what
  the body's runs share. The body has two conditionals on the head-pair coordinate `h`: the accumulator is zeroed at `h = 0`
  and the output block is stored at `h = 5`; so a point is in one of three cases — A (`h = 0`), B (`0 < h < 5`), C (`h = 5`).
  The accumulator is a scratch buffer carried from one point to the next; the output window is idle (neither stored nor written
  back) at the points of cases A and B.
-/
import proofs.«176245_j63866163691863_2_alg».proof.Proof.Gen.KernelIdeal.Launch
import proofs.«176245_j63866163691863_2_alg».proof.Proof.Gen.KernelIdeal.Skeleton
import proofs.«176245_j63866163691863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The accumulator is zeroed: the head-pair coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)

/-- The output block is stored: the head-pair coordinate is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S1x512x768 .f32 := (Memref.whole cc1_stg5_0 : Memref sig .tc .vmem S1x512x768 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x768 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S512x768 .f32 := Memref.whole cc1_scratch0
abbrev VS1_0 : View sig .tc .vmem S512x768 .f32 := scM1_0.view

/-- The region's untouched rest with the accumulator split out as a memref owned at some contents. -/
theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.Region1RunA.lean ====
/-
  Region 1, case A (the head-pair coordinate is 0: the accumulator is zeroed, then added to; nothing is stored to the output block):
  the whole body's triple on whole staging memrefs. What each buffer ends with is given as the list of pieces the body's
  stores leave in it, found by running the body.
-/
import proofs.«176245_j63866163691863_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case A, with the body's
    triple: the inputs' memrefs at their contents `x·`, the output's at contents `xi5` handed back untouched, the accumulator at anything; the body runs
    to the continuation holding the inputs' as they were and the accumulator with its pieces written. -/
noncomputable def kernelRun1_A (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.Region1RunB.lean ====
/-
  Region 1, case B (the head-pair coordinate is 1..4: the accumulator is added to; nothing is stored to the output block):
  the whole body's triple on whole staging memrefs. What each buffer ends with is given as the list of pieces the body's
  stores leave in it, found by running the body.
-/
import proofs.«176245_j63866163691863_2_alg».proof.Proof.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case B, with the body's
    triple: the inputs' memrefs at their contents `x·`, the output's at contents `xi5` handed back untouched, the accumulator at what the point before left (`xs0`); the body runs
    to the continuation holding the inputs' as they were and the accumulator with its pieces written. -/
noncomputable def kernelRun1_B (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.Region1RunC.lean ====
/-
  Region 1, case C (the head-pair coordinate is 5: the accumulator is added to, and accumulator + bias is stored to the output block):
  the whole body's triple on whole staging memrefs. What each buffer ends with is given as the list of pieces the body's
  stores leave in it, found by running the body.
-/
import proofs.«176245_j63866163691863_2_alg».proof.Proof.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case C, with the body's
    triple: the inputs' memrefs at their contents `x·`, the output's at anything, the accumulator at what the point before left (`xs0`); the body runs
    to the continuation holding the inputs' as they were, the output's with its pieces written and the accumulator with its pieces written. -/
noncomputable def kernelRun1_C (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.Region1Frame.lean ====
/-
  Region 1: what the output block and the accumulator hold after each point (by recursion on the point: the case the
  point is in, run at the point's memrefs and input blocks, the accumulator taken from the point before), the pipeline's
  proof data, and the body obligation at every point.
-/
import proofs.«176245_j63866163691863_2_alg».proof.Proof.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: a placeholder nothing consults, the window being idle at these points). -/
def out1_A_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) : Vec F S1x512x768 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the accumulator cover it. -/
theorem scover1_A_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (y : S512x768.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x768.size (by sl_kernel_rfl) y

/-- What case A leaves in the accumulator: its pieces read back. -/
def sout1_A_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) : Vec F S512x768 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- What case B leaves in the output window's staging buffer: its pieces read back (none: a placeholder nothing consults, the window being idle at these points). -/
def out1_B_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the accumulator cover it. -/
theorem scover1_B_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x768.size (by sl_kernel_rfl) y

/-- What case B leaves in the accumulator: its pieces read back. -/
def sout1_B_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's one store into the output block covers it. -/
theorem cover1_C_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S1x512x768.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x768.size (by sl_kernel_rfl) y

/-- What case C leaves in the output window's staging buffer: its pieces read back. -/
def out1_C_5 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the accumulator cover it. -/
theorem scover1_C_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x768.size (by sl_kernel_rfl) y

/-- What case C leaves in the accumulator: its pieces read back. -/
def sout1_C_0 (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output block and the accumulator hold after each point -/

/-- After the body at position `n`: (the output window's staging buffer, the accumulator). -/
def outsAt1 (c : Dev nD) : (n : ℕ) → n < cfg1.N → Vec F S1x512x768 .f32 × Vec F S512x768 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 6 = 0 then
      if h1 : (n + 1) % 6 = 5 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 6 = 5 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 6 = 0) (h1 : ¬t.val % 6 = 5) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 6 = 0) (h1 : ¬t.val % 6 = 5) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 6 = 0) (h1 : t.val % 6 = 5) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the untouched rest; afterwards the accumulator at what
    the point before left in it, beside the other scoped buffers and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the point's case is decided by its position modulo 6;
    the invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 6 = 0
  · by_cases h1 : t.val % 6 = 5
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 6 = 5
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the untouched rest back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 96 := N_1; omega)

end Cert.KernelIdeal.Hand

end
-- ==== Proof.Region2Runs.lean ====
/-
  Region 2 of the kernel program (attention fused with the output projection; grid: batch × row block × head pair): what
  the body's runs share. The body has two conditionals on the head-pair coordinate `h`: the accumulator is zeroed at `h = 0`
  and the output block is stored at `h = 5`; so a point is in one of three cases — A (`h = 0`), B (`0 < h < 5`), C (`h = 5`).
  The accumulator is a scratch buffer carried from one point to the next; the output window is idle (neither stored nor written
  back) at the points of cases A and B.
-/
import proofs.«176245_j63866163691863_2_alg».proof.Proof.Gen.KernelIdeal.Launch
import proofs.«176245_j63866163691863_2_alg».proof.Proof.Gen.KernelIdeal.Skeleton
import proofs.«176245_j63866163691863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The accumulator is zeroed: the head-pair coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 6 = 0 :=
  (by decide +kernel : ∀ t : Fin grid2.N, cond2_0 (grid2.coords t) ↔ t.val % 6 = 0)

/-- The output block is stored: the head-pair coordinate is 5. -/
abbrev cond2_1 (i : grid2.Coords) : Prop := k2_cond2 i = 1#1
theorem hcond2_1 : ∀ t : Fin cfg2.N, cond2_1 (grid2.coords t) ↔ t.val % 6 = 5 :=
  (by decide +kernel : ∀ t : Fin grid2.N, cond2_1 (grid2.coords t) ↔ t.val % 6 = 5)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
theorem liveAt2_5_C : ∀ t : Fin cfg2.N, ¬cond2_0 (grid2.coords t) → cond2_1 (grid2.coords t) → cfg2.idle 5 (grid2.coords t) = false := by decide +kernel

/-! ## The memrefs the body is called with -/

/-- One staging buffer of the output window, through which its contents are stated. -/
abbrev VO2_5 : View sig .tc .vmem S1x512x768 .f32 := (Memref.whole cc2_stg5_0 : Memref sig .tc .vmem S1x512x768 .f32).view
abbrev ms2_0 (t : Fin cfg2.N) : Memref sig .tc .vmem S1x512x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x768 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S768 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x768 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S512x768 .f32 := Memref.whole cc2_scratch0
abbrev VS2_0 : View sig .tc .vmem S512x768 .f32 := scM2_0.view

/-- The region's untouched rest with the accumulator split out as a memref owned at some contents. -/
theorem PhiA2_eq (c : Dev nD) :
    (Pipeline.ΦA spec2 c : sProp 𝕄)
      = iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.Region2RunA.lean ====
/-
  Region 2, case A (the head-pair coordinate is 0: the accumulator is zeroed, then added to; nothing is stored to the output block):
  the whole body's triple on whole staging memrefs. What each buffer ends with is given as the list of pieces the body's
  stores leave in it, found by running the body.
-/
import proofs.«176245_j63866163691863_2_alg».proof.Proof.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case A, with the body's
    triple: the inputs' memrefs at their contents `x·`, the output's at contents `xi5` handed back untouched, the accumulator at anything; the body runs
    to the continuation holding the inputs' as they were and the accumulator with its pieces written. -/
noncomputable def kernelRun2_A (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__attn_outproj_kernel i arg3 harg3 arg4 harg4 arg5 harg5 arg6 harg6 arg7 harg7 arg8 harg8 arg9 harg9) K } := by
  refine ⟨[], ?_, fun xi5 E K => ?run⟩
  case run =>
    simp only [cc2__attn_outproj_kernel_eq_skeleton]; unfold cc2__attn_outproj_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.Region2RunB.lean ====
/-
  Region 2, case B (the head-pair coordinate is 1..4: the accumulator is added to; nothing is stored to the output block):
  the whole body's triple on whole staging memrefs. What each buffer ends with is given as the list of pieces the body's
  stores leave in it, found by running the body.
-/
import proofs.«176245_j63866163691863_2_alg».proof.Proof.Region2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case B, with the body's
    triple: the inputs' memrefs at their contents `x·`, the output's at contents `xi5` handed back untouched, the accumulator at what the point before left (`xs0`); the body runs
    to the continuation holding the inputs' as they were and the accumulator with its pieces written. -/
noncomputable def kernelRun2_B (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (xi5 : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__attn_outproj_kernel i arg3 harg3 arg4 harg4 arg5 harg5 arg6 harg6 arg7 harg7 arg8 harg8 arg9 harg9) K } := by
  refine ⟨[], ?_, fun xi5 E K => ?run⟩
  case run =>
    simp only [cc2__attn_outproj_kernel_eq_skeleton]; unfold cc2__attn_outproj_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.Region2RunC.lean ====
/-
  Region 2, case C (the head-pair coordinate is 5: the accumulator is added to, and accumulator + bias is stored to the output block):
  the whole body's triple on whole staging memrefs. What each buffer ends with is given as the list of pieces the body's
  stores leave in it, found by running the body.
-/
import proofs.«176245_j63866163691863_2_alg».proof.Proof.Region2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`L5`) and in the accumulator (`LS0`) in case C, with the body's
    triple: the inputs' memrefs at their contents `x·`, the output's at anything, the accumulator at what the point before left (`xs0`); the body runs
    to the continuation holding the inputs' as they were, the output's with its pieces written and the accumulator with its pieces written. -/
noncomputable def kernelRun2_C (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) :
    Σ' (L5 : List (View.Piece (Elt F) S1x512x768 .f32)), { LS0 : List (View.Piece (Elt F) S512x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__attn_outproj_kernel i arg3 harg3 arg4 harg4 arg5 harg5 arg6 harg6 arg7 harg7 arg8 harg8 arg9 harg9) K } := by
  refine ⟨?_, ?_, fun E K => ?run⟩
  case run =>
    simp only [cc2__attn_outproj_kernel_eq_skeleton]; unfold cc2__attn_outproj_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.Region2Frame.lean ====
/-
  Region 2: what the output block and the accumulator hold after each point (by recursion on the point: the case the
  point is in, run at the point's memrefs and input blocks, the accumulator taken from the point before), the pipeline's
  proof data, and the body obligation at every point.
-/
import proofs.«176245_j63866163691863_2_alg».proof.Proof.Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: a placeholder nothing consults, the window being idle at these points). -/
def out2_A_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) : Vec F S1x512x768 .f32 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3 x4).1)

/-- Case A's stores into the accumulator cover it. -/
theorem scover2_A_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (y : S512x768.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S512x768.size (by sl_kernel_rfl) y

/-- What case A leaves in the accumulator: its pieces read back. -/
def sout2_A_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) : Vec F S512x768 .f32 :=
  VS2_0.read (Elt F) (VS2_0.writes (Elt F) VS2_0.junk (kernelRun2_A c i arg3 harg3 arg4 harg4 arg5 harg5 arg6 harg6 arg7 harg7 arg8 harg8 arg9 harg9 hc0 hc1 x0 x1 x2 x3 x4).2.1)

/-- What case B leaves in the output window's staging buffer: its pieces read back (none: a placeholder nothing consults, the window being idle at these points). -/
def out2_B_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO2_5.read (Elt F) (VO2_5.writes (Elt F) VO2_5.junk (kernelRun2_B c i arg3 harg3 arg4 harg4 arg5 harg5 arg6 harg6 arg7 harg7 arg8 harg8 arg9 harg9 hc0 hc1 x0 x1 x2 x3 x4 xs0).1)

/-- Case B's stores into the accumulator cover it. -/
theorem scover2_B_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S512x768.size (by sl_kernel_rfl) y

/-- What case B leaves in the accumulator: its pieces read back. -/
def sout2_B_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS2_0.read (Elt F) (VS2_0.writes (Elt F) VS2_0.junk (kernelRun2_B c i arg3 harg3 arg4 harg4 arg5 harg5 arg6 harg6 arg7 harg7 arg8 harg8 arg9 harg9 hc0 hc1 x0 x1 x2 x3 x4 xs0).2.1)

/-- Case C's one store into the output block covers it. -/
theorem cover2_C_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S1x512x768.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S1x512x768.size (by sl_kernel_rfl) y

/-- What case C leaves in the output window's staging buffer: its pieces read back. -/
def out2_C_5 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S1x512x768 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs0).1)

/-- Case C's stores into the accumulator cover it. -/
theorem scover2_C_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) (y : S512x768.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S512x768.size (by sl_kernel_rfl) y

/-- What case C leaves in the accumulator: its pieces read back. -/
def sout2_C_0 (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i)
    (x0 : Vec F S1x512x128 .bf16) (x1 : Vec F S1x1024x128 .bf16) (x2 : Vec F S1x1024x128 .bf16) (x3 : Vec F S128x768 .bf16) (x4 : Vec F S768 .f32) (xs0 : Vec F S512x768 .f32) : Vec F S512x768 .f32 :=
  VS2_0.read (Elt F) (VS2_0.writes (Elt F) VS2_0.junk (kernelRun2_C c i arg3 harg3 arg4 harg4 arg5 harg5 arg6 harg6 arg7 harg7 arg8 harg8 arg9 harg9 hc0 hc1 x0 x1 x2 x3 x4 xs0).2.1)

/-! ## What the output block and the accumulator hold after each point -/

/-- After the body at position `n`: (the output window's staging buffer, the accumulator). -/
def outsAt2 (c : Dev nD) : (n : ℕ) → n < cfg2.N → Vec F S1x512x768 .f32 × Vec F S512x768 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 6 = 0 then
      if h1 : (n + 1) % 6 = 5 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 6 = 5 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 6 = 0) (h1 : ¬t.val % 6 = 5) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 6 = 0) (h1 : ¬t.val % 6 = 5) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 6 = 0) (h1 : t.val % 6 = 5) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the untouched rest; afterwards the accumulator at what
    the point before left in it, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the point's case is decided by its position modulo 6;
    the invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 96 := lt_of_lt_of_eq t.isLt (show cfg2.N = 96 from N_2)
  by_cases h0 : t.val % 6 = 0
  · by_cases h1 : t.val % 6 = 5
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 6 = 5
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untouched rest back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 96 := N_2; omega)

end Cert.KernelIdeal.Hand

end
-- ==== Proof.MainRun.lean ====
/-
  The whole program's run: the host lines that cast the weight matrices, then the three regions one after the other.
  The buffers' contents at each boundary are a fold from the launch memory: a host stretch applies its operations; a region
  leaves its input arrays as entered and each output array at what its write-backs leave. Every weakly fair execution
  terminates, nothing faulting, and the final memory holds every unscoped buffer at the last boundary's contents: from this
  both the frame (each argument array reads back through the fold to its launch contents) and the two results follow.
-/
import proofs.«176245_j63866163691863_2_alg».proof.Proof.Region0Dat
import proofs.«176245_j63866163691863_2_alg».proof.Proof.Region1Frame
import proofs.«176245_j63866163691863_2_alg».proof.Proof.Region2Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- No host line writes a buffer other than its own result. -/
theorem W1_of (c : Dev nD) (b : Ref sig .tc) (hb : b ∉ ([main_v0, main_v1, main_v2, main_v3, main_v4, main_v5, main_v6, main_v7] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false, not_or] at hb
    refine ⟨?_, ?_, ?_, ?_, ?_, ?_, ?_, ?_⟩
    · exact StableHlo.devRef_ne_of_ne hb.1
    · exact StableHlo.devRef_ne_of_ne hb.2.1
    · exact StableHlo.devRef_ne_of_ne hb.2.2.1
    · exact StableHlo.devRef_ne_of_ne hb.2.2.2.1
    · exact StableHlo.devRef_ne_of_ne hb.2.2.2.2.1
    · exact StableHlo.devRef_ne_of_ne hb.2.2.2.2.2.1
    · exact StableHlo.devRef_ne_of_ne hb.2.2.2.2.2.2.1
    · exact StableHlo.devRef_ne_of_ne hb.2.2.2.2.2.2.2))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := (W2_arr m ρ c 9).trans (((dat0 (V1 m ρ) c).arrAt_in 9 rfl _).trans (A_eq0 (V1 m ρ) c 9))
    _ = W0 m ρ c (Proc.devRef .tc main_arg9) := W1_of m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := (W2_arr m ρ c 11).trans (((dat0 (V1 m ρ) c).arrAt_in 11 rfl _).trans (A_eq0 (V1 m ρ) c 11))
    _ = W0 m ρ c (Proc.devRef .tc main_arg11) := W1_of m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := (W2_arr m ρ c 13).trans (((dat0 (V1 m ρ) c).arrAt_in 13 rfl _).trans (A_eq0 (V1 m ρ) c 13))
    _ = W0 m ρ c (Proc.devRef .tc main_arg13) := W1_of m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := (W2_arr m ρ c 15).trans (((dat0 (V1 m ρ) c).arrAt_in 15 rfl _).trans (A_eq0 (V1 m ρ) c 15))
    _ = W0 m ρ c (Proc.devRef .tc main_arg15) := W1_of m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := (W2_arr m ρ c 17).trans (((dat0 (V1 m ρ) c).arrAt_in 17 rfl _).trans (A_eq0 (V1 m ρ) c 17))
    _ = W0 m ρ c (Proc.devRef .tc main_arg17) := W1_of m ρ c main_arg17 (by decide)
    _ = m ((c : Thread nD τ).loc main_arg17) := rfl
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := W1_of m ρ c main_arg18 (by decide)
    _ = m ((c : Thread nD τ).loc main_arg18) := rfl
theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := (W3_arr m ρ c 4).trans (((dat1 (V2 m ρ) c).arrAt_in 4 rfl _).trans (A_eq1 (V2 m ρ) c 4))
    _ = W1 m ρ c (Proc.devRef .tc main_arg19) := W2_of_ne m ρ c main_arg19 (by decide)
    _ = W0 m ρ c (Proc.devRef .tc main_arg19) := W1_of m ρ c main_arg19 (by decide)
    _ = m ((c : Thread nD τ).loc main_arg19) := rfl
theorem W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := W1_of m ρ c main_arg20 (by decide)
    _ = m ((c : Thread nD τ).loc main_arg20) := rfl
theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := (W4_arr m ρ c 4).trans (((dat2 (V3 m ρ) c).arrAt_in 4 rfl _).trans (A_eq2 (V3 m ρ) c 4))
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := W1_of m ρ c main_arg21 (by decide)
    _ = m ((c : Thread nD τ).loc main_arg21) := rfl

/-! ## The two results are the last two regions' output arrays -/

theorem W4_main_v9 (c : Dev nD) : W4 m ρ c (Proc.devRef .tc main_v9) = (dat1 (V2 m ρ) c).arrAt 5 cfg1.N :=
  (W4_of_ne m ρ c main_v9 (by decide)).trans (W3_arr m ρ c 5)
theorem W4_main_v10 (c : Dev nD) : W4 m ρ c (Proc.devRef .tc main_v10) = (dat2 (V3 m ρ) c).arrAt 5 cfg2.N :=
  W4_arr m ρ c 5

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m ρ) c).trans h2

  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's. Its arrays are split out of the unscoped buffers and put back at the exit contents; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (hout2 (V3 m ρ) c).trans h2

  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c)⟩)
    (run_all m ρ)

end Cert.KernelIdeal.Hand

end
-- ==== Proof.RefFrame.lean ====
/-
  The reference program runs to completion on every device and leaves its twenty-two argument arrays as it found
  them: the frame conjunct, read off the program's run.
-/
import proofs.«176245_j63866163691863_2_alg».proof.Defs
import proofs.«176245_j63866163691863_2_alg».proof.Proof.Gen.ReferenceIdeal.Run
import proofs.«176245_j63866163691863_2_alg».proof.Proof.Gen.Pre_finite_inputs

noncomputable section

namespace Cert.ReferenceIdeal.RefFrame

open Idealize.ShloMosaic Idealize.SL.Sem

/-- The run's postcondition without its two results is the frame. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefFrame

end
-- ==== Proof.HostVals.lean ====
/-
  The contents the regions are entered from, read back to the launch memory, at the ideal values: the host lines before the
  first region only change the format of six weight matrices and of the two output matrices, which is the identity on
  extended reals; an argument array no region writes holds its launch contents at every boundary; and each array the first
  region writes is, at the later regions' entries, what the first region left.
-/
import proofs.«176245_j63866163691863_2_alg».proof.Proof.MainRun
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg)

/-- A matrix after the host's change of format is the matrix. -/
theorem W1_main_v0 (c : Dev nD) : (W1 (F := Ideal) m ρ c (Proc.devRef .tc main_v0) : S768x768.Idx → EReal) = m ((c : Thread nD τ).loc main_arg6) := by
  show StableHlo.after hostOps0 _ (Proc.devRef .tc main_v0) = _
  after_results
  rfl
theorem W1_main_v1 (c : Dev nD) : (W1 (F := Ideal) m ρ c (Proc.devRef .tc main_v1) : S768x768.Idx → EReal) = m ((c : Thread nD τ).loc main_arg8) := by
  show StableHlo.after hostOps0 _ (Proc.devRef .tc main_v1) = _
  after_results
  rfl
theorem W1_main_v2 (c : Dev nD) : (W1 (F := Ideal) m ρ c (Proc.devRef .tc main_v2) : S768x768.Idx → EReal) = m ((c : Thread nD τ).loc main_arg10) := by
  show StableHlo.after hostOps0 _ (Proc.devRef .tc main_v2) = _
  after_results
  rfl
theorem W1_main_v3 (c : Dev nD) : (W1 (F := Ideal) m ρ c (Proc.devRef .tc main_v3) : S768x768.Idx → EReal) = m ((c : Thread nD τ).loc main_arg12) := by
  show StableHlo.after hostOps0 _ (Proc.devRef .tc main_v3) = _
  after_results
  rfl
theorem W1_main_v4 (c : Dev nD) : (W1 (F := Ideal) m ρ c (Proc.devRef .tc main_v4) : S768x768.Idx → EReal) = m ((c : Thread nD τ).loc main_arg14) := by
  show StableHlo.after hostOps0 _ (Proc.devRef .tc main_v4) = _
  after_results
  rfl
theorem W1_main_v5 (c : Dev nD) : (W1 (F := Ideal) m ρ c (Proc.devRef .tc main_v5) : S768x768.Idx → EReal) = m ((c : Thread nD τ).loc main_arg16) := by
  show StableHlo.after hostOps0 _ (Proc.devRef .tc main_v5) = _
  after_results
  rfl
theorem W1_main_v6 (c : Dev nD) : (W1 (F := Ideal) m ρ c (Proc.devRef .tc main_v6) : S768x768.Idx → EReal) = m ((c : Thread nD τ).loc main_arg18) := by
  show StableHlo.after hostOps0 _ (Proc.devRef .tc main_v6) = _
  after_results
  rfl
theorem W1_main_v7 (c : Dev nD) : (W1 (F := Ideal) m ρ c (Proc.devRef .tc main_v7) : S768x768.Idx → EReal) = m ((c : Thread nD τ).loc main_arg20) := by
  show StableHlo.after hostOps0 _ (Proc.devRef .tc main_v7) = _
  after_results
  rfl

end Cert.KernelIdeal.Hand

end
-- ==== Proof.Val0Lay.lean ====
/-
  Layout operations, a row sum and a matrix product read at an index written by coordinates: the non-pointwise steps of
  the first region's arithmetic. A length-`a` vector cast to an `[a, 1]` column reads the vector at the row; a column
  broadcast over `b` columns reads the column at the row; the sum of a `[512, 768]` block over its second axis reads, at row
  `r`, the sum over the 768 columns of the block at `(r, ·)`; and a `[512, 768] × [768, 768]` product accumulated into zero
  reads, at `(r, e)`, the sum over `k` of `lhs (r, k) · rhs (k, e)`.
-/
import proofs.«176245_j63866163691863_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.Val0

open Cert.KernelIdeal Cert.KernelIdeal.Gen
open Idealize.ShloMosaic Idealize.ShloMosaic.ValueIdx

/-- A length-`a` vector cast to an `[a, 1]` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum of a `[512, 768]` block over its second axis, at row `r`: the sum over the columns of that row. -/
theorem rowSum_apply (src : FVec Ideal S512x768 .f32) (h : S512x768.Reduces [1] S512) (hφ : FKind.Formats .f32)
    (hacc : (0x00000000#32 : BitVec 32) = 0x00000000#32) (r : Fin 512) :
    multiReduction (F := Ideal) .add [1] S512 src 0x00000000#32 h hφ hacc (ix1 r) = ∑ k : Fin 768, src (ix2 r k) := by
  refine (Ideal.multiReduction_add_single src 0x00000000#32 h hφ hacc (ix1 r)).trans ?_
  show ∑ k : Fin 768, src (h.lift (ix1 r) k) = _
  refine Finset.sum_congr rfl fun k _ => congrArg src (funext fun a => Fin.ext ?_)
  match a with
  | ⟨0, _⟩ => rfl
  | ⟨1, _⟩ => rfl

/-- The product's left operand index keeps the output's row … -/
theorem lhs0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl
/-- … and has the contraction's coordinate as its column; -/
theorem lhs1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
/-- the right operand index has the contraction's coordinate as its row … -/
theorem rhs0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
/-- … and keeps the output's column. -/
theorem rhs1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-- A `[512, 768] × [768, 768]` product accumulated into the zero block, at `(r, e)`. -/
theorem matmul0_apply {φ₁ φ₂ : FTy} (lhs : FVec Ideal S512x768 φ₁) (rhs : FVec Ideal S768x768 φ₂) (r : Fin 512) (e : Fin 768) :
    matmul (F := Ideal) dot_S512x768_S768x768_S512x768_1_0_0_1_n_n none lhs rhs (constant S512x768 .f32 0x00000000#32) (ix2 r e)
      = ∑ k : Fin 768, lhs (ix2 r k) * rhs (ix2 k e) := by
  refine (Ideal.matmul_constant_zero_apply dot_S512x768_S768x768_S512x768_1_0_0_1_n_n none lhs rhs (ix2 r e)).trans ?_
  rw [← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 r e)
      ((contrEquiv1 dot_S512x768_S768x768_S512x768_1_0_0_1_n_n 768 rfl rfl).symm k) = ix2 r k := funext fun a => Fin.ext (by
    match a with
    | ⟨0, _⟩ => exact lhs0 _ _
    | ⟨1, _⟩ => exact (lhs1 _ _).trans hk)
  have er : dot_S512x768_S768x768_S512x768_1_0_0_1_n_n.rhsIdx (ix2 r e)
      ((contrEquiv1 dot_S512x768_S768x768_S512x768_1_0_0_1_n_n 768 rfl rfl).symm k) = ix2 k e := funext fun a => Fin.ext (by
    match a with
    | ⟨0, _⟩ => exact (rhs0 _ _).trans hk
    | ⟨1, _⟩ => exact rhs1 _ _)
  rw [el, er]

end Cert.KernelIdeal.Hand.Val0

end
-- ==== Proof.Spec.lean ====
/-
  The mathematics both programs compute, stated once over the extended reals, row by row.

  A row `x : Fin 768 → EReal` is normalised (`lnRow`): its mean `μ = (∑ x) / 768`, its variance `σ² = (∑ (x - μ)²) / 768`,
  and `(x e - μ) · (σ² + ε)^(-1/2) · g e + β e`. A normalised row is projected (`proj`): `(∑_d m d · w d e) + bias e`.
  The 768 columns are twelve heads of 64: column `e` belongs to head `e / 64`. For one query row `q` and the key rows `K`
  the score against key row `k` within head `h` is `(∑_{d < 64} q (64h + d) · K k (64h + d)) · 2⁻³` (`score`); the scores of a
  query row are turned into weights by the shifted exponential divided by its sum (`softmax`: the shift is the row's
  maximum, taken from `-∞`); the attended row is `∑_k weight k · V k e` with the weights of `e`'s head (`attnRow`); and the
  result is that row projected through the output matrix plus its bias (`proj` again).
  The literals are kept as the float words both programs print, so neither side evaluates one it shares with the other.
-/
import Idealize.ShloMosaic.PureOps.Ideal
import Idealize.ShloMosaic.PureOps.Ideal.Laws
import Idealize.ShloMosaic.Lib.ValueIdx

noncomputable section

namespace Cert.AttnSpec

open Idealize.ShloMosaic

/-- The row length as the float both programs divide by. -/
abbrev c768 : EReal := Ideal.ofBits .f32 0x44400000#32
/-- The variance's offset. -/
abbrev eps : EReal := Ideal.ofBits .f32 0x3727C5AC#32
/-- The score scale `2⁻³`, as the kernel's word. -/
abbrev sc : EReal := Ideal.ofBits .f32 0x3E000000#32
/-- `-∞`, the value a row maximum starts from. -/
abbrev ninf : EReal := Ideal.ofBits .f32 0xFF800000#32

/-- A row's mean. -/
def mean (r : Fin 768 → EReal) : EReal := Ideal.div (∑ d : Fin 768, r d) c768

/-- Layer normalisation of one row, at column `e`. -/
def lnRow (x g β : Fin 768 → EReal) (e : Fin 768) : EReal :=
  (x e - mean x) * Ideal.rsqrt (mean (fun d => (x d - mean x) * (x d - mean x)) + eps) * g e + β e

/-- A row through a 768 × 768 matrix (rows of the matrix are the contracted axis) plus a bias, at column `e`. -/
def proj (m : Fin 768 → EReal) (w : Fin 768 → Fin 768 → EReal) (bias : Fin 768 → EReal) (e : Fin 768) : EReal :=
  (∑ d : Fin 768, m d * w d e) + bias e

/-- Column `d` of head `h`. -/
def headCol (h : Fin 12) (d : Fin 64) : Fin 768 := ⟨64 * h.val + d.val, by omega⟩
/-- The head a column belongs to. -/
def headOf (e : Fin 768) : Fin 12 := ⟨e.val / 64, by omega⟩

/-- The scaled score of a query row against a key row within head `h`. -/
def score (q k : Fin 768 → EReal) (h : Fin 12) : EReal :=
  (∑ d : Fin 64, q (headCol h d) * k (headCol h d)) * sc

/-- A row of 1024 scores turned into weights. -/
def softmax (s : Fin 1024 → EReal) (kk : Fin 1024) : EReal :=
  Ideal.div (Ideal.exp (s kk - (Finset.univ : Finset (Fin 1024)).fold max ninf s))
    (∑ k : Fin 1024, Ideal.exp (s k - (Finset.univ : Finset (Fin 1024)).fold max ninf s))

/-- One query row attending over the key and value rows, at column `e` (the weights are those of `e`'s head). -/
def attnRow (q : Fin 768 → EReal) (K V : Fin 1024 → Fin 768 → EReal) (e : Fin 768) : EReal :=
  ∑ kk : Fin 1024, softmax (fun k => score q (K k) (headOf e)) kk * V kk e

/-- Attention followed by the output projection: one query row against the key and value rows of its batch entry. -/
def attnOut (q : Fin 768 → EReal) (K V : Fin 1024 → Fin 768 → EReal) (wo : Fin 768 → Fin 768 → EReal) (bo : Fin 768 → EReal)
    (e : Fin 768) : EReal :=
  proj (fun d => attnRow q K V d) wo bo e

/-- The whole computation for one output: queries from `xq` (normalised by `gq`, `βq`, projected by `wq`, `bq`), keys and
    values from `xk` (normalised by `gk`, `βk`, projected by `wk`, `bk` and `wv`, `bv`), then the output projection. -/
def whole (xq xk : Fin 8 → Fin 1024 → Fin 768 → EReal) (gq βq gk βk : Fin 768 → EReal)
    (wq : Fin 768 → Fin 768 → EReal) (bq : Fin 768 → EReal) (wk : Fin 768 → Fin 768 → EReal) (bk : Fin 768 → EReal)
    (wv : Fin 768 → Fin 768 → EReal) (bv : Fin 768 → EReal) (wo : Fin 768 → Fin 768 → EReal) (bo : Fin 768 → EReal)
    (b : Fin 8) (n : Fin 1024) (e : Fin 768) : EReal :=
  attnOut (proj (lnRow (xq b n) gq βq) wq bq)
    (fun k => proj (lnRow (xk b k) gk βk) wk bk) (fun k => proj (lnRow (xk b k) gk βk) wv bv) wo bo e

/-! ## The same, over whole arrays indexed as the programs index them -/

/-- A [8, 1024, 768] array, a [768, 768] matrix, a [768] vector. -/
abbrev A3 : Type := (⟨3, ![8, 1024, 768]⟩ : Shape).Idx → EReal
abbrev A2 : Type := (⟨2, ![768, 768]⟩ : Shape).Idx → EReal
abbrev A1 : Type := (⟨1, ![768]⟩ : Shape).Idx → EReal

/-- An array read by its coordinates. -/
def v3 (a : A3) : Fin 8 → Fin 1024 → Fin 768 → EReal := fun b n e => a (ValueIdx.ix3 b n e)
def v2 (a : A2) : Fin 768 → Fin 768 → EReal := fun d e => a (ValueIdx.ix2 d e)
def v1 (a : A1) : Fin 768 → EReal := fun e => a (ValueIdx.ix1 e)

/-- Every row of `x` normalised and projected: the array of queries (or keys, or values). -/
def projArr (x : A3) (g β : A1) (w : A2) (bias : A1) : A3 :=
  fun i => proj (lnRow (v3 x (i 0) (i 1)) (v1 g) (v1 β)) (v2 w) (v1 bias) (i 2)

/-- Every query row attending within its batch entry, then the output projection. -/
def attnArr (q k v : A3) (wo : A2) (bo : A1) : A3 :=
  fun i => attnOut (v3 q (i 0) (i 1)) (v3 k (i 0)) (v3 v (i 0)) (v2 wo) (v1 bo) (i 2)

/-- One whole output: the three projected arrays, then attention and the output projection. -/
def wholeArr (xq xk : A3) (gq βq gk βk : A1) (wq : A2) (bq : A1) (wk : A2) (bk : A1) (wv : A2) (bv : A1) (wo : A2) (bo : A1) : A3 :=
  attnArr (projArr xq gq βq wq bq) (projArr xk gk βk wk bk) (projArr xk gk βk wv bv) wo bo

end Cert.AttnSpec

end
-- ==== Proof.Val0Pay.lean ====
/-
  The first region's arithmetic at an index. A `[1, 512, 768]` block of rows is normalised row by row: row `r` at column `e`
  is `(x e - μ) · (σ² + ε)^(-1/2) · g e + β e` with `μ` the row's mean and `σ²` the mean of the squared deviations
  (`Cert.AttnSpec.lnRow`); the program does it twice, once in one piece and once through the intermediate columns of means
  and variances. A normalised block times a `[768, 768]` matrix plus a bias row is, at `(r, e)`, the sum over `k` of
  `m (r, k) · w (k, e)` plus `bias e` (`Cert.AttnSpec.proj`); the format changes on the way are the identity on the
  extended reals.
-/
import proofs.«176245_j63866163691863_2_alg».proof.Proof.Val0Lay
import proofs.«176245_j63866163691863_2_alg».proof.Proof.Spec

noncomputable section

namespace Cert.KernelIdeal.Hand.Val0

open Cert.KernelIdeal Cert.KernelIdeal.Gen
open Idealize.ShloMosaic Idealize.ShloMosaic.ValueIdx
open Cert.AttnSpec

/-- A reciprocal square root at an index is the element's. -/
theorem rsqrt_apply {s : Shape} {φ : FTy} (a : FVec Ideal s φ) (i : s.Idx) : rsqrt a i = Ideal.rsqrt (a i) := rfl

/-! ## The two layer norms -/

/-- The first layer norm, computed in one piece: row `r` of the block, normalised, at column `e`. -/
theorem k0_pay3_apply (x0 : Vec Ideal S1x512x768 .f32) (g β : Vec Ideal S768 .f32) (r : Fin 512) (e : Fin 768) :
    k0_pay3 x0 g β (ix2 r e)
      = lnRow (fun d => x0 (ix3 (0 : Fin 1) r d)) (fun d => g (ix1 d)) (fun d => β (ix1 d)) e := by
  unfold k0_pay3
  simp only [addf_apply, mulf_apply, subf_apply, divf_apply, rsqrt_apply, broadcast_apply,
    broadcastTo_a1_ab_apply, broadcastTo_1b_ab_apply, shapeCast_a_1a_apply, shapeCast_a_a1_apply,
    shapeCast_1ab_ab_apply]
  rw [rowSum_apply, rowSum_apply]
  simp only [addf_apply, mulf_apply, subf_apply, divf_apply, rsqrt_apply, broadcast_apply,
    broadcastTo_a1_ab_apply, broadcastTo_1b_ab_apply, shapeCast_a_1a_apply, shapeCast_a_a1_apply,
    shapeCast_1ab_ab_apply]
  rw [rowSum_apply]
  simp only [shapeCast_1ab_ab_apply]
  rfl

/-- The second input's block with its unit axis dropped. -/
theorem k0_pay2_apply (x1 : Vec Ideal S1x512x768 .f32) (r : Fin 512) (e : Fin 768) :
    k0_pay2 x1 (ix2 r e) = x1 (ix3 (0 : Fin 1) r e) := by
  unfold k0_pay2
  exact shapeCast_1ab_ab_apply x1 _ r e

/-- The column of row means of the second input's block. -/
theorem k0_pay4_apply (x1 : Vec Ideal S1x512x768 .f32) (r : Fin 512) (u : Fin 1) :
    k0_pay4 x1 (ix2 r u) = mean (fun d => x1 (ix3 (0 : Fin 1) r d)) := by
  unfold k0_pay4
  simp only [divf_apply, broadcast_apply, shapeCast_a_a1_apply]
  rw [rowSum_apply]
  simp only [k0_pay2_apply]
  rfl

/-- The column of row variances of the second input's block. -/
theorem k0_pay5_apply (x1 : Vec Ideal S1x512x768 .f32) (r : Fin 512) (u : Fin 1) :
    k0_pay5 x1 (ix2 r u)
      = mean (fun d => (x1 (ix3 (0 : Fin 1) r d) - mean (fun d => x1 (ix3 (0 : Fin 1) r d)))
          * (x1 (ix3 (0 : Fin 1) r d) - mean (fun d => x1 (ix3 (0 : Fin 1) r d)))) := by
  unfold k0_pay5
  simp only [divf_apply, broadcast_apply, shapeCast_a_a1_apply]
  rw [rowSum_apply]
  simp only [mulf_apply, subf_apply, broadcastTo_a1_ab_apply, k0_pay2_apply, k0_pay4_apply]
  rfl

/-- The second layer norm's last step, from the block, the column of means and the column of variances. -/
theorem k0_pay7_apply (v3 : FVec Ideal S512x768 .f32) (v33 v40 : FVec Ideal S512x1 .f32) (g β : Vec Ideal S768 .f32)
    (r : Fin 512) (e : Fin 768) :
    k0_pay7 v3 v33 v40 g β (ix2 r e)
      = (v3 (ix2 r e) - v33 (ix2 r (0 : Fin 1))) * Ideal.rsqrt (v40 (ix2 r (0 : Fin 1)) + eps) * g (ix1 e) + β (ix1 e) := by
  unfold k0_pay7
  simp only [truncf_apply, addf_apply, mulf_apply, subf_apply, rsqrt_apply, broadcast_apply,
    broadcastTo_a1_ab_apply, broadcastTo_1b_ab_apply, shapeCast_a_1a_apply]
  rfl

/-- The second layer norm, through its intermediate columns: row `r` of the block, normalised, at column `e`. -/
theorem lnB_apply (x1 : Vec Ideal S1x512x768 .f32) (g β : Vec Ideal S768 .f32) (r : Fin 512) (e : Fin 768) :
    k0_pay7 (k0_pay2 x1) (k0_pay4 x1) (k0_pay5 x1) g β (ix2 r e)
      = lnRow (fun d => x1 (ix3 (0 : Fin 1) r d)) (fun d => g (ix1 d)) (fun d => β (ix1 d)) e := by
  rw [k0_pay7_apply, k0_pay2_apply, k0_pay4_apply, k0_pay5_apply]
  rfl

/-! ## The six projections -/

/-- The matrix unit's input format change is the identity. -/
theorem k0_pay6_apply (v29 : FVec Ideal S512x768 .f32) (i : S512x768.Idx) : k0_pay6 v29 i = v29 i := rfl

/-- A matrix cast to its own shape is itself. -/
theorem k0_pay13_eq (w : Vec Ideal S768x768 .bf16) : k0_pay13 w = w := by
  unfold k0_pay13
  exact shapeCast_self w _

theorem k0_pay8_apply (v29 : FVec Ideal S512x768 .f32) (w : Vec Ideal S768x768 .bf16) (b : Vec Ideal S768 .f32)
    (u : Fin 1) (r : Fin 512) (e : Fin 768) :
    k0_pay8 v29 w b (ix3 u r e) = (∑ k : Fin 768, v29 (ix2 r k) * w (ix2 k e)) + b (ix1 e) := by
  unfold k0_pay8
  simp only [shapeCast_ab_1ab_apply, truncf_apply, addf_apply, broadcastTo_1b_ab_apply, shapeCast_a_1a_apply, shapeCast_self]
  rw [matmul0_apply]
  rfl

theorem k0_pay9_apply (v29 : FVec Ideal S512x768 .f32) (w : Vec Ideal S768x768 .bf16) (b : Vec Ideal S768 .f32)
    (u : Fin 1) (r : Fin 512) (e : Fin 768) :
    k0_pay9 v29 w b (ix3 u r e) = (∑ k : Fin 768, v29 (ix2 r k) * w (ix2 k e)) + b (ix1 e) := by
  unfold k0_pay9
  simp only [shapeCast_ab_1ab_apply, truncf_apply, addf_apply, broadcastTo_1b_ab_apply, shapeCast_a_1a_apply, shapeCast_self]
  rw [matmul0_apply]
  rfl

theorem k0_pay10_apply (v56 : FVec Ideal S512x768 .bf16) (w : Vec Ideal S768x768 .bf16) (b : Vec Ideal S768 .f32)
    (u : Fin 1) (r : Fin 512) (e : Fin 768) :
    k0_pay10 v56 w b (ix3 u r e) = (∑ k : Fin 768, v56 (ix2 r k) * w (ix2 k e)) + b (ix1 e) := by
  unfold k0_pay10
  simp only [shapeCast_ab_1ab_apply, truncf_apply, addf_apply, broadcastTo_1b_ab_apply, shapeCast_a_1a_apply, shapeCast_self]
  rw [matmul0_apply]

theorem k0_pay11_apply (v57 : FVec Ideal S512x768 .bf16) (w : Vec Ideal S768x768 .bf16) (b : Vec Ideal S768 .f32)
    (u : Fin 1) (r : Fin 512) (e : Fin 768) :
    k0_pay11 v57 w b (ix3 u r e) = (∑ k : Fin 768, v57 (ix2 r k) * w (ix2 k e)) + b (ix1 e) := by
  unfold k0_pay11
  simp only [shapeCast_ab_1ab_apply, truncf_apply, addf_apply, broadcastTo_1b_ab_apply, shapeCast_a_1a_apply, shapeCast_self]
  rw [matmul0_apply]

theorem k0_pay12_apply (v57 : FVec Ideal S512x768 .bf16) (w : Vec Ideal S768x768 .bf16) (b : Vec Ideal S768 .f32)
    (u : Fin 1) (r : Fin 512) (e : Fin 768) :
    k0_pay12 v57 w b (ix3 u r e) = (∑ k : Fin 768, v57 (ix2 r k) * w (ix2 k e)) + b (ix1 e) := by
  unfold k0_pay12
  simp only [shapeCast_ab_1ab_apply, truncf_apply, addf_apply, broadcastTo_1b_ab_apply, shapeCast_a_1a_apply, shapeCast_self]
  rw [matmul0_apply]

theorem k0_pay1_apply (v57 : FVec Ideal S512x768 .bf16) (w : FVec Ideal S768x768 .bf16) (b : Vec Ideal S768 .f32)
    (u : Fin 1) (r : Fin 512) (e : Fin 768) :
    k0_pay1 v57 w (constant S512x768 .f32 0x00000000#32) b (ix3 u r e)
      = (∑ k : Fin 768, v57 (ix2 r k) * w (ix2 k e)) + b (ix1 e) := by
  unfold k0_pay1
  simp only [shapeCast_ab_1ab_apply, truncf_apply, addf_apply, broadcastTo_1b_ab_apply, shapeCast_a_1a_apply]
  rw [matmul0_apply]

/-! ## The six output blocks as functions of the block index -/

/-- A row of a `[1, 512, 768]` block, a `[768]` vector and a `[768, 768]` matrix read by coordinates. -/
abbrev row (x : Vec Ideal S1x512x768 .f32) (r : Fin 512) : Fin 768 → EReal := fun d => x (ix3 (0 : Fin 1) r d)
abbrev vec (g : Vec Ideal S768 .f32) : Fin 768 → EReal := fun d => g (ix1 d)
abbrev mat (w : Vec Ideal S768x768 .bf16) : Fin 768 → Fin 768 → EReal := fun d e => w (ix2 d e)

/-- What every output block holds: each row of the input block normalised and projected. -/
def projBlk (x : Vec Ideal S1x512x768 .f32) (g β : Vec Ideal S768 .f32) (w : Vec Ideal S768x768 .bf16) (b : Vec Ideal S768 .f32) :
    S1x512x768.Idx → EReal :=
  fun i => proj (lnRow (row x (i 1)) (vec g) (vec β)) (mat w) (vec b) (i 2)

theorem blk18 (x g β w b) : k0_pay8 (k0_pay3 x g β) w b = projBlk x g β w b := by
  funext i
  obtain ⟨u, r, e, rfl⟩ : ∃ (u : Fin 1) (r : Fin 512) (e : Fin 768), i = ix3 u r e := ⟨i 0, i 1, i 2, eq_ix3 i⟩
  rw [k0_pay8_apply]
  simp only [k0_pay3_apply]
  rfl

theorem blk19 (x g β w b) : k0_pay9 (k0_pay3 x g β) w b = projBlk x g β w b := by
  funext i
  obtain ⟨u, r, e, rfl⟩ : ∃ (u : Fin 1) (r : Fin 512) (e : Fin 768), i = ix3 u r e := ⟨i 0, i 1, i 2, eq_ix3 i⟩
  rw [k0_pay9_apply]
  simp only [k0_pay3_apply]
  rfl

theorem blk20 (x g β w b) : k0_pay10 (k0_pay6 (k0_pay3 x g β)) w b = projBlk x g β w b := by
  funext i
  obtain ⟨u, r, e, rfl⟩ : ∃ (u : Fin 1) (r : Fin 512) (e : Fin 768), i = ix3 u r e := ⟨i 0, i 1, i 2, eq_ix3 i⟩
  rw [k0_pay10_apply]
  simp only [k0_pay6_apply, k0_pay3_apply]
  rfl

theorem blk21 (x g β w b) : k0_pay11 (k0_pay7 (k0_pay2 x) (k0_pay4 x) (k0_pay5 x) g β) w b = projBlk x g β w b := by
  funext i
  obtain ⟨u, r, e, rfl⟩ : ∃ (u : Fin 1) (r : Fin 512) (e : Fin 768), i = ix3 u r e := ⟨i 0, i 1, i 2, eq_ix3 i⟩
  rw [k0_pay11_apply]
  simp only [lnB_apply]
  rfl

theorem blk22 (x g β w b) : k0_pay12 (k0_pay7 (k0_pay2 x) (k0_pay4 x) (k0_pay5 x) g β) w b = projBlk x g β w b := by
  funext i
  obtain ⟨u, r, e, rfl⟩ : ∃ (u : Fin 1) (r : Fin 512) (e : Fin 768), i = ix3 u r e := ⟨i 0, i 1, i 2, eq_ix3 i⟩
  rw [k0_pay12_apply]
  simp only [lnB_apply]
  rfl

theorem blk23 (x g β w b) :
    k0_pay1 (k0_pay7 (k0_pay2 x) (k0_pay4 x) (k0_pay5 x) g β) (k0_pay13 w) (constant S512x768 .f32 0x00000000#32) b
      = projBlk x g β w b := by
  funext i
  obtain ⟨u, r, e, rfl⟩ : ∃ (u : Fin 1) (r : Fin 512) (e : Fin 768), i = ix3 u r e := ⟨i 0, i 1, i 2, eq_ix3 i⟩
  rw [k0_pay13_eq, k0_pay1_apply]
  simp only [lnB_apply]
  rfl

end Cert.KernelIdeal.Hand.Val0

end
-- ==== Proof.Val0Blk.lean ====
/-
  From blocks to arrays, first region. Each of the 16 grid points (batch entry `b`, half `h` of the 1024 rows) writes back,
  into each of the six output arrays, the block of rows `[512 h, 512 h + 512)` of batch entry `b`; what it writes is every
  row of that block of the input, normalised and projected, and the vectors and matrices are read whole. Row `n` of
  batch entry `b` lies in the block of point `2 b + n / 512`, so the blocks cover each array, which therefore ends holding
  every row of the input normalised and projected (`Cert.AttnSpec.projArr`).
-/
import proofs.«176245_j63866163691863_2_alg».proof.Proof.Val0Pay
import proofs.«176245_j63866163691863_2_alg».proof.Proof.Region0Dat
import Idealize.ShloMosaic.Lib.Pipeline.Value

set_option maxRecDepth 16384

noncomputable section

namespace Cert.KernelIdeal.Hand.Val0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.AttnSpec

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A block's value at block index `i` is the array's value at array index `k` when row `i 1` of the input block is row
    `(k 0, k 1)` of the input array, the vectors and matrices are the arrays', and the columns agree. -/
theorem projBlk_eq_projArr (x : Vec Ideal S1x512x768 .f32) (g β : Vec Ideal S768 .f32) (w : Vec Ideal S768x768 .bf16)
    (b : Vec Ideal S768 .f32) (X : A3) (G B : A1) (W : A2) (Bi : A1) (i : S1x512x768.Idx) (k : S8x1024x768.Idx)
    (hx : ∀ d : Fin 768, x (ix3 (0 : Fin 1) (i 1) d) = v3 X (k 0) (k 1) d)
    (hg : ∀ d : Fin 768, g (ix1 d) = G (ix1 d)) (hβ : ∀ d : Fin 768, β (ix1 d) = B (ix1 d))
    (hw : ∀ d e : Fin 768, w (ix2 d e) = W (ix2 d e)) (hb : ∀ d : Fin 768, b (ix1 d) = Bi (ix1 d))
    (hk : (i 2).val = (k 2).val) :
    projBlk x g β w b i = projArr X G B W Bi k := by
  show proj (lnRow (row x (i 1)) (vec g) (vec β)) (mat w) (vec b) (i 2)
    = proj (lnRow (v3 X (k 0) (k 1)) (v1 G) (v1 B)) (v2 W) (v1 Bi) (k 2)
  have e1 : row x (i 1) = v3 X (k 0) (k 1) := funext hx
  have e2 : vec g = v1 G := funext hg
  have e3 : vec β = v1 B := funext hβ
  have e4 : mat w = v2 W := funext fun d => funext (hw d)
  have e5 : vec b = v1 Bi := funext hb
  have e6 : (i 2 : Fin 768) = k 2 := Fin.ext hk
  rw [e1, e2, e3, e4, e5]
  exact congrArg (proj (lnRow (v3 X (k 0) (k 1)) (v1 G) (v1 B)) (v2 W) (v1 Bi)) e6

variable (V : (c : Dev nD) → (b : Ref sig .tc) → Buf (Elt Ideal) ((c : Thread nD τ).loc b))

/-- The printed index maps, decided over the grid: point `t` is batch entry `t / 2`, half `t % 2`; the row blocks move with
    it and everything else stays at block 0. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 1) = 0 ∧ win0_3.index t (0 : Fin 1) = 0 ∧ win0_4.index t (0 : Fin 1) = 0 ∧ win0_5.index t (0 : Fin 1) = 0 :=
  (by decide +kernel : ∀ t : Fin grid0.N, _)

theorem idx_facts_w : ∀ t : Fin cfg0.N,
    (win0_6.index t (0 : Fin 2) = 0 ∧ win0_6.index t (1 : Fin 2) = 0 ∧ win0_7.index t (0 : Fin 1) = 0)
    ∧ (win0_8.index t (0 : Fin 2) = 0 ∧ win0_8.index t (1 : Fin 2) = 0 ∧ win0_9.index t (0 : Fin 1) = 0)
    ∧ (win0_10.index t (0 : Fin 2) = 0 ∧ win0_10.index t (1 : Fin 2) = 0 ∧ win0_11.index t (0 : Fin 1) = 0)
    ∧ (win0_12.index t (0 : Fin 2) = 0 ∧ win0_12.index t (1 : Fin 2) = 0 ∧ win0_13.index t (0 : Fin 1) = 0)
    ∧ (win0_14.index t (0 : Fin 2) = 0 ∧ win0_14.index t (1 : Fin 2) = 0 ∧ win0_15.index t (0 : Fin 1) = 0)
    ∧ (win0_16.index t (0 : Fin 2) = 0 ∧ win0_16.index t (1 : Fin 2) = 0 ∧ win0_17.index t (0 : Fin 1) = 0) :=
  (by decide +kernel : ∀ t : Fin grid0.N, _)

theorem idx_facts_o : ∀ t : Fin cfg0.N,
    (win0_18.index t (0 : Fin 3) = t.val / 2 ∧ win0_18.index t (1 : Fin 3) = t.val % 2 ∧ win0_18.index t (2 : Fin 3) = 0)
    ∧ (win0_19.index t (0 : Fin 3) = t.val / 2 ∧ win0_19.index t (1 : Fin 3) = t.val % 2 ∧ win0_19.index t (2 : Fin 3) = 0)
    ∧ (win0_20.index t (0 : Fin 3) = t.val / 2 ∧ win0_20.index t (1 : Fin 3) = t.val % 2 ∧ win0_20.index t (2 : Fin 3) = 0)
    ∧ (win0_21.index t (0 : Fin 3) = t.val / 2 ∧ win0_21.index t (1 : Fin 3) = t.val % 2 ∧ win0_21.index t (2 : Fin 3) = 0)
    ∧ (win0_22.index t (0 : Fin 3) = t.val / 2 ∧ win0_22.index t (1 : Fin 3) = t.val % 2 ∧ win0_22.index t (2 : Fin 3) = 0)
    ∧ (win0_23.index t (0 : Fin 3) = t.val / 2 ∧ win0_23.index t (1 : Fin 3) = t.val % 2 ∧ win0_23.index t (2 : Fin 3) = 0) :=
  (by decide +kernel : ∀ t : Fin grid0.N, _)

/-! ## Output window 18: the first input's rows through the first matrix -/

/-- What point `t` writes back is its block of the array of projected rows. -/
theorem flushed18_eq (c : Dev nD) (t : Fin cfg0.N) :
    (dat0 (F := Ideal) V c).flushed 18 t = ((cfg0.win 18).blk t).view.read (Elt Ideal)
      (projArr (V c main_arg0) (V c main_arg2) (V c main_arg3) (V c main_v0) (V c main_arg7)) := by
  show (cfg0.win 18).cut (grid0.coords t) ((dat0 (F := Ideal) V c).after 18 t) = _
  rw [after0_18]
  unfold out0_18 ln0_a
  rw [View.canon_unit_zero hz3]
  simp only [View.ld_unit_zero (S := S1x512x768) hz3, View.ld_unit_zero (S := S768) hz1, View.ld_unit_zero (S := S768x768) hz2]
  rw [blk18]
  obtain ⟨a0, a1, a2, -⟩ := idx_facts t
  obtain ⟨a3, a4, -⟩ := idx_facts t |>.2.2.2.2.2.2
  obtain ⟨⟨w0, w1, w2⟩, -⟩ := idx_facts_w t
  obtain ⟨⟨o0, o1, o2⟩, -⟩ := idx_facts_o t
  funext j
  have hj0 : (j 0).val < 1 := (j 0).isLt
  have hj1 : (j 1).val < 512 := (j 1).isLt
  have hj2 : (j 2).val < 768 := (j 2).isLt
  show projBlk (iblk0 V c 0 t) (iblk0 V c 2 t) (iblk0 V c 3 t) (iblk0 V c 6 t) (iblk0 V c 7 t)
      ((cfg0.win 18).xinj (grid0.coords t) j)
    = projArr (V c main_arg0) (V c main_arg2) (V c main_arg3) (V c main_v0) (V c main_arg7)
      (((cfg0.win 18).blk t).view.emb j)
  refine projBlk_eq_projArr (iblk0 V c 0 t) (iblk0 V c 2 t) (iblk0 V c 3 t) (iblk0 V c 6 t) (iblk0 V c 7 t)
    (V c main_arg0) (V c main_arg2) (V c main_arg3) (V c main_v0) (V c main_arg7)
    ((cfg0.win 18).xinj (grid0.coords t) j) (((cfg0.win 18).blk t).view.emb j)
    (fun d => ?_) (fun d => ?_) (fun d => ?_) (fun d e => ?_) (fun d => ?_) ?_
  · show V c main_arg0 (((cfg0.win 0).blk t).view.emb (ix3 (0 : Fin 1) ⟨(j 1).val, hj1⟩ d))
      = V c main_arg0 (ix3 ((((cfg0.win 18).blk t).view.emb j) 0) ((((cfg0.win 18).blk t).view.emb j) 1) d)
    refine congrArg (V c main_arg0) (funext fun a => Fin.ext ?_)
    match a with
    | ⟨0, _⟩ => show win0_0.index t (0 : Fin 3) * 1 + 1 * 0 = win0_18.index t (0 : Fin 3) * 1 + 1 * (j 0).val; omega
    | ⟨1, _⟩ => show win0_0.index t (1 : Fin 3) * 512 + 1 * (j 1).val = win0_18.index t (1 : Fin 3) * 512 + 1 * (j 1).val; omega
    | ⟨2, _⟩ => show win0_0.index t (2 : Fin 3) * 768 + 1 * d.val = d.val; omega
  · show V c main_arg2 (((cfg0.win 2).blk t).view.emb (ix1 d)) = V c main_arg2 (ix1 d)
    refine congrArg (V c main_arg2) (funext fun a => Fin.ext ?_)
    match a with
    | ⟨0, _⟩ => show win0_2.index t (0 : Fin 1) * 768 + 1 * d.val = d.val; omega
  · show V c main_arg3 (((cfg0.win 3).blk t).view.emb (ix1 d)) = V c main_arg3 (ix1 d)
    refine congrArg (V c main_arg3) (funext fun a => Fin.ext ?_)
    match a with
    | ⟨0, _⟩ => show win0_3.index t (0 : Fin 1) * 768 + 1 * d.val = d.val; omega
  · show V c main_v0 (((cfg0.win 6).blk t).view.emb (ix2 d e)) = V c main_v0 (ix2 d e)
    refine congrArg (V c main_v0) (funext fun a => Fin.ext ?_)
    match a with
    | ⟨0, _⟩ => show win0_6.index t (0 : Fin 2) * 768 + 1 * d.val = d.val; omega
    | ⟨1, _⟩ => show win0_6.index t (1 : Fin 2) * 768 + 1 * e.val = e.val; omega
  · show V c main_arg7 (((cfg0.win 7).blk t).view.emb (ix1 d)) = V c main_arg7 (ix1 d)
    refine congrArg (V c main_arg7) (funext fun a => Fin.ext ?_)
    match a with
    | ⟨0, _⟩ => show win0_7.index t (0 : Fin 1) * 768 + 1 * d.val = d.val; omega
  · show (j 2).val = win0_18.index t (2 : Fin 3) * 768 + 1 * (j 2).val
    omega

/-- An index of the array is in point `t`'s block iff each coordinate is in the block's range on its axis. -/
theorem mem_blk18 (t : Fin cfg0.N) (i : S8x1024x768.Idx) :
    i ∈ ((cfg0.win 18).blk t).view.set ↔ ∀ a : Fin 3, win0_18.index t a * S1x512x768.size a ≤ (i a).val
      ∧ (i a).val < win0_18.index t a * S1x512x768.size a + S1x512x768.size a := by
  show i ∈ ((View.whole main_v8_0).slice (win0_18.rect t)).set ↔ _
  rw [View.set_slice_whole, Rect.mem_set_unit]
  exact Iff.rfl

/-- Row `n` of batch entry `b` is in the block of point `2 b + n / 512`. -/
theorem cover18 (i : S8x1024x768.Idx) :
    ∃ t : Fin cfg0.N, (cfg0.win 18).flush t = true ∧ i ∈ ((cfg0.win 18).blk t).view.set := by
  have h0 : (i 0).val < 8 := (i 0).isLt
  have h1 : (i 1).val < 1024 := (i 1).isLt
  have h2 : (i 2).val < 768 := (i 2).isLt
  have hN : 2 * (i 0).val + (i 1).val / 512 < cfg0.N := by show _ < 16; omega
  refine ⟨⟨2 * (i 0).val + (i 1).val / 512, hN⟩, flush0_18 _, ?_⟩
  rw [mem_blk18]
  obtain ⟨⟨o0, o1, o2⟩, -⟩ := idx_facts_o ⟨2 * (i 0).val + (i 1).val / 512, hN⟩
  have o0' : win0_18.index ⟨2 * (i 0).val + (i 1).val / 512, hN⟩ (0 : Fin 3) = (2 * (i 0).val + (i 1).val / 512) / 2 := o0
  have o1' : win0_18.index ⟨2 * (i 0).val + (i 1).val / 512, hN⟩ (1 : Fin 3) = (2 * (i 0).val + (i 1).val / 512) % 2 := o1
  intro a
  match a with
  | ⟨0, _⟩ =>
    show win0_18.index _ (0 : Fin 3) * 1 ≤ (i 0).val ∧ (i 0).val < win0_18.index _ (0 : Fin 3) * 1 + 1
    rw [o0']; omega
  | ⟨1, _⟩ =>
    show win0_18.index _ (1 : Fin 3) * 512 ≤ (i 1).val ∧ (i 1).val < win0_18.index _ (1 : Fin 3) * 512 + 512
    rw [o1']; omega
  | ⟨2, _⟩ =>
    show win0_18.index _ (2 : Fin 3) * 768 ≤ (i 2).val ∧ (i 2).val < win0_18.index _ (2 : Fin 3) * 768 + 768
    rw [o2]; omega

/-- The first output array after the region: every row of the first input normalised and projected through the first matrix. -/
theorem final0_18 (c : Dev nD) : (dat0 (F := Ideal) V c).arrAt 18 cfg0.N
    = projArr (V c main_arg0) (V c main_arg2) (V c main_arg3) (V c main_v0) (V c main_arg7) :=
  (dat0 (F := Ideal) V c).arrAt_eq_of_cover 18 _ (fun t _ => flushed18_eq V c t) cover18

end Cert.KernelIdeal.Hand.Val0

end
-- ==== Proof.Val0Blk2.lean ====
/-
  From blocks to arrays, first region: the second and third output arrays (the first input's rows through the second and third matrices). The argument is the first output array's: each grid point writes back the
  block of rows it covers, that block is every row of the input block normalised and projected, and row `n` of batch entry
  `b` lies in the block of point `2 b + n / 512`.
-/
import proofs.«176245_j63866163691863_2_alg».proof.Proof.Val0Blk

set_option maxRecDepth 16384

noncomputable section

namespace Cert.KernelIdeal.Hand.Val0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.AttnSpec

variable (V : (c : Dev nD) → (b : Ref sig .tc) → Buf (Elt Ideal) ((c : Thread nD τ).loc b))

/-! ## Output window 19: the first input's rows through the second matrix -/

/-- What point `t` writes back is its block of the array of projected rows. -/
theorem flushed19_eq (c : Dev nD) (t : Fin cfg0.N) :
    (dat0 (F := Ideal) V c).flushed 19 t = ((cfg0.win 19).blk t).view.read (Elt Ideal)
      (projArr (V c main_arg0) (V c main_arg2) (V c main_arg3) (V c main_v1) (V c main_arg9)) := by
  show (cfg0.win 19).cut (grid0.coords t) ((dat0 (F := Ideal) V c).after 19 t) = _
  rw [after0_19]
  unfold out0_19 ln0_a
  rw [View.canon_unit_zero hz3]
  simp only [View.ld_unit_zero (S := S1x512x768) hz3, View.ld_unit_zero (S := S768) hz1, View.ld_unit_zero (S := S768x768) hz2]
  rw [blk19]
  obtain ⟨a0, a1, a2, b0, b1, b2, g2, g3, g4, g5⟩ := idx_facts t
  obtain ⟨⟨w6a, w6b, w7⟩, ⟨w8a, w8b, w9⟩, ⟨w10a, w10b, w11⟩, ⟨w12a, w12b, w13⟩, ⟨w14a, w14b, w15⟩, ⟨w16a, w16b, w17⟩⟩ := idx_facts_w t
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ := idx_facts_o t
  funext j
  have hj0 : (j 0).val < 1 := (j 0).isLt
  have hj1 : (j 1).val < 512 := (j 1).isLt
  have hj2 : (j 2).val < 768 := (j 2).isLt
  show projBlk (iblk0 V c 0 t) (iblk0 V c 2 t) (iblk0 V c 3 t) (iblk0 V c 8 t) (iblk0 V c 9 t)
      ((cfg0.win 19).xinj (grid0.coords t) j)
    = projArr (V c main_arg0) (V c main_arg2) (V c main_arg3) (V c main_v1) (V c main_arg9)
      (((cfg0.win 19).blk t).view.emb j)
  refine projBlk_eq_projArr (iblk0 V c 0 t) (iblk0 V c 2 t) (iblk0 V c 3 t) (iblk0 V c 8 t) (iblk0 V c 9 t)
    (V c main_arg0) (V c main_arg2) (V c main_arg3) (V c main_v1) (V c main_arg9)
    ((cfg0.win 19).xinj (grid0.coords t) j) (((cfg0.win 19).blk t).view.emb j)
    (fun d => ?_) (fun d => ?_) (fun d => ?_) (fun d e => ?_) (fun d => ?_) ?_
  · show V c main_arg0 (((cfg0.win 0).blk t).view.emb (ix3 (0 : Fin 1) ⟨(j 1).val, hj1⟩ d))
      = V c main_arg0 (ix3 ((((cfg0.win 19).blk t).view.emb j) 0) ((((cfg0.win 19).blk t).view.emb j) 1) d)
    refine congrArg (V c main_arg0) (funext fun a => Fin.ext ?_)
    match a with
    | ⟨0, _⟩ => show win0_0.index t (0 : Fin 3) * 1 + 1 * 0 = win0_19.index t (0 : Fin 3) * 1 + 1 * (j 0).val; omega
    | ⟨1, _⟩ => show win0_0.index t (1 : Fin 3) * 512 + 1 * (j 1).val = win0_19.index t (1 : Fin 3) * 512 + 1 * (j 1).val; omega
    | ⟨2, _⟩ => show win0_0.index t (2 : Fin 3) * 768 + 1 * d.val = d.val; omega
  · show V c main_arg2 (((cfg0.win 2).blk t).view.emb (ix1 d)) = V c main_arg2 (ix1 d)
    refine congrArg (V c main_arg2) (funext fun a => Fin.ext ?_)
    match a with
    | ⟨0, _⟩ => show win0_2.index t (0 : Fin 1) * 768 + 1 * d.val = d.val; omega
  · show V c main_arg3 (((cfg0.win 3).blk t).view.emb (ix1 d)) = V c main_arg3 (ix1 d)
    refine congrArg (V c main_arg3) (funext fun a => Fin.ext ?_)
    match a with
    | ⟨0, _⟩ => show win0_3.index t (0 : Fin 1) * 768 + 1 * d.val = d.val; omega
  · show V c main_v1 (((cfg0.win 8).blk t).view.emb (ix2 d e)) = V c main_v1 (ix2 d e)
    refine congrArg (V c main_v1) (funext fun a => Fin.ext ?_)
    match a with
    | ⟨0, _⟩ => show win0_8.index t (0 : Fin 2) * 768 + 1 * d.val = d.val; omega
    | ⟨1, _⟩ => show win0_8.index t (1 : Fin 2) * 768 + 1 * e.val = e.val; omega
  · show V c main_arg9 (((cfg0.win 9).blk t).view.emb (ix1 d)) = V c main_arg9 (ix1 d)
    refine congrArg (V c main_arg9) (funext fun a => Fin.ext ?_)
    match a with
    | ⟨0, _⟩ => show win0_9.index t (0 : Fin 1) * 768 + 1 * d.val = d.val; omega
  · show (j 2).val = win0_19.index t (2 : Fin 3) * 768 + 1 * (j 2).val
    omega

/-- An index of the array is in point `t`'s block iff each coordinate is in the block's range on its axis. -/
theorem mem_blk19 (t : Fin cfg0.N) (i : S8x1024x768.Idx) :
    i ∈ ((cfg0.win 19).blk t).view.set ↔ ∀ a : Fin 3, win0_19.index t a * S1x512x768.size a ≤ (i a).val
      ∧ (i a).val < win0_19.index t a * S1x512x768.size a + S1x512x768.size a := by
  show i ∈ ((View.whole main_v8_1).slice (win0_19.rect t)).set ↔ _
  rw [View.set_slice_whole, Rect.mem_set_unit]
  exact Iff.rfl

/-- Row `n` of batch entry `b` is in the block of point `2 b + n / 512`. -/
theorem cover19 (i : S8x1024x768.Idx) :
    ∃ t : Fin cfg0.N, (cfg0.win 19).flush t = true ∧ i ∈ ((cfg0.win 19).blk t).view.set := by
  have h0 : (i 0).val < 8 := (i 0).isLt
  have h1 : (i 1).val < 1024 := (i 1).isLt
  have h2 : (i 2).val < 768 := (i 2).isLt
  have hN : 2 * (i 0).val + (i 1).val / 512 < cfg0.N := by show _ < 16; omega
  refine ⟨⟨2 * (i 0).val + (i 1).val / 512, hN⟩, flush0_19 _, ?_⟩
  rw [mem_blk19]
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ :=
    idx_facts_o ⟨2 * (i 0).val + (i 1).val / 512, hN⟩
  have o0' : win0_19.index ⟨2 * (i 0).val + (i 1).val / 512, hN⟩ (0 : Fin 3) = (2 * (i 0).val + (i 1).val / 512) / 2 := o19a
  have o1' : win0_19.index ⟨2 * (i 0).val + (i 1).val / 512, hN⟩ (1 : Fin 3) = (2 * (i 0).val + (i 1).val / 512) % 2 := o19b
  intro a
  match a with
  | ⟨0, _⟩ =>
    show win0_19.index _ (0 : Fin 3) * 1 ≤ (i 0).val ∧ (i 0).val < win0_19.index _ (0 : Fin 3) * 1 + 1
    rw [o0']; omega
  | ⟨1, _⟩ =>
    show win0_19.index _ (1 : Fin 3) * 512 ≤ (i 1).val ∧ (i 1).val < win0_19.index _ (1 : Fin 3) * 512 + 512
    rw [o1']; omega
  | ⟨2, _⟩ =>
    show win0_19.index _ (2 : Fin 3) * 768 ≤ (i 2).val ∧ (i 2).val < win0_19.index _ (2 : Fin 3) * 768 + 768
    rw [o19c]; omega

/-- The second output array after the region: every row of the first input normalised and projected through the second matrix. -/
theorem final0_19 (c : Dev nD) : (dat0 (F := Ideal) V c).arrAt 19 cfg0.N
    = projArr (V c main_arg0) (V c main_arg2) (V c main_arg3) (V c main_v1) (V c main_arg9) :=
  (dat0 (F := Ideal) V c).arrAt_eq_of_cover 19 _ (fun t _ => flushed19_eq V c t) cover19

/-! ## Output window 20: the first input's rows through the third matrix -/

/-- What point `t` writes back is its block of the array of projected rows. -/
theorem flushed20_eq (c : Dev nD) (t : Fin cfg0.N) :
    (dat0 (F := Ideal) V c).flushed 20 t = ((cfg0.win 20).blk t).view.read (Elt Ideal)
      (projArr (V c main_arg0) (V c main_arg2) (V c main_arg3) (V c main_v2) (V c main_arg11)) := by
  show (cfg0.win 20).cut (grid0.coords t) ((dat0 (F := Ideal) V c).after 20 t) = _
  rw [after0_20]
  unfold out0_20 ln0_a
  rw [View.canon_unit_zero hz3]
  simp only [View.ld_unit_zero (S := S1x512x768) hz3, View.ld_unit_zero (S := S768) hz1, View.ld_unit_zero (S := S768x768) hz2]
  rw [blk20]
  obtain ⟨a0, a1, a2, b0, b1, b2, g2, g3, g4, g5⟩ := idx_facts t
  obtain ⟨⟨w6a, w6b, w7⟩, ⟨w8a, w8b, w9⟩, ⟨w10a, w10b, w11⟩, ⟨w12a, w12b, w13⟩, ⟨w14a, w14b, w15⟩, ⟨w16a, w16b, w17⟩⟩ := idx_facts_w t
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ := idx_facts_o t
  funext j
  have hj0 : (j 0).val < 1 := (j 0).isLt
  have hj1 : (j 1).val < 512 := (j 1).isLt
  have hj2 : (j 2).val < 768 := (j 2).isLt
  show projBlk (iblk0 V c 0 t) (iblk0 V c 2 t) (iblk0 V c 3 t) (iblk0 V c 10 t) (iblk0 V c 11 t)
      ((cfg0.win 20).xinj (grid0.coords t) j)
    = projArr (V c main_arg0) (V c main_arg2) (V c main_arg3) (V c main_v2) (V c main_arg11)
      (((cfg0.win 20).blk t).view.emb j)
  refine projBlk_eq_projArr (iblk0 V c 0 t) (iblk0 V c 2 t) (iblk0 V c 3 t) (iblk0 V c 10 t) (iblk0 V c 11 t)
    (V c main_arg0) (V c main_arg2) (V c main_arg3) (V c main_v2) (V c main_arg11)
    ((cfg0.win 20).xinj (grid0.coords t) j) (((cfg0.win 20).blk t).view.emb j)
    (fun d => ?_) (fun d => ?_) (fun d => ?_) (fun d e => ?_) (fun d => ?_) ?_
  · show V c main_arg0 (((cfg0.win 0).blk t).view.emb (ix3 (0 : Fin 1) ⟨(j 1).val, hj1⟩ d))
      = V c main_arg0 (ix3 ((((cfg0.win 20).blk t).view.emb j) 0) ((((cfg0.win 20).blk t).view.emb j) 1) d)
    refine congrArg (V c main_arg0) (funext fun a => Fin.ext ?_)
    match a with
    | ⟨0, _⟩ => show win0_0.index t (0 : Fin 3) * 1 + 1 * 0 = win0_20.index t (0 : Fin 3) * 1 + 1 * (j 0).val; omega
    | ⟨1, _⟩ => show win0_0.index t (1 : Fin 3) * 512 + 1 * (j 1).val = win0_20.index t (1 : Fin 3) * 512 + 1 * (j 1).val; omega
    | ⟨2, _⟩ => show win0_0.index t (2 : Fin 3) * 768 + 1 * d.val = d.val; omega
  · show V c main_arg2 (((cfg0.win 2).blk t).view.emb (ix1 d)) = V c main_arg2 (ix1 d)
    refine congrArg (V c main_arg2) (funext fun a => Fin.ext ?_)
    match a with
    | ⟨0, _⟩ => show win0_2.index t (0 : Fin 1) * 768 + 1 * d.val = d.val; omega
  · show V c main_arg3 (((cfg0.win 3).blk t).view.emb (ix1 d)) = V c main_arg3 (ix1 d)
    refine congrArg (V c main_arg3) (funext fun a => Fin.ext ?_)
    match a with
    | ⟨0, _⟩ => show win0_3.index t (0 : Fin 1) * 768 + 1 * d.val = d.val; omega
  · show V c main_v2 (((cfg0.win 10).blk t).view.emb (ix2 d e)) = V c main_v2 (ix2 d e)
    refine congrArg (V c main_v2) (funext fun a => Fin.ext ?_)
    match a with
    | ⟨0, _⟩ => show win0_10.index t (0 : Fin 2) * 768 + 1 * d.val = d.val; omega
    | ⟨1, _⟩ => show win0_10.index t (1 : Fin 2) * 768 + 1 * e.val = e.val; omega
  · show V c main_arg11 (((cfg0.win 11).blk t).view.emb (ix1 d)) = V c main_arg11 (ix1 d)
    refine congrArg (V c main_arg11) (funext fun a => Fin.ext ?_)
    match a with
    | ⟨0, _⟩ => show win0_11.index t (0 : Fin 1) * 768 + 1 * d.val = d.val; omega
  · show (j 2).val = win0_20.index t (2 : Fin 3) * 768 + 1 * (j 2).val
    omega

/-- An index of the array is in point `t`'s block iff each coordinate is in the block's range on its axis. -/
theorem mem_blk20 (t : Fin cfg0.N) (i : S8x1024x768.Idx) :
    i ∈ ((cfg0.win 20).blk t).view.set ↔ ∀ a : Fin 3, win0_20.index t a * S1x512x768.size a ≤ (i a).val
      ∧ (i a).val < win0_20.index t a * S1x512x768.size a + S1x512x768.size a := by
  show i ∈ ((View.whole main_v8_2).slice (win0_20.rect t)).set ↔ _
  rw [View.set_slice_whole, Rect.mem_set_unit]
  exact Iff.rfl

/-- Row `n` of batch entry `b` is in the block of point `2 b + n / 512`. -/
theorem cover20 (i : S8x1024x768.Idx) :
    ∃ t : Fin cfg0.N, (cfg0.win 20).flush t = true ∧ i ∈ ((cfg0.win 20).blk t).view.set := by
  have h0 : (i 0).val < 8 := (i 0).isLt
  have h1 : (i 1).val < 1024 := (i 1).isLt
  have h2 : (i 2).val < 768 := (i 2).isLt
  have hN : 2 * (i 0).val + (i 1).val / 512 < cfg0.N := by show _ < 16; omega
  refine ⟨⟨2 * (i 0).val + (i 1).val / 512, hN⟩, flush0_20 _, ?_⟩
  rw [mem_blk20]
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ :=
    idx_facts_o ⟨2 * (i 0).val + (i 1).val / 512, hN⟩
  have o0' : win0_20.index ⟨2 * (i 0).val + (i 1).val / 512, hN⟩ (0 : Fin 3) = (2 * (i 0).val + (i 1).val / 512) / 2 := o20a
  have o1' : win0_20.index ⟨2 * (i 0).val + (i 1).val / 512, hN⟩ (1 : Fin 3) = (2 * (i 0).val + (i 1).val / 512) % 2 := o20b
  intro a
  match a with
  | ⟨0, _⟩ =>
    show win0_20.index _ (0 : Fin 3) * 1 ≤ (i 0).val ∧ (i 0).val < win0_20.index _ (0 : Fin 3) * 1 + 1
    rw [o0']; omega
  | ⟨1, _⟩ =>
    show win0_20.index _ (1 : Fin 3) * 512 ≤ (i 1).val ∧ (i 1).val < win0_20.index _ (1 : Fin 3) * 512 + 512
    rw [o1']; omega
  | ⟨2, _⟩ =>
    show win0_20.index _ (2 : Fin 3) * 768 ≤ (i 2).val ∧ (i 2).val < win0_20.index _ (2 : Fin 3) * 768 + 768
    rw [o20c]; omega

/-- The third output array after the region: every row of the first input normalised and projected through the third matrix. -/
theorem final0_20 (c : Dev nD) : (dat0 (F := Ideal) V c).arrAt 20 cfg0.N
    = projArr (V c main_arg0) (V c main_arg2) (V c main_arg3) (V c main_v2) (V c main_arg11) :=
  (dat0 (F := Ideal) V c).arrAt_eq_of_cover 20 _ (fun t _ => flushed20_eq V c t) cover20

end Cert.KernelIdeal.Hand.Val0

end
-- ==== Proof.Val0Blk3.lean ====
/-
  From blocks to arrays, first region: the fourth, fifth and sixth output arrays (the second input's rows through the last three matrices). The argument is the first output array's: each grid point writes back the
  block of rows it covers, that block is every row of the input block normalised and projected, and row `n` of batch entry
  `b` lies in the block of point `2 b + n / 512`.
-/
import proofs.«176245_j63866163691863_2_alg».proof.Proof.Val0Blk

set_option maxRecDepth 16384

noncomputable section

namespace Cert.KernelIdeal.Hand.Val0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.AttnSpec

variable (V : (c : Dev nD) → (b : Ref sig .tc) → Buf (Elt Ideal) ((c : Thread nD τ).loc b))

/-! ## Output window 21: the second input's rows through the fourth matrix -/

/-- What point `t` writes back is its block of the array of projected rows. -/
theorem flushed21_eq (c : Dev nD) (t : Fin cfg0.N) :
    (dat0 (F := Ideal) V c).flushed 21 t = ((cfg0.win 21).blk t).view.read (Elt Ideal)
      (projArr (V c main_arg1) (V c main_arg4) (V c main_arg5) (V c main_v3) (V c main_arg13)) := by
  show (cfg0.win 21).cut (grid0.coords t) ((dat0 (F := Ideal) V c).after 21 t) = _
  rw [after0_21]
  unfold out0_21 ln0_b
  rw [View.canon_unit_zero hz3]
  simp only [View.ld_unit_zero (S := S1x512x768) hz3, View.ld_unit_zero (S := S768) hz1, View.ld_unit_zero (S := S768x768) hz2]
  rw [blk21]
  obtain ⟨a0, a1, a2, b0, b1, b2, g2, g3, g4, g5⟩ := idx_facts t
  obtain ⟨⟨w6a, w6b, w7⟩, ⟨w8a, w8b, w9⟩, ⟨w10a, w10b, w11⟩, ⟨w12a, w12b, w13⟩, ⟨w14a, w14b, w15⟩, ⟨w16a, w16b, w17⟩⟩ := idx_facts_w t
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ := idx_facts_o t
  funext j
  have hj0 : (j 0).val < 1 := (j 0).isLt
  have hj1 : (j 1).val < 512 := (j 1).isLt
  have hj2 : (j 2).val < 768 := (j 2).isLt
  show projBlk (iblk0 V c 1 t) (iblk0 V c 4 t) (iblk0 V c 5 t) (iblk0 V c 12 t) (iblk0 V c 13 t)
      ((cfg0.win 21).xinj (grid0.coords t) j)
    = projArr (V c main_arg1) (V c main_arg4) (V c main_arg5) (V c main_v3) (V c main_arg13)
      (((cfg0.win 21).blk t).view.emb j)
  refine projBlk_eq_projArr (iblk0 V c 1 t) (iblk0 V c 4 t) (iblk0 V c 5 t) (iblk0 V c 12 t) (iblk0 V c 13 t)
    (V c main_arg1) (V c main_arg4) (V c main_arg5) (V c main_v3) (V c main_arg13)
    ((cfg0.win 21).xinj (grid0.coords t) j) (((cfg0.win 21).blk t).view.emb j)
    (fun d => ?_) (fun d => ?_) (fun d => ?_) (fun d e => ?_) (fun d => ?_) ?_
  · show V c main_arg1 (((cfg0.win 1).blk t).view.emb (ix3 (0 : Fin 1) ⟨(j 1).val, hj1⟩ d))
      = V c main_arg1 (ix3 ((((cfg0.win 21).blk t).view.emb j) 0) ((((cfg0.win 21).blk t).view.emb j) 1) d)
    refine congrArg (V c main_arg1) (funext fun a => Fin.ext ?_)
    match a with
    | ⟨0, _⟩ => show win0_1.index t (0 : Fin 3) * 1 + 1 * 0 = win0_21.index t (0 : Fin 3) * 1 + 1 * (j 0).val; omega
    | ⟨1, _⟩ => show win0_1.index t (1 : Fin 3) * 512 + 1 * (j 1).val = win0_21.index t (1 : Fin 3) * 512 + 1 * (j 1).val; omega
    | ⟨2, _⟩ => show win0_1.index t (2 : Fin 3) * 768 + 1 * d.val = d.val; omega
  · show V c main_arg4 (((cfg0.win 4).blk t).view.emb (ix1 d)) = V c main_arg4 (ix1 d)
    refine congrArg (V c main_arg4) (funext fun a => Fin.ext ?_)
    match a with
    | ⟨0, _⟩ => show win0_4.index t (0 : Fin 1) * 768 + 1 * d.val = d.val; omega
  · show V c main_arg5 (((cfg0.win 5).blk t).view.emb (ix1 d)) = V c main_arg5 (ix1 d)
    refine congrArg (V c main_arg5) (funext fun a => Fin.ext ?_)
    match a with
    | ⟨0, _⟩ => show win0_5.index t (0 : Fin 1) * 768 + 1 * d.val = d.val; omega
  · show V c main_v3 (((cfg0.win 12).blk t).view.emb (ix2 d e)) = V c main_v3 (ix2 d e)
    refine congrArg (V c main_v3) (funext fun a => Fin.ext ?_)
    match a with
    | ⟨0, _⟩ => show win0_12.index t (0 : Fin 2) * 768 + 1 * d.val = d.val; omega
    | ⟨1, _⟩ => show win0_12.index t (1 : Fin 2) * 768 + 1 * e.val = e.val; omega
  · show V c main_arg13 (((cfg0.win 13).blk t).view.emb (ix1 d)) = V c main_arg13 (ix1 d)
    refine congrArg (V c main_arg13) (funext fun a => Fin.ext ?_)
    match a with
    | ⟨0, _⟩ => show win0_13.index t (0 : Fin 1) * 768 + 1 * d.val = d.val; omega
  · show (j 2).val = win0_21.index t (2 : Fin 3) * 768 + 1 * (j 2).val
    omega

/-- An index of the array is in point `t`'s block iff each coordinate is in the block's range on its axis. -/
theorem mem_blk21 (t : Fin cfg0.N) (i : S8x1024x768.Idx) :
    i ∈ ((cfg0.win 21).blk t).view.set ↔ ∀ a : Fin 3, win0_21.index t a * S1x512x768.size a ≤ (i a).val
      ∧ (i a).val < win0_21.index t a * S1x512x768.size a + S1x512x768.size a := by
  show i ∈ ((View.whole main_v8_3).slice (win0_21.rect t)).set ↔ _
  rw [View.set_slice_whole, Rect.mem_set_unit]
  exact Iff.rfl

/-- Row `n` of batch entry `b` is in the block of point `2 b + n / 512`. -/
theorem cover21 (i : S8x1024x768.Idx) :
    ∃ t : Fin cfg0.N, (cfg0.win 21).flush t = true ∧ i ∈ ((cfg0.win 21).blk t).view.set := by
  have h0 : (i 0).val < 8 := (i 0).isLt
  have h1 : (i 1).val < 1024 := (i 1).isLt
  have h2 : (i 2).val < 768 := (i 2).isLt
  have hN : 2 * (i 0).val + (i 1).val / 512 < cfg0.N := by show _ < 16; omega
  refine ⟨⟨2 * (i 0).val + (i 1).val / 512, hN⟩, flush0_21 _, ?_⟩
  rw [mem_blk21]
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ :=
    idx_facts_o ⟨2 * (i 0).val + (i 1).val / 512, hN⟩
  have o0' : win0_21.index ⟨2 * (i 0).val + (i 1).val / 512, hN⟩ (0 : Fin 3) = (2 * (i 0).val + (i 1).val / 512) / 2 := o21a
  have o1' : win0_21.index ⟨2 * (i 0).val + (i 1).val / 512, hN⟩ (1 : Fin 3) = (2 * (i 0).val + (i 1).val / 512) % 2 := o21b
  intro a
  match a with
  | ⟨0, _⟩ =>
    show win0_21.index _ (0 : Fin 3) * 1 ≤ (i 0).val ∧ (i 0).val < win0_21.index _ (0 : Fin 3) * 1 + 1
    rw [o0']; omega
  | ⟨1, _⟩ =>
    show win0_21.index _ (1 : Fin 3) * 512 ≤ (i 1).val ∧ (i 1).val < win0_21.index _ (1 : Fin 3) * 512 + 512
    rw [o1']; omega
  | ⟨2, _⟩ =>
    show win0_21.index _ (2 : Fin 3) * 768 ≤ (i 2).val ∧ (i 2).val < win0_21.index _ (2 : Fin 3) * 768 + 768
    rw [o21c]; omega

/-- The fourth output array after the region: every row of the second input normalised and projected through the fourth matrix. -/
theorem final0_21 (c : Dev nD) : (dat0 (F := Ideal) V c).arrAt 21 cfg0.N
    = projArr (V c main_arg1) (V c main_arg4) (V c main_arg5) (V c main_v3) (V c main_arg13) :=
  (dat0 (F := Ideal) V c).arrAt_eq_of_cover 21 _ (fun t _ => flushed21_eq V c t) cover21

/-! ## Output window 22: the second input's rows through the fifth matrix -/

/-- What point `t` writes back is its block of the array of projected rows. -/
theorem flushed22_eq (c : Dev nD) (t : Fin cfg0.N) :
    (dat0 (F := Ideal) V c).flushed 22 t = ((cfg0.win 22).blk t).view.read (Elt Ideal)
      (projArr (V c main_arg1) (V c main_arg4) (V c main_arg5) (V c main_v4) (V c main_arg15)) := by
  show (cfg0.win 22).cut (grid0.coords t) ((dat0 (F := Ideal) V c).after 22 t) = _
  rw [after0_22]
  unfold out0_22 ln0_b
  rw [View.canon_unit_zero hz3]
  simp only [View.ld_unit_zero (S := S1x512x768) hz3, View.ld_unit_zero (S := S768) hz1, View.ld_unit_zero (S := S768x768) hz2]
  rw [blk22]
  obtain ⟨a0, a1, a2, b0, b1, b2, g2, g3, g4, g5⟩ := idx_facts t
  obtain ⟨⟨w6a, w6b, w7⟩, ⟨w8a, w8b, w9⟩, ⟨w10a, w10b, w11⟩, ⟨w12a, w12b, w13⟩, ⟨w14a, w14b, w15⟩, ⟨w16a, w16b, w17⟩⟩ := idx_facts_w t
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ := idx_facts_o t
  funext j
  have hj0 : (j 0).val < 1 := (j 0).isLt
  have hj1 : (j 1).val < 512 := (j 1).isLt
  have hj2 : (j 2).val < 768 := (j 2).isLt
  show projBlk (iblk0 V c 1 t) (iblk0 V c 4 t) (iblk0 V c 5 t) (iblk0 V c 14 t) (iblk0 V c 15 t)
      ((cfg0.win 22).xinj (grid0.coords t) j)
    = projArr (V c main_arg1) (V c main_arg4) (V c main_arg5) (V c main_v4) (V c main_arg15)
      (((cfg0.win 22).blk t).view.emb j)
  refine projBlk_eq_projArr (iblk0 V c 1 t) (iblk0 V c 4 t) (iblk0 V c 5 t) (iblk0 V c 14 t) (iblk0 V c 15 t)
    (V c main_arg1) (V c main_arg4) (V c main_arg5) (V c main_v4) (V c main_arg15)
    ((cfg0.win 22).xinj (grid0.coords t) j) (((cfg0.win 22).blk t).view.emb j)
    (fun d => ?_) (fun d => ?_) (fun d => ?_) (fun d e => ?_) (fun d => ?_) ?_
  · show V c main_arg1 (((cfg0.win 1).blk t).view.emb (ix3 (0 : Fin 1) ⟨(j 1).val, hj1⟩ d))
      = V c main_arg1 (ix3 ((((cfg0.win 22).blk t).view.emb j) 0) ((((cfg0.win 22).blk t).view.emb j) 1) d)
    refine congrArg (V c main_arg1) (funext fun a => Fin.ext ?_)
    match a with
    | ⟨0, _⟩ => show win0_1.index t (0 : Fin 3) * 1 + 1 * 0 = win0_22.index t (0 : Fin 3) * 1 + 1 * (j 0).val; omega
    | ⟨1, _⟩ => show win0_1.index t (1 : Fin 3) * 512 + 1 * (j 1).val = win0_22.index t (1 : Fin 3) * 512 + 1 * (j 1).val; omega
    | ⟨2, _⟩ => show win0_1.index t (2 : Fin 3) * 768 + 1 * d.val = d.val; omega
  · show V c main_arg4 (((cfg0.win 4).blk t).view.emb (ix1 d)) = V c main_arg4 (ix1 d)
    refine congrArg (V c main_arg4) (funext fun a => Fin.ext ?_)
    match a with
    | ⟨0, _⟩ => show win0_4.index t (0 : Fin 1) * 768 + 1 * d.val = d.val; omega
  · show V c main_arg5 (((cfg0.win 5).blk t).view.emb (ix1 d)) = V c main_arg5 (ix1 d)
    refine congrArg (V c main_arg5) (funext fun a => Fin.ext ?_)
    match a with
    | ⟨0, _⟩ => show win0_5.index t (0 : Fin 1) * 768 + 1 * d.val = d.val; omega
  · show V c main_v4 (((cfg0.win 14).blk t).view.emb (ix2 d e)) = V c main_v4 (ix2 d e)
    refine congrArg (V c main_v4) (funext fun a => Fin.ext ?_)
    match a with
    | ⟨0, _⟩ => show win0_14.index t (0 : Fin 2) * 768 + 1 * d.val = d.val; omega
    | ⟨1, _⟩ => show win0_14.index t (1 : Fin 2) * 768 + 1 * e.val = e.val; omega
  · show V c main_arg15 (((cfg0.win 15).blk t).view.emb (ix1 d)) = V c main_arg15 (ix1 d)
    refine congrArg (V c main_arg15) (funext fun a => Fin.ext ?_)
    match a with
    | ⟨0, _⟩ => show win0_15.index t (0 : Fin 1) * 768 + 1 * d.val = d.val; omega
  · show (j 2).val = win0_22.index t (2 : Fin 3) * 768 + 1 * (j 2).val
    omega

/-- An index of the array is in point `t`'s block iff each coordinate is in the block's range on its axis. -/
theorem mem_blk22 (t : Fin cfg0.N) (i : S8x1024x768.Idx) :
    i ∈ ((cfg0.win 22).blk t).view.set ↔ ∀ a : Fin 3, win0_22.index t a * S1x512x768.size a ≤ (i a).val
      ∧ (i a).val < win0_22.index t a * S1x512x768.size a + S1x512x768.size a := by
  show i ∈ ((View.whole main_v8_4).slice (win0_22.rect t)).set ↔ _
  rw [View.set_slice_whole, Rect.mem_set_unit]
  exact Iff.rfl

/-- Row `n` of batch entry `b` is in the block of point `2 b + n / 512`. -/
theorem cover22 (i : S8x1024x768.Idx) :
    ∃ t : Fin cfg0.N, (cfg0.win 22).flush t = true ∧ i ∈ ((cfg0.win 22).blk t).view.set := by
  have h0 : (i 0).val < 8 := (i 0).isLt
  have h1 : (i 1).val < 1024 := (i 1).isLt
  have h2 : (i 2).val < 768 := (i 2).isLt
  have hN : 2 * (i 0).val + (i 1).val / 512 < cfg0.N := by show _ < 16; omega
  refine ⟨⟨2 * (i 0).val + (i 1).val / 512, hN⟩, flush0_22 _, ?_⟩
  rw [mem_blk22]
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ :=
    idx_facts_o ⟨2 * (i 0).val + (i 1).val / 512, hN⟩
  have o0' : win0_22.index ⟨2 * (i 0).val + (i 1).val / 512, hN⟩ (0 : Fin 3) = (2 * (i 0).val + (i 1).val / 512) / 2 := o22a
  have o1' : win0_22.index ⟨2 * (i 0).val + (i 1).val / 512, hN⟩ (1 : Fin 3) = (2 * (i 0).val + (i 1).val / 512) % 2 := o22b
  intro a
  match a with
  | ⟨0, _⟩ =>
    show win0_22.index _ (0 : Fin 3) * 1 ≤ (i 0).val ∧ (i 0).val < win0_22.index _ (0 : Fin 3) * 1 + 1
    rw [o0']; omega
  | ⟨1, _⟩ =>
    show win0_22.index _ (1 : Fin 3) * 512 ≤ (i 1).val ∧ (i 1).val < win0_22.index _ (1 : Fin 3) * 512 + 512
    rw [o1']; omega
  | ⟨2, _⟩ =>
    show win0_22.index _ (2 : Fin 3) * 768 ≤ (i 2).val ∧ (i 2).val < win0_22.index _ (2 : Fin 3) * 768 + 768
    rw [o22c]; omega

/-- The fifth output array after the region: every row of the second input normalised and projected through the fifth matrix. -/
theorem final0_22 (c : Dev nD) : (dat0 (F := Ideal) V c).arrAt 22 cfg0.N
    = projArr (V c main_arg1) (V c main_arg4) (V c main_arg5) (V c main_v4) (V c main_arg15) :=
  (dat0 (F := Ideal) V c).arrAt_eq_of_cover 22 _ (fun t _ => flushed22_eq V c t) cover22

/-! ## Output window 23: the second input's rows through the sixth matrix -/

/-- What point `t` writes back is its block of the array of projected rows. -/
theorem flushed23_eq (c : Dev nD) (t : Fin cfg0.N) :
    (dat0 (F := Ideal) V c).flushed 23 t = ((cfg0.win 23).blk t).view.read (Elt Ideal)
      (projArr (V c main_arg1) (V c main_arg4) (V c main_arg5) (V c main_v5) (V c main_arg17)) := by
  show (cfg0.win 23).cut (grid0.coords t) ((dat0 (F := Ideal) V c).after 23 t) = _
  rw [after0_23]
  unfold out0_23 ln0_b
  rw [View.canon_unit_zero hz3]
  simp only [View.ld_unit_zero (S := S1x512x768) hz3, View.ld_unit_zero (S := S768) hz1, View.ld_unit_zero (S := S768x768) hz2]
  rw [blk23]
  obtain ⟨a0, a1, a2, b0, b1, b2, g2, g3, g4, g5⟩ := idx_facts t
  obtain ⟨⟨w6a, w6b, w7⟩, ⟨w8a, w8b, w9⟩, ⟨w10a, w10b, w11⟩, ⟨w12a, w12b, w13⟩, ⟨w14a, w14b, w15⟩, ⟨w16a, w16b, w17⟩⟩ := idx_facts_w t
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ := idx_facts_o t
  funext j
  have hj0 : (j 0).val < 1 := (j 0).isLt
  have hj1 : (j 1).val < 512 := (j 1).isLt
  have hj2 : (j 2).val < 768 := (j 2).isLt
  show projBlk (iblk0 V c 1 t) (iblk0 V c 4 t) (iblk0 V c 5 t) (iblk0 V c 16 t) (iblk0 V c 17 t)
      ((cfg0.win 23).xinj (grid0.coords t) j)
    = projArr (V c main_arg1) (V c main_arg4) (V c main_arg5) (V c main_v5) (V c main_arg17)
      (((cfg0.win 23).blk t).view.emb j)
  refine projBlk_eq_projArr (iblk0 V c 1 t) (iblk0 V c 4 t) (iblk0 V c 5 t) (iblk0 V c 16 t) (iblk0 V c 17 t)
    (V c main_arg1) (V c main_arg4) (V c main_arg5) (V c main_v5) (V c main_arg17)
    ((cfg0.win 23).xinj (grid0.coords t) j) (((cfg0.win 23).blk t).view.emb j)
    (fun d => ?_) (fun d => ?_) (fun d => ?_) (fun d e => ?_) (fun d => ?_) ?_
  · show V c main_arg1 (((cfg0.win 1).blk t).view.emb (ix3 (0 : Fin 1) ⟨(j 1).val, hj1⟩ d))
      = V c main_arg1 (ix3 ((((cfg0.win 23).blk t).view.emb j) 0) ((((cfg0.win 23).blk t).view.emb j) 1) d)
    refine congrArg (V c main_arg1) (funext fun a => Fin.ext ?_)
    match a with
    | ⟨0, _⟩ => show win0_1.index t (0 : Fin 3) * 1 + 1 * 0 = win0_23.index t (0 : Fin 3) * 1 + 1 * (j 0).val; omega
    | ⟨1, _⟩ => show win0_1.index t (1 : Fin 3) * 512 + 1 * (j 1).val = win0_23.index t (1 : Fin 3) * 512 + 1 * (j 1).val; omega
    | ⟨2, _⟩ => show win0_1.index t (2 : Fin 3) * 768 + 1 * d.val = d.val; omega
  · show V c main_arg4 (((cfg0.win 4).blk t).view.emb (ix1 d)) = V c main_arg4 (ix1 d)
    refine congrArg (V c main_arg4) (funext fun a => Fin.ext ?_)
    match a with
    | ⟨0, _⟩ => show win0_4.index t (0 : Fin 1) * 768 + 1 * d.val = d.val; omega
  · show V c main_arg5 (((cfg0.win 5).blk t).view.emb (ix1 d)) = V c main_arg5 (ix1 d)
    refine congrArg (V c main_arg5) (funext fun a => Fin.ext ?_)
    match a with
    | ⟨0, _⟩ => show win0_5.index t (0 : Fin 1) * 768 + 1 * d.val = d.val; omega
  · show V c main_v5 (((cfg0.win 16).blk t).view.emb (ix2 d e)) = V c main_v5 (ix2 d e)
    refine congrArg (V c main_v5) (funext fun a => Fin.ext ?_)
    match a with
    | ⟨0, _⟩ => show win0_16.index t (0 : Fin 2) * 768 + 1 * d.val = d.val; omega
    | ⟨1, _⟩ => show win0_16.index t (1 : Fin 2) * 768 + 1 * e.val = e.val; omega
  · show V c main_arg17 (((cfg0.win 17).blk t).view.emb (ix1 d)) = V c main_arg17 (ix1 d)
    refine congrArg (V c main_arg17) (funext fun a => Fin.ext ?_)
    match a with
    | ⟨0, _⟩ => show win0_17.index t (0 : Fin 1) * 768 + 1 * d.val = d.val; omega
  · show (j 2).val = win0_23.index t (2 : Fin 3) * 768 + 1 * (j 2).val
    omega

/-- An index of the array is in point `t`'s block iff each coordinate is in the block's range on its axis. -/
theorem mem_blk23 (t : Fin cfg0.N) (i : S8x1024x768.Idx) :
    i ∈ ((cfg0.win 23).blk t).view.set ↔ ∀ a : Fin 3, win0_23.index t a * S1x512x768.size a ≤ (i a).val
      ∧ (i a).val < win0_23.index t a * S1x512x768.size a + S1x512x768.size a := by
  show i ∈ ((View.whole main_v8_5).slice (win0_23.rect t)).set ↔ _
  rw [View.set_slice_whole, Rect.mem_set_unit]
  exact Iff.rfl

/-- Row `n` of batch entry `b` is in the block of point `2 b + n / 512`. -/
theorem cover23 (i : S8x1024x768.Idx) :
    ∃ t : Fin cfg0.N, (cfg0.win 23).flush t = true ∧ i ∈ ((cfg0.win 23).blk t).view.set := by
  have h0 : (i 0).val < 8 := (i 0).isLt
  have h1 : (i 1).val < 1024 := (i 1).isLt
  have h2 : (i 2).val < 768 := (i 2).isLt
  have hN : 2 * (i 0).val + (i 1).val / 512 < cfg0.N := by show _ < 16; omega
  refine ⟨⟨2 * (i 0).val + (i 1).val / 512, hN⟩, flush0_23 _, ?_⟩
  rw [mem_blk23]
  obtain ⟨⟨o18a, o18b, o18c⟩, ⟨o19a, o19b, o19c⟩, ⟨o20a, o20b, o20c⟩, ⟨o21a, o21b, o21c⟩, ⟨o22a, o22b, o22c⟩, ⟨o23a, o23b, o23c⟩⟩ :=
    idx_facts_o ⟨2 * (i 0).val + (i 1).val / 512, hN⟩
  have o0' : win0_23.index ⟨2 * (i 0).val + (i 1).val / 512, hN⟩ (0 : Fin 3) = (2 * (i 0).val + (i 1).val / 512) / 2 := o23a
  have o1' : win0_23.index ⟨2 * (i 0).val + (i 1).val / 512, hN⟩ (1 : Fin 3) = (2 * (i 0).val + (i 1).val / 512) % 2 := o23b
  intro a
  match a with
  | ⟨0, _⟩ =>
    show win0_23.index _ (0 : Fin 3) * 1 ≤ (i 0).val ∧ (i 0).val < win0_23.index _ (0 : Fin 3) * 1 + 1
    rw [o0']; omega
  | ⟨1, _⟩ =>
    show win0_23.index _ (1 : Fin 3) * 512 ≤ (i 1).val ∧ (i 1).val < win0_23.index _ (1 : Fin 3) * 512 + 512
    rw [o1']; omega
  | ⟨2, _⟩ =>
    show win0_23.index _ (2 : Fin 3) * 768 ≤ (i 2).val ∧ (i 2).val < win0_23.index _ (2 : Fin 3) * 768 + 768
    rw [o23c]; omega

/-- The sixth output array after the region: every row of the second input normalised and projected through the sixth matrix. -/
theorem final0_23 (c : Dev nD) : (dat0 (F := Ideal) V c).arrAt 23 cfg0.N
    = projArr (V c main_arg1) (V c main_arg4) (V c main_arg5) (V c main_v5) (V c main_arg17) :=
  (dat0 (F := Ideal) V c).arrAt_eq_of_cover 23 _ (fun t _ => flushed23_eq V c t) cover23

end Cert.KernelIdeal.Hand.Val0

end
-- ==== Proof.Val0.lean ====
/-
  The value of the kernel's first region, collected: each of the six arrays it leaves is every row of its input array
  normalised over the row and projected through its matrix plus its bias (`Cert.AttnSpec.projArr`) — the first input's
  rows through the first three matrices (`final0_18`, `final0_19`, `final0_20`), the second input's through the last three
  (`final0_21`, `final0_22`, `final0_23`).
-/
import proofs.«176245_j63866163691863_2_alg».proof.Proof.Val0Blk
import proofs.«176245_j63866163691863_2_alg».proof.Proof.Val0Blk2
import proofs.«176245_j63866163691863_2_alg».proof.Proof.Val0Blk3
-- ==== Proof.Region1Val.lean ====
/-
  Region 1: what each case leaves in the accumulator and in the output block, as the body's payloads of the input blocks.
  One step (`step1`) is the accumulator plus the two heads' contribution; case A steps from the zero block, cases B and C
  from what the point before left, and case C stores accumulator + bias.
-/
import proofs.«176245_j63866163691863_2_alg».proof.Proof.Region1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rQ1 : Rect S1x512x128 := Rect.unit (s := S1x512x128) ![0, 0, 0] S1x512x128.size inb_S1x512x128_S1x512x128_0_0_0
abbrev rK1 : Rect S1x1024x128 := Rect.unit (s := S1x1024x128) ![0, 0, 0] S1x1024x128.size inb_S1x1024x128_S1x1024x128_0_0_0
abbrev rS1 : Rect S512x768 := Rect.unit (s := S512x768) ![0, 0] S512x768.size inb_S512x768_S512x768_0_0
abbrev rWa1 : Rect S128x768 := Rect.unit (s := S128x768) ![0, 0] S64x768.size inb_S128x768_S64x768_0_0
abbrev rWb1 : Rect S128x768 := Rect.unit (s := S128x768) ![64, 0] S64x768.size inb_S128x768_S64x768_64_0
abbrev rB1 : Rect S768 := Rect.unit (s := S768) ![0] S768.size inb_S768_S768_0
abbrev rO1 : Rect S1x512x768 := Rect.unit (s := S1x512x768) ![0, 0, 0] S1x512x768.size inb_S1x512x768_S1x512x768_0_0_0

theorem hz2_1 : (![0, 0] : Fin 2 → Nat) = fun _ => 0 := funext fun a => by fin_cases a <;> rfl
theorem hz3_1 : (![0, 0, 0] : Fin 3 → Nat) = fun _ => 0 := funext fun a => by fin_cases a <;> rfl
theorem hz1_1 : (![0] : Fin 1 → Nat) = fun _ => 0 := funext fun a => by fin_cases a <;> rfl

/-- One grid step: the accumulator `a` plus the contribution of the two heads whose columns the blocks hold. -/
def step1 (x0 : Vec F S1x512x128 .bf16) (x1 x2 : Vec F S1x1024x128 .bf16) (x3 : Vec F S128x768 .bf16) (a : Vec F S512x768 .f32) : Vec F S512x768 .f32 :=
  k1_pay1 (k1_pay7 (View.ld x0 rQ1) (View.ld x1 rK1) (View.ld x2 rK1)) (k1_pay8 (View.ld x2 rK1)) (k1_pay9 (View.ld x0 rQ1) (View.ld x1 rK1)) (k1_pay10 (View.ld x0 rQ1) (View.ld x1 rK1)) a (View.ld x3 rWa1) (View.ld x3 rWb1)

theorem sout1_B_eq (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : ¬cond1_1 i) (x0 : Vec F S1x512x128 .bf16) (x1 : Vec F S1x1024x128 .bf16) (x2 : Vec F S1x1024x128 .bf16) (x3 : Vec F S128x768 .bf16) (x4 : Vec F S768 .f32) (xs0 : Vec F S512x768 .f32) :
    sout1_B_0 c i arg3 harg3 arg4 harg4 arg5 harg5 arg6 harg6 arg7 harg7 arg8 harg8 arg9 harg9 hc0 hc1 x0 x1 x2 x3 x4 xs0 = step1 x0 x1 x2 x3 (View.ld xs0 rS1) := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero hz2_1]
  simp only [View.readAt_eq_ld, harg3.read_unread, harg4.read_unread, harg5.read_unread, harg6.read_unread, harg9.read_unread]
  rfl

theorem sout1_C_eq (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i) (x0 : Vec F S1x512x128 .bf16) (x1 : Vec F S1x1024x128 .bf16) (x2 : Vec F S1x1024x128 .bf16) (x3 : Vec F S128x768 .bf16) (x4 : Vec F S768 .f32) (xs0 : Vec F S512x768 .f32) :
    sout1_C_0 c i arg3 harg3 arg4 harg4 arg5 harg5 arg6 harg6 arg7 harg7 arg8 harg8 arg9 harg9 hc0 hc1 x0 x1 x2 x3 x4 xs0 = step1 x0 x1 x2 x3 (View.ld xs0 rS1) := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz2_1]
  simp only [View.readAt_eq_ld, harg3.read_unread, harg4.read_unread, harg5.read_unread, harg6.read_unread, harg9.read_unread]
  rfl

theorem out1_C_eq (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond1_0 i) (hc1 : cond1_1 i) (x0 : Vec F S1x512x128 .bf16) (x1 : Vec F S1x1024x128 .bf16) (x2 : Vec F S1x1024x128 .bf16) (x3 : Vec F S128x768 .bf16) (x4 : Vec F S768 .f32) (xs0 : Vec F S512x768 .f32) :
    out1_C_5 c i arg3 harg3 arg4 harg4 arg5 harg5 arg6 harg6 arg7 harg7 arg8 harg8 arg9 harg9 hc0 hc1 x0 x1 x2 x3 x4 xs0 = k1_pay2 (step1 x0 x1 x2 x3 (View.ld xs0 rS1)) (View.ld x4 rB1) := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz3_1]
  rw [View.readCov_unit_zero _ hz2_1]
  simp only [View.readAt_eq_ld, harg3.read_unread, harg4.read_unread, harg5.read_unread, harg6.read_unread, harg7.read_unread, harg9.read_unread]
  rfl

theorem sout1_A_eq (c : Dev nD) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond1_0 i) (hc1 : ¬cond1_1 i) (x0 : Vec F S1x512x128 .bf16) (x1 : Vec F S1x1024x128 .bf16) (x2 : Vec F S1x1024x128 .bf16) (x3 : Vec F S128x768 .bf16) (x4 : Vec F S768 .f32) :
    sout1_A_0 c i arg3 harg3 arg4 harg4 arg5 harg5 arg6 harg6 arg7 harg7 arg8 harg8 arg9 harg9 hc0 hc1 x0 x1 x2 x3 x4 = step1 x0 x1 x2 x3 (k1_pay3 (F := F)) := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero hz2_1]
  rw [View.readCov_unit_zero _ hz2_1]
  simp only [View.readAt_eq_ld, harg3.read_unread, harg4.read_unread, harg5.read_unread, harg6.read_unread]
  rfl

end Cert.KernelIdeal.Hand

end
-- ==== Proof.AttnHead.lean ====
/-
  One head of attention, and one step of the fused attention + output projection, read index by index over the extended reals.

  A block of 512 query rows meets all 1024 key rows within one head (64 columns): the score of row `r` against key `k` is the
  64-term product sum scaled by 2⁻³; a row's scores become weights by the exponential shifted by the row's maximum (taken from
  -∞) and divided by the row's sum; the head's output at column `j` is the weighted sum of the value rows at that column.
  A step adds, to an accumulator block, two heads' outputs each multiplied through its 64 rows of the output matrix.
  Nothing here needs finiteness: only the definitions of the operations and commutativity-free regrouping.
-/
import proofs.«176245_j63866163691863_2_alg».proof.Proof.Gen.KernelIdeal.Skeleton
import proofs.«176245_j63866163691863_2_alg».proof.Proof.Spec
import Idealize.ShloMosaic.Lib.ValueLayout
import Idealize.ShloMosaic.Lib.Pipeline.Value

set_option maxRecDepth 16384

noncomputable section

namespace Cert.KernelIdeal.Hand.Attn

open Cert.KernelIdeal Cert.KernelIdeal.Gen
open Idealize.ShloMosaic Idealize.ShloMosaic.ValueIdx

variable {F : FTy → Type} [FloatOps F]

/-- The scaled scores of a block of query rows against a block of key rows within one head. -/
def scores (A : FVec F S512x64 .bf16) (B : FVec F S1024x64 .bf16) : FVec F S512x1024 .f32 :=
  mulf (matmul dot_S512x64_S64x1024_S512x1024_1_0_0_1_n_n none A
      (transpose S64x1024 [1, 0] B transposes_S1024x64_p1_0_S64x1024) (constant S512x1024 .f32 0x00000000#32))
    (broadcast S512x1024 (Scalar.ofBits .f32 0x3E000000#32))

/-- Each row's maximum, from -∞, as a column. -/
def rowMaxCol (s : FVec F S512x1024 .f32) : FVec F S512x1 .f32 :=
  shapeCast S512x1 (multiReduction .maximumf [1] S512 s 0xFF800000#32 reduces_S512x1024_S512 (.inl rfl) rfl) shapeCasts_S512_S512x1

/-- The shifted exponentials of the scores. -/
def expShift (s : FVec F S512x1024 .f32) (m : FVec F S512x1 .f32) : FVec F S512x1024 .f32 :=
  exp (subf s (broadcastTo S512x1024 m broadcasts_S512x1_S512x1024))

/-- Each row's sum as a column. -/
def rowSumCol (p : FVec F S512x1024 .f32) : FVec F S512x1 .f32 :=
  shapeCast S512x1 (multiReduction .add [1] S512 p 0x00000000#32 reduces_S512x1024_S512 (.inl rfl) rfl) shapeCasts_S512_S512x1

/-- The weights applied to one head's value columns. -/
def softPV (s : FVec F S512x1024 .f32) (m : FVec F S512x1 .f32) (Vh : FVec F S1024x64 .bf16) : FVec F S512x64 .bf16 :=
  truncf .bf16 (matmul dot_S512x1024_S1024x64_S512x64_1_0_0_1_n_n none
    (truncf .bf16 (divf (expShift s m) (broadcastTo S512x1024 (rowSumCol (expShift s m)) broadcasts_S512x1_S512x1024)) bitsLt_bf16_f32)
    Vh (constant S512x64 .f32 0x00000000#32)) bitsLt_bf16_f32

/-! ## Layout operations at coordinates -/

section Layout
variable {α : Type}

/-- A vector of row values cast to a column reads, at `(r, u)`, the vector at `r`. -/
theorem col_of_vec_apply (x : S512.Idx → α) (r : Fin 512) (u : Fin 1) :
    shapeCast S512x1 x shapeCasts_S512_S512x1 (ix2 r u) = x (ix1 r) :=
  shapeCast_apply x shapeCasts_S512_S512x1 (ix2 r u) (ix1 r) (by
    have hu : u.val = 0 := by omega
    rw [Shape.rowMajor_val_one, Shape.rowMajor_val_two]
    show r.val = r.val * 1 + u.val
    rw [hu, Nat.mul_one, Nat.add_zero])

/-- A column broadcast along the rows reads, at `(r, c)`, the column at `r`. -/
theorem bcast_col_apply (m : S512x1.Idx → α) (r : Fin 512) (c : Fin 1024) :
    broadcastTo S512x1024 m broadcasts_S512x1_S512x1024 (ix2 r c) = m (ix2 r (0 : Fin 1)) := by
  refine broadcastTo_apply m broadcasts_S512x1_S512x1024 (ix2 r c) (ix2 r (0 : Fin 1)) fun ax => ?_
  match ax with
  | ⟨0, _⟩ =>
    show r.val = if (512 : Nat) = 1 then 0 else r.val
    rw [if_neg (by decide)]
  | ⟨1, _⟩ =>
    show (0 : Nat) = if (1 : Nat) = 1 then 0 else c.val
    rw [if_pos rfl]

end Layout

/-! ## The three contractions at coordinates -/

theorem dotQK_lhs0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem dotQK_lhs1 (i : S512x1024.Idx) (q : dot_S512x64_S64x1024_S512x1024_1_0_0_1_n_n.contr.Idx) : (dot_S512x64_S64x1024_S512x1024_1_0_0_1_n_n.lhsIdx i q 1).val = (q ⟨0, by decide⟩).val :=
  dot_S512x64_S64x1024_S512x1024_1_0_0_1_n_n.lhsIdx_val_of_single rfl i q
theorem dotQK_rhs0 (i : S512x1024.Idx) (q : dot_S512x64_S64x1024_S512x1024_1_0_0_1_n_n.contr.Idx) : (dot_S512x64_S64x1024_S512x1024_1_0_0_1_n_n.rhsIdx i q 0).val = (q ⟨0, by decide⟩).val :=
  dot_S512x64_S64x1024_S512x1024_1_0_0_1_n_n.rhsIdx_val_of_single rfl i q
theorem dotQK_rhs1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

theorem dotQK_apply (A : FVec Ideal S512x64 .bf16) (B : FVec Ideal S64x1024 .bf16) (r : Fin 512) (c : Fin 1024) :
    matmul dot_S512x64_S64x1024_S512x1024_1_0_0_1_n_n none A B (constant S512x1024 .f32 0x00000000#32) (ix2 r c)
      = ∑ k : Fin 64, A (ix2 r k) * B (ix2 k c) := by
  refine (Ideal.matmul_constant_zero_apply dot_S512x64_S64x1024_S512x1024_1_0_0_1_n_n none A B (ix2 r c)).trans ?_
  rw [← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun a => Fin.ext (by
    match a with
    | ⟨0, _⟩ => exact dotQK_lhs0 _ _
    | ⟨1, _⟩ => exact (dotQK_lhs1 _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun a => Fin.ext (by
    match a with
    | ⟨0, _⟩ => exact (dotQK_rhs0 _ _).trans hk
    | ⟨1, _⟩ => exact dotQK_rhs1 _ _)
  rw [el, er]

theorem dotPV_lhs0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem dotPV_lhs1 (i : S512x64.Idx) (q : dot_S512x1024_S1024x64_S512x64_1_0_0_1_n_n.contr.Idx) : (dot_S512x1024_S1024x64_S512x64_1_0_0_1_n_n.lhsIdx i q 1).val = (q ⟨0, by decide⟩).val :=
  dot_S512x1024_S1024x64_S512x64_1_0_0_1_n_n.lhsIdx_val_of_single rfl i q
theorem dotPV_rhs0 (i : S512x64.Idx) (q : dot_S512x1024_S1024x64_S512x64_1_0_0_1_n_n.contr.Idx) : (dot_S512x1024_S1024x64_S512x64_1_0_0_1_n_n.rhsIdx i q 0).val = (q ⟨0, by decide⟩).val :=
  dot_S512x1024_S1024x64_S512x64_1_0_0_1_n_n.rhsIdx_val_of_single rfl i q
theorem dotPV_rhs1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

theorem dotPV_apply (A : FVec Ideal S512x1024 .bf16) (B : FVec Ideal S1024x64 .bf16) (r : Fin 512) (c : Fin 64) :
    matmul dot_S512x1024_S1024x64_S512x64_1_0_0_1_n_n none A B (constant S512x64 .f32 0x00000000#32) (ix2 r c)
      = ∑ k : Fin 1024, A (ix2 r k) * B (ix2 k c) := by
  refine (Ideal.matmul_constant_zero_apply dot_S512x1024_S1024x64_S512x64_1_0_0_1_n_n none A B (ix2 r c)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r c) ((contrEquiv1 dot_S512x1024_S1024x64_S512x64_1_0_0_1_n_n 1024 rfl rfl).symm k) = ix2 r k := funext fun a => Fin.ext (by
    match a with
    | ⟨0, _⟩ => exact dotPV_lhs0 _ _
    | ⟨1, _⟩ => exact (dotPV_lhs1 _ _).trans hk)
  have er : dot_S512x1024_S1024x64_S512x64_1_0_0_1_n_n.rhsIdx (ix2 r c) ((contrEquiv1 dot_S512x1024_S1024x64_S512x64_1_0_0_1_n_n 1024 rfl rfl).symm k) = ix2 k c := funext fun a => Fin.ext (by
    match a with
    | ⟨0, _⟩ => exact (dotPV_rhs0 _ _).trans hk
    | ⟨1, _⟩ => exact dotPV_rhs1 _ _)
  rw [el, er]

theorem dotOW_lhs0 (i : S512x768.Idx) (q : dot_S512x64_S64x768_S512x768_1_0_0_1_n_n.contr.Idx) : (dot_S512x64_S64x768_S512x768_1_0_0_1_n_n.lhsIdx i q 0).val = (i 0).val := by
  unfold DotDims.lhsIdx
  rw [dif_neg (show ¬(0 : Fin S512x64.rank) ∈ dot_S512x64_S64x768_S512x768_1_0_0_1_n_n.lhsBatch by decide), dif_pos (show (0 : Fin S512x64.rank) ∈ dot_S512x64_S64x768_S512x768_1_0_0_1_n_n.lhsNonContracting by decide)]
  rfl
theorem dotOW_lhs1 (i : S512x768.Idx) (q : dot_S512x64_S64x768_S512x768_1_0_0_1_n_n.contr.Idx) : (dot_S512x64_S64x768_S512x768_1_0_0_1_n_n.lhsIdx i q 1).val = (q ⟨0, by decide⟩).val :=
  dot_S512x64_S64x768_S512x768_1_0_0_1_n_n.lhsIdx_val_of_single rfl i q
theorem dotOW_rhs0 (i : S512x768.Idx) (q : dot_S512x64_S64x768_S512x768_1_0_0_1_n_n.contr.Idx) : (dot_S512x64_S64x768_S512x768_1_0_0_1_n_n.rhsIdx i q 0).val = (q ⟨0, by decide⟩).val :=
  dot_S512x64_S64x768_S512x768_1_0_0_1_n_n.rhsIdx_val_of_single rfl i q
theorem dotOW_rhs1 (i : S512x768.Idx) (q : dot_S512x64_S64x768_S512x768_1_0_0_1_n_n.contr.Idx) : (dot_S512x64_S64x768_S512x768_1_0_0_1_n_n.rhsIdx i q 1).val = (i 1).val := by
  unfold DotDims.rhsIdx
  rw [dif_neg (show ¬(1 : Fin S64x768.rank) ∈ dot_S512x64_S64x768_S512x768_1_0_0_1_n_n.rhsBatch by decide), dif_pos (show (1 : Fin S64x768.rank) ∈ dot_S512x64_S64x768_S512x768_1_0_0_1_n_n.rhsNonContracting by decide)]
  rfl

theorem dotOW_apply (A : FVec Ideal S512x64 .bf16) (B : FVec Ideal S64x768 .bf16) (r : Fin 512) (c : Fin 768) :
    matmul dot_S512x64_S64x768_S512x768_1_0_0_1_n_n none A B (constant S512x768 .f32 0x00000000#32) (ix2 r c)
      = ∑ k : Fin 64, A (ix2 r k) * B (ix2 k c) := by
  refine (Ideal.matmul_constant_zero_apply dot_S512x64_S64x768_S512x768_1_0_0_1_n_n none A B (ix2 r c)).trans ?_
  rw [← Equiv.sum_comp (contrEquiv1 dot_S512x64_S64x768_S512x768_1_0_0_1_n_n 64 rfl rfl).symm]
  refine Finset.sum_congr rfl fun k _ => ?_
  have hk := contrEquiv1_symm_val dot_S512x64_S64x768_S512x768_1_0_0_1_n_n 64 rfl rfl k
  have el : dot_S512x64_S64x768_S512x768_1_0_0_1_n_n.lhsIdx (ix2 r c) ((contrEquiv1 dot_S512x64_S64x768_S512x768_1_0_0_1_n_n 64 rfl rfl).symm k) = ix2 r k := funext fun a => Fin.ext (by
    match a with
    | ⟨0, _⟩ => exact dotOW_lhs0 _ _
    | ⟨1, _⟩ => exact (dotOW_lhs1 _ _).trans hk)
  have er : dot_S512x64_S64x768_S512x768_1_0_0_1_n_n.rhsIdx (ix2 r c) ((contrEquiv1 dot_S512x64_S64x768_S512x768_1_0_0_1_n_n 64 rfl rfl).symm k) = ix2 k c := funext fun a => Fin.ext (by
    match a with
    | ⟨0, _⟩ => exact (dotOW_rhs0 _ _).trans hk
    | ⟨1, _⟩ => exact dotOW_rhs1 _ _)
  rw [el, er]

/-! ## The pieces of one head at coordinates -/

/-- A score: the 64-term product sum of a query row and a key row, scaled. -/
theorem scores_apply (A : FVec Ideal S512x64 .bf16) (B : FVec Ideal S1024x64 .bf16) (r : Fin 512) (k : Fin 1024) :
    scores A B (ix2 r k) = (∑ d : Fin 64, A (ix2 r d) * B (ix2 k d)) * AttnSpec.sc := by
  unfold scores
  show matmul dot_S512x64_S64x1024_S512x1024_1_0_0_1_n_n none A
      (transpose S64x1024 [1, 0] B transposes_S1024x64_p1_0_S64x1024) (constant S512x1024 .f32 0x00000000#32) (ix2 r k) * AttnSpec.sc = _
  refine congrArg (· * AttnSpec.sc) ?_
  refine (dotQK_apply A _ r k).trans (Finset.sum_congr rfl fun d _ => ?_)
  exact congrArg (A (ix2 r d) * ·) (transpose_ix2_apply B transposes_S1024x64_p1_0_S64x1024 d k)

/-- A row's maximum, from -∞. -/
theorem rowMaxCol_apply (s : FVec Ideal S512x1024 .f32) (r : Fin 512) (u : Fin 1) :
    rowMaxCol s (ix2 r u) = (Finset.univ : Finset (Fin 1024)).fold max AttnSpec.ninf (fun k => s (ix2 r k)) := by
  unfold rowMaxCol
  refine (col_of_vec_apply _ r u).trans ?_
  refine (Ideal.multiReduction_maximumf_single s 0xFF800000#32 reduces_S512x1024_S512 (.inl rfl) rfl (ix1 r)).trans ?_
  show (Finset.univ : Finset (Fin 1024)).fold max AttnSpec.ninf (fun k => s (reduces_S512x1024_S512.lift (ix1 r) k)) = _
  refine congrArg ((Finset.univ : Finset (Fin 1024)).fold max AttnSpec.ninf) (funext fun k => congrArg s ?_)
  exact funext fun a => Fin.ext (by match a with | ⟨0, _⟩ => rfl | ⟨1, _⟩ => rfl)

/-- A shifted exponential. -/
theorem expShift_apply (s : FVec Ideal S512x1024 .f32) (m : FVec Ideal S512x1 .f32) (r : Fin 512) (k : Fin 1024) :
    expShift s m (ix2 r k) = Ideal.exp (s (ix2 r k) - m (ix2 r (0 : Fin 1))) := by
  unfold expShift
  show Ideal.exp (s (ix2 r k) - broadcastTo S512x1024 m broadcasts_S512x1_S512x1024 (ix2 r k)) = _
  rw [bcast_col_apply]

/-- A row's sum. -/
theorem rowSumCol_apply (p : FVec Ideal S512x1024 .f32) (r : Fin 512) (u : Fin 1) :
    rowSumCol p (ix2 r u) = ∑ k : Fin 1024, p (ix2 r k) := by
  unfold rowSumCol
  refine (col_of_vec_apply _ r u).trans ?_
  refine (Ideal.multiReduction_add_single p 0x00000000#32 reduces_S512x1024_S512 (.inl rfl) rfl (ix1 r)).trans ?_
  show ∑ k : Fin 1024, p (reduces_S512x1024_S512.lift (ix1 r) k) = _
  refine Finset.sum_congr rfl fun k _ => congrArg p ?_
  exact funext fun a => Fin.ext (by match a with | ⟨0, _⟩ => rfl | ⟨1, _⟩ => rfl)

/-- The weighted sum of one head's value columns. -/
theorem softPV_apply (s : FVec Ideal S512x1024 .f32) (m : FVec Ideal S512x1 .f32) (Vh : FVec Ideal S1024x64 .bf16) (r : Fin 512) (j : Fin 64) :
    softPV s m Vh (ix2 r j)
      = ∑ k : Fin 1024, Ideal.div (Ideal.exp (s (ix2 r k) - m (ix2 r (0 : Fin 1))))
            (∑ k' : Fin 1024, Ideal.exp (s (ix2 r k') - m (ix2 r (0 : Fin 1)))) * Vh (ix2 k j) := by
  unfold softPV
  refine (dotPV_apply _ Vh r j).trans (Finset.sum_congr rfl fun k _ => ?_)
  refine congrArg (· * Vh (ix2 k j)) ?_
  show Ideal.div (expShift s m (ix2 r k)) (broadcastTo S512x1024 (rowSumCol (expShift s m)) broadcasts_S512x1_S512x1024 (ix2 r k)) = _
  rw [bcast_col_apply, rowSumCol_apply, expShift_apply]
  refine congrArg (Ideal.div _) (Finset.sum_congr rfl fun k' _ => expShift_apply s m r k')

/-! ## One head against the specification -/

/-- One head: when the three blocks are the head's columns of the query, key and value rows, the weighted value sum is the
    attended row at that head's column. -/
theorem head_apply (A : FVec Ideal S512x64 .bf16) (B Vh : FVec Ideal S1024x64 .bf16)
    (q : Fin 512 → Fin 768 → EReal) (K V : Fin 1024 → Fin 768 → EReal) (h : Fin 12)
    (hA : ∀ (r : Fin 512) (d : Fin 64), A (ix2 r d) = q r (AttnSpec.headCol h d))
    (hB : ∀ (k : Fin 1024) (d : Fin 64), B (ix2 k d) = K k (AttnSpec.headCol h d))
    (hV : ∀ (k : Fin 1024) (d : Fin 64), Vh (ix2 k d) = V k (AttnSpec.headCol h d))
    (r : Fin 512) (j : Fin 64) :
    softPV (scores A B) (rowMaxCol (scores A B)) Vh (ix2 r j) = AttnSpec.attnRow (q r) K V (AttnSpec.headCol h j) := by
  have hS : ∀ k : Fin 1024, scores A B (ix2 r k) = AttnSpec.score (q r) (K k) h := fun k => by
    rw [scores_apply]; unfold AttnSpec.score
    refine congrArg (· * AttnSpec.sc) (Finset.sum_congr rfl fun d _ => ?_)
    rw [hA, hB]
  have hM : rowMaxCol (scores A B) (ix2 r (0 : Fin 1))
      = (Finset.univ : Finset (Fin 1024)).fold max AttnSpec.ninf (fun k => AttnSpec.score (q r) (K k) h) := by
    rw [rowMaxCol_apply]; exact congrArg (fun f => (Finset.univ : Finset (Fin 1024)).fold max AttnSpec.ninf f) (funext hS)
  have hh : AttnSpec.headOf (AttnSpec.headCol h j) = h := Fin.ext (by
    show (64 * h.val + j.val) / 64 = h.val
    have := j.isLt; omega)
  rw [softPV_apply, hM]
  unfold AttnSpec.attnRow AttnSpec.softmax
  rw [hh]
  simp only [hS, hV]

/-! ## Blocks read through their casts and slices -/

section Blocks
variable {α : Type}

/-- Columns `o ..` of a [1, 512, 128] block with its unit axis dropped. -/
theorem sliceQ_apply (x : S1x512x128.Idx → α) (o : Nat) (h : S512x128.Slices ![0, o] S512x64)
    (r : Fin 512) (d : Fin 64) (k : Fin 128) (hk : k.val = o + d.val) :
    extractStridedSlice S512x64 ![0, o] (shapeCast S512x128 x shapeCasts_S1x512x128_S512x128) h (ix2 r d) = x (ix3 (0 : Fin 1) r k) :=
  (slice2_axis1_apply o _ h r d k hk).trans (shapeCast_1ab_ab_apply x shapeCasts_S1x512x128_S512x128 r k)

/-- Columns `o ..` of a [1, 1024, 128] block with its unit axis dropped. -/
theorem sliceK_apply (x : S1x1024x128.Idx → α) (o : Nat) (h : S1024x128.Slices ![0, o] S1024x64)
    (r : Fin 1024) (d : Fin 64) (k : Fin 128) (hk : k.val = o + d.val) :
    extractStridedSlice S1024x64 ![0, o] (shapeCast S1024x128 x shapeCasts_S1x1024x128_S1024x128) h (ix2 r d) = x (ix3 (0 : Fin 1) r k) :=
  (slice2_axis1_apply o _ h r d k hk).trans (shapeCast_1ab_ab_apply x shapeCasts_S1x1024x128_S1024x128 r k)

/-- Rows `o ..` of the output matrix's [128, 768] block, loaded as a [64, 768] rectangle. -/
theorem ld_rows_apply {F : FTy → Type} (x : Vec F S128x768 .bf16) (o : Nat)
    (inb : ∀ a, (![o, 0] : Fin 2 → Nat) a + S64x768.size a ≤ S128x768.size a)
    (d : Fin 64) (e : Fin 768) (k : Fin 128) (hk : k.val = o + d.val) :
    View.ld x (Rect.unit (s := S128x768) ![o, 0] S64x768.size inb) (ix2 d e) = x (ix2 k e) := by
  show x _ = x _
  refine congrArg x (funext fun a => Fin.ext ?_)
  match a with
  | ⟨0, _⟩ => show o + 1 * d.val = k.val; omega
  | ⟨1, _⟩ => show 0 + 1 * e.val = e.val; omega

end Blocks

/-! ## One step of the accumulator -/

variable {F : FTy → Type} [FloatOps F] in
/-- The accumulator after a step: the old block plus the two heads' outputs through their rows of the output matrix. -/
def stepAcc (o0 o1 : FVec F S512x64 .bf16) (a : Vec F S512x768 .f32) (w0 w1 : Vec F S64x768 .bf16) : FVec F S512x768 .f32 :=
  shapeCast S512x768
    (addf a (addf
      (matmul dot_S512x64_S64x768_S512x768_1_0_0_1_n_n none o0 (shapeCast S64x768 w0 shapeCasts_S64x768_S64x768) (constant S512x768 .f32 0x00000000#32))
      (matmul dot_S512x64_S64x768_S512x768_1_0_0_1_n_n none o1 (shapeCast S64x768 w1 shapeCasts_S64x768_S64x768) (constant S512x768 .f32 0x00000000#32))))
    shapeCasts_S512x768_S512x768

theorem stepAcc_apply (o0 o1 : FVec Ideal S512x64 .bf16) (a : Vec Ideal S512x768 .f32) (w0 w1 : Vec Ideal S64x768 .bf16)
    (r : Fin 512) (e : Fin 768) :
    stepAcc o0 o1 a w0 w1 (ix2 r e)
      = a (ix2 r e) + ((∑ d : Fin 64, o0 (ix2 r d) * w0 (ix2 d e)) + ∑ d : Fin 64, o1 (ix2 r d) * w1 (ix2 d e)) := by
  unfold stepAcc
  rw [shapeCast_self, shapeCast_self, shapeCast_self]
  show a (ix2 r e) + (matmul dot_S512x64_S64x768_S512x768_1_0_0_1_n_n none o0 w0 (constant S512x768 .f32 0x00000000#32) (ix2 r e)
      + matmul dot_S512x64_S64x768_S512x768_1_0_0_1_n_n none o1 w1 (constant S512x768 .f32 0x00000000#32) (ix2 r e)) = _
  rw [dotOW_apply, dotOW_apply]

/-- A sum over 128 columns is the sum over the first 64 plus the sum over the last 64. -/
theorem sum_split128 (g : Fin 128 → EReal) :
    ∑ d : Fin 128, g d
      = (∑ d : Fin 64, g ⟨d.val, by have := d.isLt; omega⟩) + ∑ d : Fin 64, g ⟨64 + d.val, by have := d.isLt; omega⟩ :=
  Fin.sum_univ_add (a := 64) (b := 64) (g : Fin (64 + 64) → EReal)

/-- Column `d` of head pair `hp`. -/
abbrev col (hp : Fin 6) (d : Fin 128) : Fin 768 := ⟨128 * hp.val + d.val, by have := hp.isLt; have := d.isLt; omega⟩

theorem headCol_even (hp : Fin 6) (d : Fin 64) :
    AttnSpec.headCol ⟨2 * hp.val, by have := hp.isLt; omega⟩ d = col hp ⟨d.val, by have := d.isLt; omega⟩ :=
  Fin.ext (by show 64 * (2 * hp.val) + d.val = 128 * hp.val + d.val; omega)

theorem headCol_odd (hp : Fin 6) (d : Fin 64) :
    AttnSpec.headCol ⟨2 * hp.val + 1, by have := hp.isLt; omega⟩ d = col hp ⟨64 + d.val, by have := d.isLt; omega⟩ :=
  Fin.ext (by show 64 * (2 * hp.val + 1) + d.val = 128 * hp.val + (64 + d.val); omega)

end Cert.KernelIdeal.Hand.Attn

end
-- ==== Proof.Val1Blk.lean ====
/-
  Region 1: each input block is a restriction of its array. With the point's position t = (2·b + nb)·6 + h (batch b, row block nb,
  head pair h), the query block holds rows 512·nb .. of batch b at columns 128·h ..; the key and value blocks hold all 1024 rows of
  batch b at the same columns; the output matrix's block holds its rows 128·h ..; the bias block is the whole bias; the output block
  is rows 512·nb .. of batch b, all columns. A block's coordinate in its array is block index × block size + the coordinate inside.
-/
import proofs.«176245_j63866163691863_2_alg».proof.Proof.Region1Val
import proofs.«176245_j63866163691863_2_alg».proof.Proof.AttnHead
import Idealize.ShloMosaic.Lib.Pipeline.Value

set_option maxRecDepth 16384

noncomputable section

namespace Cert.KernelIdeal.Hand.Val1

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal.Hand.Attn (col)

variable (V : (c : Dev nD) → (b : Ref sig .tc) → Buf (Elt Ideal) ((c : Thread nD τ).loc b))

/-- The printed index maps, decided once over the grid's 96 points. -/
theorem idx_facts1 : ∀ t : Fin cfg1.N,
    win1_0.index t (0 : Fin 3) = t.val / 12 ∧ win1_0.index t (1 : Fin 3) = t.val / 6 % 2 ∧ win1_0.index t (2 : Fin 3) = t.val % 6
    ∧ win1_1.index t (0 : Fin 3) = t.val / 12 ∧ win1_1.index t (1 : Fin 3) = 0 ∧ win1_1.index t (2 : Fin 3) = t.val % 6
    ∧ win1_2.index t (0 : Fin 3) = t.val / 12 ∧ win1_2.index t (1 : Fin 3) = 0 ∧ win1_2.index t (2 : Fin 3) = t.val % 6
    ∧ win1_3.index t (0 : Fin 2) = t.val % 6 ∧ win1_3.index t (1 : Fin 2) = 0
    ∧ win1_4.index t (0 : Fin 1) = 0
    ∧ win1_5.index t (0 : Fin 3) = t.val / 12 ∧ win1_5.index t (1 : Fin 3) = t.val / 6 % 2 ∧ win1_5.index t (2 : Fin 3) = 0 :=
  (by decide +kernel : ∀ t : Fin grid1.N, _)

section Blocks
variable (c : Dev nD) (t : Fin cfg1.N) (b : Fin 8) (nb : Fin 2) (hp : Fin 6)
  (hb : b.val = t.val / 12) (hnb : nb.val = t.val / 6 % 2) (hh : hp.val = t.val % 6)

include hb hnb hh

/-- The query block. -/
theorem blk1_0 (r : Fin 512) (d : Fin 128) :
    (iblk1 V c 0 t : Vec Ideal S1x512x128 .bf16) (ix3 (0 : Fin 1) r d)
      = V c main_v8_0 (ix3 b ⟨512 * nb.val + r.val, by have := nb.isLt; have := r.isLt; omega⟩ (col hp d)) := by
  obtain ⟨e0, e1, e2, -⟩ := idx_facts1 t
  show V c main_v8_0 (((cfg1.win 0).blk t).view.emb (ix3 (0 : Fin 1) r d)) = _
  refine congrArg (V c main_v8_0) (funext fun a => Fin.ext ?_)
  match a with
  | ⟨0, _⟩ => show win1_0.index t (0 : Fin 3) * 1 + 1 * 0 = b.val; omega
  | ⟨1, _⟩ => show win1_0.index t (1 : Fin 3) * 512 + 1 * r.val = 512 * nb.val + r.val; omega
  | ⟨2, _⟩ => show win1_0.index t (2 : Fin 3) * 128 + 1 * d.val = 128 * hp.val + d.val; omega

/-- The key block. -/
theorem blk1_1 (kk : Fin 1024) (d : Fin 128) :
    (iblk1 V c 1 t : Vec Ideal S1x1024x128 .bf16) (ix3 (0 : Fin 1) kk d) = V c main_v8_4 (ix3 b kk (col hp d)) := by
  obtain ⟨-, -, -, e0, e1, e2, -⟩ := idx_facts1 t
  show V c main_v8_4 (((cfg1.win 1).blk t).view.emb (ix3 (0 : Fin 1) kk d)) = _
  refine congrArg (V c main_v8_4) (funext fun a => Fin.ext ?_)
  match a with
  | ⟨0, _⟩ => show win1_1.index t (0 : Fin 3) * 1 + 1 * 0 = b.val; omega
  | ⟨1, _⟩ => show win1_1.index t (1 : Fin 3) * 1024 + 1 * kk.val = kk.val; omega
  | ⟨2, _⟩ => show win1_1.index t (2 : Fin 3) * 128 + 1 * d.val = 128 * hp.val + d.val; omega

/-- The value block. -/
theorem blk1_2 (kk : Fin 1024) (d : Fin 128) :
    (iblk1 V c 2 t : Vec Ideal S1x1024x128 .bf16) (ix3 (0 : Fin 1) kk d) = V c main_v8_5 (ix3 b kk (col hp d)) := by
  obtain ⟨-, -, -, -, -, -, e0, e1, e2, -⟩ := idx_facts1 t
  show V c main_v8_5 (((cfg1.win 2).blk t).view.emb (ix3 (0 : Fin 1) kk d)) = _
  refine congrArg (V c main_v8_5) (funext fun a => Fin.ext ?_)
  match a with
  | ⟨0, _⟩ => show win1_2.index t (0 : Fin 3) * 1 + 1 * 0 = b.val; omega
  | ⟨1, _⟩ => show win1_2.index t (1 : Fin 3) * 1024 + 1 * kk.val = kk.val; omega
  | ⟨2, _⟩ => show win1_2.index t (2 : Fin 3) * 128 + 1 * d.val = 128 * hp.val + d.val; omega

/-- The output matrix's block. -/
theorem blk1_3 (d : Fin 128) (e : Fin 768) :
    (iblk1 V c 3 t : Vec Ideal S128x768 .bf16) (ix2 d e) = V c main_v6 (ix2 (col hp d) e) := by
  obtain ⟨-, -, -, -, -, -, -, -, -, e0, e1, -⟩ := idx_facts1 t
  show V c main_v6 (((cfg1.win 3).blk t).view.emb (ix2 d e)) = _
  refine congrArg (V c main_v6) (funext fun a => Fin.ext ?_)
  match a with
  | ⟨0, _⟩ => show win1_3.index t (0 : Fin 2) * 128 + 1 * d.val = 128 * hp.val + d.val; omega
  | ⟨1, _⟩ => show win1_3.index t (1 : Fin 2) * 768 + 1 * e.val = e.val; omega

/-- The bias block. -/
theorem blk1_4 (e : Fin 768) :
    (iblk1 V c 4 t : Vec Ideal S768 .f32) (ix1 e) = V c main_arg19 (ix1 e) := by
  obtain ⟨-, -, -, -, -, -, -, -, -, -, -, e0, -⟩ := idx_facts1 t
  show V c main_arg19 (((cfg1.win 4).blk t).view.emb (ix1 e)) = _
  refine congrArg (V c main_arg19) (funext fun a => Fin.ext ?_)
  match a with
  | ⟨0, _⟩ => show win1_4.index t (0 : Fin 1) * 768 + 1 * e.val = e.val; omega

/-- Where an element of the output block sits in the output array. -/
theorem emb1_5 (u : Fin 1) (r : Fin 512) (e : Fin 768) :
    ((cfg1.win 5).blk t).view.emb (ix3 u r e)
      = (ix3 b ⟨512 * nb.val + r.val, by have := nb.isLt; have := r.isLt; omega⟩ e : S8x1024x768.Idx) := by
  obtain ⟨-, -, -, -, -, -, -, -, -, -, -, -, e0, e1, e2⟩ := idx_facts1 t
  refine funext fun a => Fin.ext ?_
  have hu : u.val = 0 := by omega
  match a with
  | ⟨0, _⟩ => show win1_5.index t (0 : Fin 3) * 1 + 1 * u.val = b.val; omega
  | ⟨1, _⟩ => show win1_5.index t (1 : Fin 3) * 512 + 1 * r.val = 512 * nb.val + r.val; omega
  | ⟨2, _⟩ => show win1_5.index t (2 : Fin 3) * 768 + 1 * e.val = e.val; omega

end Blocks

end Cert.KernelIdeal.Hand.Val1

end
-- ==== Proof.AttnStep1.lean ====
/-
  One grid step of the fused attention + output-projection kernel (region 1), index by index: when the loaded blocks are the
  columns 128·hp .. 128·hp+127 of the query rows, of the key and value rows, and the same rows of the output matrix, the step
  adds to the accumulator block, at (r, e), the sum over those 128 columns d of (attended row r at column d) · (output
  matrix at (d, e)). Columns 0..63 of the blocks are head 2·hp, columns 64..127 head 2·hp+1; the two 64-term sums join into one
  128-term sum. The stored block is the accumulator plus the bias row.
-/
import proofs.«176245_j63866163691863_2_alg».proof.Proof.AttnHead

set_option maxRecDepth 16384

noncomputable section

namespace Cert.KernelIdeal.Hand.Attn

open Cert.KernelIdeal Cert.KernelIdeal.Gen
open Idealize.ShloMosaic Idealize.ShloMosaic.ValueIdx

section Generic
variable {F : FTy → Type} [FloatOps F]

/-- Head 0 of the pair is the generic head on the blocks' columns 0..63. -/
theorem k1_pay7_eq (v3 : Vec F S1x512x128 .bf16) (v5 v7 : Vec F S1x1024x128 .bf16) :
    k1_pay7 v3 v5 v7 =
      softPV (scores (extractStridedSlice S512x64 ![0, 0] (k1_pay4 v3) slices_S512x128_o0_0_S512x64)
                (extractStridedSlice S1024x64 ![0, 0] (k1_pay5 v5) slices_S1024x128_o0_0_S1024x64))
        (rowMaxCol (scores (extractStridedSlice S512x64 ![0, 0] (k1_pay4 v3) slices_S512x128_o0_0_S512x64)
                (extractStridedSlice S1024x64 ![0, 0] (k1_pay5 v5) slices_S1024x128_o0_0_S1024x64)))
        (extractStridedSlice S1024x64 ![0, 0] (k1_pay6 v7) slices_S1024x128_o0_0_S1024x64) := rfl

/-- Head 1's scores are the generic scores on the blocks' columns 64..127. -/
theorem k1_pay9_eq (v3 : Vec F S1x512x128 .bf16) (v5 : Vec F S1x1024x128 .bf16) :
    k1_pay9 v3 v5 =
      scores (extractStridedSlice S512x64 ![0, 64] (k1_pay4 v3) slices_S512x128_o0_64_S512x64)
                (extractStridedSlice S1024x64 ![0, 64] (k1_pay5 v5) slices_S1024x128_o0_64_S1024x64) := rfl

theorem k1_pay10_eq (v3 : Vec F S1x512x128 .bf16) (v5 : Vec F S1x1024x128 .bf16) :
    k1_pay10 v3 v5 = rowMaxCol (k1_pay9 v3 v5) := rfl

/-- The new accumulator is the generic step on head 0's output and head 1's weighted value sum. -/
theorem k1_pay1_eq (v27 : FVec F S512x64 .bf16) (v30 : FVec F S1024x64 .bf16) (v34 : FVec F S512x1024 .f32)
    (v36 : FVec F S512x1 .f32) (v47 : Vec F S512x768 .f32) (v48 v51 : Vec F S64x768 .bf16) :
    k1_pay1 v27 v30 v34 v36 v47 v48 v51 = stepAcc v27 (softPV v34 v36 v30) v47 v48 v51 := rfl

end Generic

section AtIdeal
variable (x0 : Vec Ideal S1x512x128 .bf16) (x1 x2 : Vec Ideal S1x1024x128 .bf16)
  (q : Fin 512 → Fin 768 → EReal) (K V : Fin 1024 → Fin 768 → EReal) (hp : Fin 6)
  (hq : ∀ (r : Fin 512) (d : Fin 128), x0 (ix3 (0 : Fin 1) r d) = q r (col hp d))
  (hk : ∀ (k : Fin 1024) (d : Fin 128), x1 (ix3 (0 : Fin 1) k d) = K k (col hp d))
  (hv : ∀ (k : Fin 1024) (d : Fin 128), x2 (ix3 (0 : Fin 1) k d) = V k (col hp d))

include hq hk hv

/-- Head 0 of the pair: the attended row at the pair's columns 0..63. -/
theorem k1_head0 (r : Fin 512) (j : Fin 64) :
    k1_pay7 x0 x1 x2 (ix2 r j) = AttnSpec.attnRow (q r) K V (col hp ⟨j.val, by have := j.isLt; omega⟩) := by
  rw [k1_pay7_eq]
  refine (head_apply _ _ _ q K V ⟨2 * hp.val, by have := hp.isLt; omega⟩ (fun r d => ?_) (fun k d => ?_) (fun k d => ?_) r j).trans ?_
  · exact (sliceQ_apply x0 0 slices_S512x128_o0_0_S512x64 r d ⟨d.val, by have := d.isLt; omega⟩ (Nat.zero_add _).symm).trans
      ((hq r _).trans (congrArg (q r) (headCol_even hp d).symm))
  · exact (sliceK_apply x1 0 slices_S1024x128_o0_0_S1024x64 k d ⟨d.val, by have := d.isLt; omega⟩ (Nat.zero_add _).symm).trans
      ((hk k _).trans (congrArg (K k) (headCol_even hp d).symm))
  · exact (sliceK_apply x2 0 slices_S1024x128_o0_0_S1024x64 k d ⟨d.val, by have := d.isLt; omega⟩ (Nat.zero_add _).symm).trans
      ((hv k _).trans (congrArg (V k) (headCol_even hp d).symm))
  · exact congrArg (AttnSpec.attnRow (q r) K V) (headCol_even hp j)

/-- Head 1 of the pair: the attended row at the pair's columns 64..127. -/
theorem k1_head1 (r : Fin 512) (j : Fin 64) :
    softPV (k1_pay9 x0 x1) (k1_pay10 x0 x1) (k1_pay8 x2) (ix2 r j)
      = AttnSpec.attnRow (q r) K V (col hp ⟨64 + j.val, by have := j.isLt; omega⟩) := by
  rw [k1_pay10_eq, k1_pay9_eq]
  refine (head_apply _ _ _ q K V ⟨2 * hp.val + 1, by have := hp.isLt; omega⟩ (fun r d => ?_) (fun k d => ?_) (fun k d => ?_) r j).trans ?_
  · exact (sliceQ_apply x0 64 slices_S512x128_o0_64_S512x64 r d ⟨64 + d.val, by have := d.isLt; omega⟩ rfl).trans
      ((hq r _).trans (congrArg (q r) (headCol_odd hp d).symm))
  · exact (sliceK_apply x1 64 slices_S1024x128_o0_64_S1024x64 k d ⟨64 + d.val, by have := d.isLt; omega⟩ rfl).trans
      ((hk k _).trans (congrArg (K k) (headCol_odd hp d).symm))
  · exact (sliceK_apply x2 64 slices_S1024x128_o0_64_S1024x64 k d ⟨64 + d.val, by have := d.isLt; omega⟩ rfl).trans
      ((hv k _).trans (congrArg (V k) (headCol_odd hp d).symm))
  · exact congrArg (AttnSpec.attnRow (q r) K V) (headCol_odd hp j)

/-- The step: the accumulator gains the 128-column sum of the attended row through the output matrix. -/
theorem k1_step (x3 : Vec Ideal S128x768 .bf16) (a : Vec Ideal S512x768 .f32) (wo : Fin 768 → Fin 768 → EReal)
    (hw : ∀ (d : Fin 128) (e : Fin 768), x3 (ix2 d e) = wo (col hp d) e) (r : Fin 512) (e : Fin 768) :
    k1_pay1
        (k1_pay7 (View.ld x0 (Rect.unit (s := S1x512x128) ![0, 0, 0] S1x512x128.size inb_S1x512x128_S1x512x128_0_0_0))
          (View.ld x1 (Rect.unit (s := S1x1024x128) ![0, 0, 0] S1x1024x128.size inb_S1x1024x128_S1x1024x128_0_0_0))
          (View.ld x2 (Rect.unit (s := S1x1024x128) ![0, 0, 0] S1x1024x128.size inb_S1x1024x128_S1x1024x128_0_0_0)))
        (k1_pay8 (View.ld x2 (Rect.unit (s := S1x1024x128) ![0, 0, 0] S1x1024x128.size inb_S1x1024x128_S1x1024x128_0_0_0)))
        (k1_pay9 (View.ld x0 (Rect.unit (s := S1x512x128) ![0, 0, 0] S1x512x128.size inb_S1x512x128_S1x512x128_0_0_0))
          (View.ld x1 (Rect.unit (s := S1x1024x128) ![0, 0, 0] S1x1024x128.size inb_S1x1024x128_S1x1024x128_0_0_0)))
        (k1_pay10 (View.ld x0 (Rect.unit (s := S1x512x128) ![0, 0, 0] S1x512x128.size inb_S1x512x128_S1x512x128_0_0_0))
          (View.ld x1 (Rect.unit (s := S1x1024x128) ![0, 0, 0] S1x1024x128.size inb_S1x1024x128_S1x1024x128_0_0_0)))
        a
        (View.ld x3 (Rect.unit (s := S128x768) ![0, 0] S64x768.size inb_S128x768_S64x768_0_0))
        (View.ld x3 (Rect.unit (s := S128x768) ![64, 0] S64x768.size inb_S128x768_S64x768_64_0))
        (ix2 r e)
      = a (ix2 r e) + ∑ d : Fin 128, AttnSpec.attnRow (q r) K V (col hp d) * wo (col hp d) e := by
  have hz : (![0, 0, 0] : Fin 3 → Nat) = fun _ => 0 :=
    funext fun a => match a with | ⟨0, _⟩ => rfl | ⟨1, _⟩ => rfl | ⟨2, _⟩ => rfl
  rw [View.ld_unit_zero (S := S1x512x128) hz inb_S1x512x128_S1x512x128_0_0_0 x0,
    View.ld_unit_zero (S := S1x1024x128) hz inb_S1x1024x128_S1x1024x128_0_0_0 x1,
    View.ld_unit_zero (S := S1x1024x128) hz inb_S1x1024x128_S1x1024x128_0_0_0 x2,
    k1_pay1_eq]
  refine (stepAcc_apply _ _ a _ _ r e).trans (congrArg (a (ix2 r e) + ·) ?_)
  rw [sum_split128]
  refine congrArg₂ (· + ·) (Finset.sum_congr rfl fun d _ => ?_) (Finset.sum_congr rfl fun d _ => ?_)
  · rw [k1_head0 x0 x1 x2 q K V hp hq hk hv r d,
      ld_rows_apply x3 0 inb_S128x768_S64x768_0_0 d e ⟨d.val, by have := d.isLt; omega⟩ (Nat.zero_add _).symm, hw]
  · rw [k1_head1 x0 x1 x2 q K V hp hq hk hv r d,
      ld_rows_apply x3 64 inb_S128x768_S64x768_64_0 d e ⟨64 + d.val, by have := d.isLt; omega⟩ rfl, hw]

end AtIdeal

/-! ## The zero block and the stored block -/

/-- The block the accumulator starts from is zero everywhere. -/
theorem k1_pay3_apply (j : S512x768.Idx) : k1_pay3 (F := Ideal) j = 0 := by
  unfold k1_pay3
  rw [shapeCast_self]
  exact Ideal.ofBits_zero_f32

/-- The stored block is the accumulator plus the bias row. -/
theorem k1_pay2_apply (a : Vec Ideal S512x768 .f32) (b : Vec Ideal S768 .f32) (u : Fin 1) (r : Fin 512) (e : Fin 768) :
    k1_pay2 a b (ix3 u r e) = a (ix2 r e) + b (ix1 e) := by
  unfold k1_pay2
  refine (shapeCast_ab_1ab_apply _ shapeCasts_S512x768_S1x512x768 u r e).trans ?_
  show a (ix2 r e) + broadcastTo S512x768 (shapeCast S1x768 b shapeCasts_S768_S1x768) broadcasts_S1x768_S512x768 (ix2 r e) = _
  rw [broadcastTo_1b_ab_apply, shapeCast_a_1a_apply]

end Cert.KernelIdeal.Hand.Attn

end
-- ==== Proof.AttnSum.lean ====
/-
  Six steps from zero: the 768 columns are six consecutive runs of 128, so an accumulator that starts at zero and gains, at step
  h, the sum over the h-th run of a function of the column, ends at the sum over all 768 columns. Only associativity of addition
  on the extended reals and a re-indexing of a finite sum are used.
-/
import proofs.«176245_j63866163691863_2_alg».proof.Proof.AttnHead

set_option maxRecDepth 16384

noncomputable section

namespace Cert.KernelIdeal.Hand.Attn

open Idealize.ShloMosaic Idealize.ShloMosaic.ValueIdx

/-- A sum over the 768 columns, run by run. -/
theorem sum_blocks (g : Fin 768 → EReal) :
    ∑ d : Fin 768, g d = ∑ h : Fin 6, ∑ d : Fin 128, g (col h d) := by
  refine ((Equiv.sum_comp (finProdFinEquiv (m := 6) (n := 128)) (g : Fin (6 * 128) → EReal)).symm).trans ?_
  rw [Fintype.sum_prod_type]
  refine Finset.sum_congr rfl fun h _ => Finset.sum_congr rfl fun d _ => congrArg g (Fin.ext ?_)
  show d.val + 128 * h.val = 128 * h.val + d.val
  omega

/-- Six steps from zero reach the whole sum. -/
theorem six_steps (f : Fin 768 → Fin 768 → EReal) (acc : Fin 7 → Fin 768 → EReal) (h0 : ∀ e, acc 0 e = 0)
    (hs : ∀ (h : Fin 6) (e : Fin 768), acc h.succ e = acc h.castSucc e + ∑ d : Fin 128, f (col h d) e) (e : Fin 768) :
    acc 6 e = ∑ d : Fin 768, f d e := by
  have e1 : acc 1 e = acc 0 e + ∑ d : Fin 128, f (col 0 d) e := hs 0 e
  have e2 : acc 2 e = acc 1 e + ∑ d : Fin 128, f (col 1 d) e := hs 1 e
  have e3 : acc 3 e = acc 2 e + ∑ d : Fin 128, f (col 2 d) e := hs 2 e
  have e4 : acc 4 e = acc 3 e + ∑ d : Fin 128, f (col 3 d) e := hs 3 e
  have e5 : acc 5 e = acc 4 e + ∑ d : Fin 128, f (col 4 d) e := hs 4 e
  have e6 : acc 6 e = acc 5 e + ∑ d : Fin 128, f (col 5 d) e := hs 5 e
  rw [sum_blocks (fun d => f d e), Fin.sum_univ_six, e6, e5, e4, e3, e2, e1, h0, zero_add]

/-- The same over a step count: the accumulator after `n` steps, for `n ≤ 6` given as a natural number. -/
theorem six_steps_nat (f : Fin 768 → Fin 768 → EReal) (acc : ℕ → Fin 768 → EReal) (h0 : ∀ e, acc 0 e = 0)
    (hs : ∀ (h : Fin 6) (e : Fin 768), acc (h.val + 1) e = acc h.val e + ∑ d : Fin 128, f (col h d) e) (e : Fin 768) :
    acc 6 e = ∑ d : Fin 768, f d e :=
  six_steps f (fun h => acc h.val) h0 (fun h e => hs h e) e

/-- With the bias: six steps from zero plus the bias row are the attended row projected through the output matrix. -/
theorem six_steps_attnOut (q : Fin 768 → EReal) (K V : Fin 1024 → Fin 768 → EReal) (wo : Fin 768 → Fin 768 → EReal)
    (bo : Fin 768 → EReal) (acc : Fin 7 → Fin 768 → EReal) (h0 : ∀ e, acc 0 e = 0)
    (hs : ∀ (h : Fin 6) (e : Fin 768),
      acc h.succ e = acc h.castSucc e + ∑ d : Fin 128, AttnSpec.attnRow q K V (col h d) * wo (col h d) e) (e : Fin 768) :
    acc 6 e + bo e = AttnSpec.attnOut q K V wo bo e := by
  unfold AttnSpec.attnOut AttnSpec.proj
  exact congrArg (· + bo e) (six_steps (fun d e => AttnSpec.attnRow q K V d * wo d e) acc h0 hs e)

end Cert.KernelIdeal.Hand.Attn

end
-- ==== Proof.Val1Acc.lean ====
/-
  Region 1: what the accumulator holds after each point. At a point whose head pair is h, for batch b and query row n, a step adds
  to the accumulator at (r, e) the sum over the pair's 128 columns d of (attended row at column d) · (output matrix at (d, e));
  at h = 0 it starts from zero, otherwise from what the point before left; at h = 5 the stored block is the accumulator plus the bias.
-/
import proofs.«176245_j63866163691863_2_alg».proof.Proof.Val1Blk
import proofs.«176245_j63866163691863_2_alg».proof.Proof.AttnStep1
import proofs.«176245_j63866163691863_2_alg».proof.Proof.AttnSum
import Idealize.ShloMosaic.Lib.Pipeline.Value

set_option maxRecDepth 16384

noncomputable section

namespace Cert.KernelIdeal.Hand.Val1

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal.Hand.Attn (col)

variable (V : (c : Dev nD) → (b : Ref sig .tc) → Buf (Elt Ideal) ((c : Thread nD τ).loc b))

/-- What the step at head pair `h` adds, for batch `b` and query row `n`, at output column `e`. -/
def term1 (c : Dev nD) (b : Fin 8) (n : Fin 1024) (h : Fin 6) (e : Fin 768) : EReal :=
  ∑ d : Fin 128, AttnSpec.attnRow (AttnSpec.v3 (V c main_v8_0) b n) (AttnSpec.v3 (V c main_v8_4) b) (AttnSpec.v3 (V c main_v8_5) b) (col h d)
      * AttnSpec.v2 (V c main_v6) (col h d) e

section Point
variable (c : Dev nD) (t : Fin cfg1.N) (b : Fin 8) (nb : Fin 2) (hp : Fin 6)
  (hb : b.val = t.val / 12) (hnb : nb.val = t.val / 6 % 2) (hh : hp.val = t.val % 6)

include hb hnb hh

/-- One step on the point's blocks, from any accumulator. -/
theorem step1_apply (a : Vec Ideal S512x768 .f32) (r : Fin 512) (e : Fin 768) :
    step1 (iblk1 V c 0 t) (iblk1 V c 1 t) (iblk1 V c 2 t) (iblk1 V c 3 t) a (ix2 r e)
      = a (ix2 r e) + term1 V c b ⟨512 * nb.val + r.val, by have := nb.isLt; have := r.isLt; omega⟩ hp e := by
  unfold step1 term1
  exact Attn.k1_step (iblk1 V c 0 t) (iblk1 V c 1 t) (iblk1 V c 2 t)
    (fun r => AttnSpec.v3 (V c main_v8_0) b ⟨512 * nb.val + r.val, by have := nb.isLt; have := r.isLt; omega⟩)
    (AttnSpec.v3 (V c main_v8_4) b) (AttnSpec.v3 (V c main_v8_5) b) hp
    (fun r d => blk1_0 V c t b nb hp hb hnb hh r d) (fun kk d => blk1_1 V c t b nb hp hb hnb hh kk d)
    (fun kk d => blk1_2 V c t b nb hp hb hnb hh kk d) (iblk1 V c 3 t) a (AttnSpec.v2 (V c main_v6))
    (fun d e => blk1_3 V c t b nb hp hb hnb hh d e) r e

/-- At the first point of a group the accumulator is the step from zero. -/
theorem acc1_first (h0 : t.val % 6 = 0) (r : Fin 512) (e : Fin 768) :
    (outsAt1 V c t.val t.isLt).2 (ix2 r e) = term1 V c b ⟨512 * nb.val + r.val, by have := nb.isLt; have := r.isLt; omega⟩ hp e := by
  have h1 : ¬t.val % 6 = 5 := by omega
  have E1 := congrArg Prod.snd (outsAt1_A V c t h0 h1)
  have E2 := sout1_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
  dsimp only at E1
  refine (congrFun (E1.trans E2) (ix2 r e)).trans ?_
  refine (step1_apply V c t b nb hp hb hnb hh (k1_pay3 (F := Ideal)) r e).trans ?_
  exact (congrArg (· + term1 V c b ⟨512 * nb.val + r.val, by have := nb.isLt; have := r.isLt; omega⟩ hp e) (Attn.k1_pay3_apply (ix2 r e))).trans (zero_add _)

/-- At a later point of a group the accumulator is the step from what the point before left. -/
theorem acc1_next (h0 : ¬t.val % 6 = 0) (r : Fin 512) (e : Fin 768) :
    (outsAt1 V c t.val t.isLt).2 (ix2 r e)
      = (outsAt1 V c (t.val - 1) (Nat.lt_of_le_of_lt (Nat.sub_le _ _) t.isLt)).2 (ix2 r e) + term1 V c b ⟨512 * nb.val + r.val, by have := nb.isLt; have := r.isLt; omega⟩ hp e := by
  have hld : View.ld (outsAt1 V c (t.val - 1) (Nat.lt_of_le_of_lt (Nat.sub_le _ _) t.isLt)).2 rS1 = (outsAt1 V c (t.val - 1) (Nat.lt_of_le_of_lt (Nat.sub_le _ _) t.isLt)).2 :=
    View.ld_unit_zero (S := S512x768) hz2_1 inb_S512x768_S512x768_0_0 _
  by_cases h1 : t.val % 6 = 5
  · have E1 := congrArg Prod.snd (outsAt1_C V c t h0 h1)
    have E2 := sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
    dsimp only at E1
    refine (congrFun (E1.trans E2) (ix2 r e)).trans ?_
    refine (step1_apply V c t b nb hp hb hnb hh (View.ld (outsAt1 V c (t.val - 1) (Nat.lt_of_le_of_lt (Nat.sub_le _ _) t.isLt)).2 rS1) r e).trans ?_
    exact congrArg (· + term1 V c b ⟨512 * nb.val + r.val, by have := nb.isLt; have := r.isLt; omega⟩ hp e) (congrFun hld (ix2 r e))
  · have E1 := congrArg Prod.snd (outsAt1_B V c t h0 h1)
    have E2 := sout1_B_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2
    dsimp only at E1
    refine (congrFun (E1.trans E2) (ix2 r e)).trans ?_
    refine (step1_apply V c t b nb hp hb hnb hh (View.ld (outsAt1 V c (t.val - 1) (Nat.lt_of_le_of_lt (Nat.sub_le _ _) t.isLt)).2 rS1) r e).trans ?_
    exact congrArg (· + term1 V c b ⟨512 * nb.val + r.val, by have := nb.isLt; have := r.isLt; omega⟩ hp e) (congrFun hld (ix2 r e))

end Point

/-- At the last point of a group the stored block is the accumulator plus the bias row. -/
theorem out1_last (c : Dev nD) (t : Fin cfg1.N) (h1 : t.val % 6 = 5) (u : Fin 1) (r : Fin 512) (e : Fin 768) :
    (outsAt1 V c t.val t.isLt).1 (ix3 u r e) = (outsAt1 V c t.val t.isLt).2 (ix2 r e) + V c main_arg19 (ix1 e) := by
  have hN : cfg1.N = 96 := N_1
  have ht : t.val < 96 := by have := t.isLt; omega
  have h0 : ¬t.val % 6 = 0 := by omega
  have E := outsAt1_C V c t h0 h1
  have E1 := congrArg Prod.fst E
  have E2 := congrArg Prod.snd E
  dsimp only at E1 E2
  have e1 := E1.trans
    (out1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2)
  have e2 := E2.trans
    (sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2)
  refine (congrFun e1 (ix3 u r e)).trans ?_
  refine (Attn.k1_pay2_apply _ _ u r e).trans ?_
  refine congrArg₂ (· + ·) (congrFun e2.symm (ix2 r e)) ?_
  have hld : View.ld (iblk1 V c 4 t : Vec Ideal S768 .f32) rB1 = iblk1 V c 4 t :=
    View.ld_unit_zero (S := S768) hz1_1 inb_S768_S768_0 _
  refine (congrFun hld (ix1 e)).trans ?_
  exact blk1_4 V c t ⟨t.val / 12, by omega⟩ ⟨t.val / 6 % 2, by omega⟩ ⟨t.val % 6, by omega⟩ rfl rfl rfl e

/-- The accumulator after position `n`, as a total function of the position. -/
def accAt1 (c : Dev nD) (n : ℕ) : Vec Ideal S512x768 .f32 :=
  if hn : n < cfg1.N then (outsAt1 V c n hn).2 else fun _ => 0

theorem accAt1_eq (c : Dev nD) (t : Fin cfg1.N) : accAt1 V c t.val = (outsAt1 V c t.val t.isLt).2 := dif_pos t.isLt

theorem N1_eq : cfg1.N = 96 := N_1

section Group
variable (c : Dev nD) (b : Fin 8) (nb : Fin 2) (r : Fin 512)

/-- The first point of a group, by its position. -/
theorem accAt1_first (n : ℕ) (hn : n < 96) (h0 : n % 6 = 0) (hp : Fin 6) (hb : b.val = n / 12) (hnb : nb.val = n / 6 % 2)
    (hh : hp.val = n % 6) (e : Fin 768) :
    accAt1 V c n (ix2 r e) = term1 V c b ⟨512 * nb.val + r.val, by have := nb.isLt; have := r.isLt; omega⟩ hp e := by
  have hN := N1_eq
  have ht : n < cfg1.N := by omega
  exact (congrFun (accAt1_eq V c ⟨n, ht⟩) (ix2 r e)).trans (acc1_first V c ⟨n, ht⟩ b nb hp hb hnb hh h0 r e)

/-- A later point of a group, by its position. -/
theorem accAt1_next (n : ℕ) (hn : n < 96) (h0 : ¬n % 6 = 0) (hp : Fin 6) (hb : b.val = n / 12) (hnb : nb.val = n / 6 % 2)
    (hh : hp.val = n % 6) (e : Fin 768) :
    accAt1 V c n (ix2 r e)
      = accAt1 V c (n - 1) (ix2 r e) + term1 V c b ⟨512 * nb.val + r.val, by have := nb.isLt; have := r.isLt; omega⟩ hp e := by
  have hN := N1_eq
  have ht : n < cfg1.N := by omega
  have ht' : n - 1 < cfg1.N := by omega
  refine (congrFun (accAt1_eq V c ⟨n, ht⟩) (ix2 r e)).trans ((acc1_next V c ⟨n, ht⟩ b nb hp hb hnb hh h0 r e).trans ?_)
  exact congrArg (· + _) (congrFun (accAt1_eq V c ⟨n - 1, ht'⟩).symm (ix2 r e))

/-- After the group's six points, accumulator plus bias is attention followed by the output projection. -/
theorem group1 (t : Fin cfg1.N) (h5 : t.val % 6 = 5) (hb : b.val = t.val / 12) (hnb : nb.val = t.val / 6 % 2) (e : Fin 768) :
    (outsAt1 V c t.val t.isLt).2 (ix2 r e) + V c main_arg19 (ix1 e)
      = (AttnSpec.attnArr (V c main_v8_0) (V c main_v8_4) (V c main_v8_5) (V c main_v6) (V c main_arg19)) (ix3 b ⟨512 * nb.val + r.val, by have := nb.isLt; have := r.isLt; omega⟩ e) := by
  have hN := N1_eq
  have ht : t.val < 96 := by have := t.isLt; omega
  have key := Attn.six_steps_nat
    (fun d e' => AttnSpec.attnRow (AttnSpec.v3 (V c main_v8_0) b ⟨512 * nb.val + r.val, by have := nb.isLt; have := r.isLt; omega⟩)
        (AttnSpec.v3 (V c main_v8_4) b) (AttnSpec.v3 (V c main_v8_5) b) d * AttnSpec.v2 (V c main_v6) d e')
    (fun j e' => if j = 0 then 0 else accAt1 V c (t.val - 5 + (j - 1)) (ix2 r e'))
    (fun e' => if_pos rfl)
    (fun h e' => by
      have hh6 := h.isLt
      show (if h.val + 1 = 0 then (0 : EReal) else accAt1 V c (t.val - 5 + (h.val + 1 - 1)) (ix2 r e'))
        = (if h.val = 0 then (0 : EReal) else accAt1 V c (t.val - 5 + (h.val - 1)) (ix2 r e')) + term1 V c b ⟨512 * nb.val + r.val, by have := nb.isLt; have := r.isLt; omega⟩ h e'
      rw [if_neg (Nat.succ_ne_zero _), Nat.add_sub_cancel]
      by_cases hz : h.val = 0
      · rw [if_pos hz, zero_add]
        exact accAt1_first V c b nb r (t.val - 5 + h.val) (by omega) (by omega) h (by omega) (by omega) (by omega) e'
      · rw [if_neg hz]
        have := accAt1_next V c b nb r (t.val - 5 + h.val) (by omega) (by omega) h (by omega) (by omega) (by omega) e'
        rw [show t.val - 5 + h.val - 1 = t.val - 5 + (h.val - 1) by omega] at this
        exact this)
    e
  have h6 : accAt1 V c (t.val - 5 + (6 - 1)) (ix2 r e) = (outsAt1 V c t.val t.isLt).2 (ix2 r e) := by
    rw [show t.val - 5 + (6 - 1) = t.val by omega]
    exact congrFun (accAt1_eq V c t) (ix2 r e)
  rw [if_neg (by decide : ¬(6 : ℕ) = 0), h6] at key
  show _ = AttnSpec.attnOut _ _ _ _ _ _
  unfold AttnSpec.attnOut AttnSpec.proj
  exact congrArg (· + V c main_arg19 (ix1 e)) key

end Group

/-- The block stored at a group's last point is attention followed by the output projection, at the block's rows. -/
theorem out_last1 (c : Dev nD) (t : Fin cfg1.N) (h5 : t.val % 6 = 5) (r : Fin 512) (e : Fin 768) :
    (outsAt1 (F := Ideal) V c t.val t.isLt).1 (ix3 (0 : Fin 1) r e)
      = (AttnSpec.attnArr (V c main_v8_0) (V c main_v8_4) (V c main_v8_5) (V c main_v6) (V c main_arg19))
          (ix3 (⟨t.val / 12, by have := t.isLt; have : cfg1.N = 96 := N_1; omega⟩ : Fin 8)
            (⟨512 * (t.val / 6 % 2) + r.val, by have := r.isLt; omega⟩ : Fin 1024) e) :=
  (out1_last V c t h5 (0 : Fin 1) r e).trans
    (group1 V c ⟨t.val / 12, by have := t.isLt; have : cfg1.N = 96 := N_1; omega⟩ ⟨t.val / 6 % 2, by omega⟩ r t h5 rfl rfl e)

end Cert.KernelIdeal.Hand.Val1

end
-- ==== Proof.Val1.lean ====
/-
  From blocks to the array, region 1. The 96 grid points are (batch entry `b`, half `nb` of the 1024 rows, head pair `h`),
  `t = (2 b + nb) · 6 + h`. Only the points with `h = 5` write the output block back: rows `[512 nb, 512 nb + 512)` of batch
  entry `b`, holding the accumulator after the sixth head pair plus the bias, that is every query row of the block attended
  over the keys and values of its batch entry and projected (`Cert.AttnSpec.attnArr`). Row `n` of batch entry `b` lies in the
  block of the flushing point `(2 b + n / 512) · 6 + 5`, so the blocks cover the array.
-/
import proofs.«176245_j63866163691863_2_alg».proof.Proof.Region1Val
import proofs.«176245_j63866163691863_2_alg».proof.Proof.Val1Acc
import proofs.«176245_j63866163691863_2_alg».proof.Proof.Spec
import Idealize.ShloMosaic.Lib.Pipeline.Value

set_option maxRecDepth 16384

noncomputable section

namespace Cert.KernelIdeal.Hand.Val1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.AttnSpec

variable (V : (c : Dev nD) → (b : Ref sig .tc) → Buf (Elt Ideal) ((c : Thread nD τ).loc b))

/-- The output window's index map, decided over the grid: point `t` is batch entry `t / 12`, half `t / 6 % 2`. -/
theorem idx_out1 : ∀ t : Fin cfg1.N,
    win1_5.index t (0 : Fin 3) = t.val / 12 ∧ win1_5.index t (1 : Fin 3) = t.val / 6 % 2 ∧ win1_5.index t (2 : Fin 3) = 0 :=
  (by decide +kernel : ∀ t : Fin grid1.N, _)

/-- What a flushing point writes back is its block of the attended and projected array. -/
theorem flushed5_eq (c : Dev nD) (t : Fin cfg1.N) (hf : (cfg1.win 5).flush t = true) :
    (dat1 (F := Ideal) V c).flushed 5 t = ((cfg1.win 5).blk t).view.read (Elt Ideal) (attnArr (V c main_v8_0) (V c main_v8_4) (V c main_v8_5) (V c main_v6) (V c main_arg19)) := by
  have h5 : t.val % 6 = 5 := (flush1_5 t).mp hf
  have hN : t.val < 96 := lt_of_lt_of_eq t.isLt (show cfg1.N = 96 from N_1)
  show (cfg1.win 5).cut (grid1.coords t) ((dat1 (F := Ideal) V c).after 5 t) = _
  rw [after1_5]
  obtain ⟨o0, o1, o2⟩ := idx_out1 t
  funext j
  have hj0 : (j 0).val < 1 := (j 0).isLt
  have hj1 : (j 1).val < 512 := (j 1).isLt
  have hj2 : (j 2).val < 768 := (j 2).isLt
  show (outsAt1 (F := Ideal) V c t.val t.isLt).1 ((cfg1.win 5).xinj (grid1.coords t) j)
    = attnArr (V c main_v8_0) (V c main_v8_4) (V c main_v8_5) (V c main_v6) (V c main_arg19) (((cfg1.win 5).blk t).view.emb j)
  have e1 : (cfg1.win 5).xinj (grid1.coords t) j = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  have e2 : ((cfg1.win 5).blk t).view.emb j
      = ix3 (⟨t.val / 12, by omega⟩ : Fin 8) (⟨512 * (t.val / 6 % 2) + (j 1).val, by omega⟩ : Fin 1024) (⟨(j 2).val, hj2⟩ : Fin 768) := by
    funext a; apply Fin.ext
    match a with
    | ⟨0, _⟩ => show win1_5.index t (0 : Fin 3) * 1 + 1 * (j 0).val = t.val / 12; omega
    | ⟨1, _⟩ => show win1_5.index t (1 : Fin 3) * 512 + 1 * (j 1).val = 512 * (t.val / 6 % 2) + (j 1).val; omega
    | ⟨2, _⟩ => show win1_5.index t (2 : Fin 3) * 768 + 1 * (j 2).val = (j 2).val; omega
  rw [e1, e2]
  exact out_last1 V c t h5 ⟨(j 1).val, hj1⟩ ⟨(j 2).val, hj2⟩

/-- An index of the array is in point `t`'s block iff each coordinate is in the block's range on its axis. -/
theorem mem_blk5 (t : Fin cfg1.N) (i : S8x1024x768.Idx) :
    i ∈ ((cfg1.win 5).blk t).view.set ↔ ∀ a : Fin 3, win1_5.index t a * S1x512x768.size a ≤ (i a).val
      ∧ (i a).val < win1_5.index t a * S1x512x768.size a + S1x512x768.size a := by
  show i ∈ ((View.whole main_v9).slice (win1_5.rect t)).set ↔ _
  rw [View.set_slice_whole, Rect.mem_set_unit]
  exact Iff.rfl

/-- Row `n` of batch entry `b` is in the block of the flushing point `(2 b + n / 512) · 6 + 5`. -/
theorem cover5 (i : S8x1024x768.Idx) :
    ∃ t : Fin cfg1.N, (cfg1.win 5).flush t = true ∧ i ∈ ((cfg1.win 5).blk t).view.set := by
  have h0 : (i 0).val < 8 := (i 0).isLt
  have h1 : (i 1).val < 1024 := (i 1).isLt
  have h2 : (i 2).val < 768 := (i 2).isLt
  have hN : (2 * (i 0).val + (i 1).val / 512) * 6 + 5 < cfg1.N := by show _ < 96; omega
  refine ⟨⟨(2 * (i 0).val + (i 1).val / 512) * 6 + 5, hN⟩, (flush1_5 _).mpr (by show ((2 * (i 0).val + (i 1).val / 512) * 6 + 5) % 6 = 5; omega), ?_⟩
  rw [mem_blk5]
  obtain ⟨o0, o1, o2⟩ := idx_out1 ⟨(2 * (i 0).val + (i 1).val / 512) * 6 + 5, hN⟩
  have o0' : win1_5.index ⟨(2 * (i 0).val + (i 1).val / 512) * 6 + 5, hN⟩ (0 : Fin 3) = ((2 * (i 0).val + (i 1).val / 512) * 6 + 5) / 12 := o0
  have o1' : win1_5.index ⟨(2 * (i 0).val + (i 1).val / 512) * 6 + 5, hN⟩ (1 : Fin 3) = ((2 * (i 0).val + (i 1).val / 512) * 6 + 5) / 6 % 2 := o1
  intro a
  match a with
  | ⟨0, _⟩ =>
    show win1_5.index _ (0 : Fin 3) * 1 ≤ (i 0).val ∧ (i 0).val < win1_5.index _ (0 : Fin 3) * 1 + 1
    rw [o0']; omega
  | ⟨1, _⟩ =>
    show win1_5.index _ (1 : Fin 3) * 512 ≤ (i 1).val ∧ (i 1).val < win1_5.index _ (1 : Fin 3) * 512 + 512
    rw [o1']; omega
  | ⟨2, _⟩ =>
    show win1_5.index _ (2 : Fin 3) * 768 ≤ (i 2).val ∧ (i 2).val < win1_5.index _ (2 : Fin 3) * 768 + 768
    rw [o2]; omega

/-- The output array after the region: every query row attended over its batch entry's keys and values, and projected. -/
theorem final1_5 (c : Dev nD) : (dat1 (F := Ideal) V c).arrAt 5 cfg1.N = attnArr (V c main_v8_0) (V c main_v8_4) (V c main_v8_5) (V c main_v6) (V c main_arg19) :=
  (dat1 (F := Ideal) V c).arrAt_eq_of_cover 5 _ (fun t ht => flushed5_eq V c t ht) (cover5)

end Cert.KernelIdeal.Hand.Val1

end
-- ==== Proof.Region2Val.lean ====
/-
  Region 2: what each case leaves in the accumulator and in the output block, as the body's payloads of the input blocks.
  One step (`step2`) is the accumulator plus the two heads' contribution; case A steps from the zero block, cases B and C
  from what the point before left, and case C stores accumulator + bias.
-/
import proofs.«176245_j63866163691863_2_alg».proof.Proof.Region2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rQ2 : Rect S1x512x128 := Rect.unit (s := S1x512x128) ![0, 0, 0] S1x512x128.size inb_S1x512x128_S1x512x128_0_0_0
abbrev rK2 : Rect S1x1024x128 := Rect.unit (s := S1x1024x128) ![0, 0, 0] S1x1024x128.size inb_S1x1024x128_S1x1024x128_0_0_0
abbrev rS2 : Rect S512x768 := Rect.unit (s := S512x768) ![0, 0] S512x768.size inb_S512x768_S512x768_0_0
abbrev rWa2 : Rect S128x768 := Rect.unit (s := S128x768) ![0, 0] S64x768.size inb_S128x768_S64x768_0_0
abbrev rWb2 : Rect S128x768 := Rect.unit (s := S128x768) ![64, 0] S64x768.size inb_S128x768_S64x768_64_0
abbrev rB2 : Rect S768 := Rect.unit (s := S768) ![0] S768.size inb_S768_S768_0
abbrev rO2 : Rect S1x512x768 := Rect.unit (s := S1x512x768) ![0, 0, 0] S1x512x768.size inb_S1x512x768_S1x512x768_0_0_0

theorem hz2_2 : (![0, 0] : Fin 2 → Nat) = fun _ => 0 := funext fun a => by fin_cases a <;> rfl
theorem hz3_2 : (![0, 0, 0] : Fin 3 → Nat) = fun _ => 0 := funext fun a => by fin_cases a <;> rfl
theorem hz1_2 : (![0] : Fin 1 → Nat) = fun _ => 0 := funext fun a => by fin_cases a <;> rfl

/-- One grid step: the accumulator `a` plus the contribution of the two heads whose columns the blocks hold. -/
def step2 (x0 : Vec F S1x512x128 .bf16) (x1 x2 : Vec F S1x1024x128 .bf16) (x3 : Vec F S128x768 .bf16) (a : Vec F S512x768 .f32) : Vec F S512x768 .f32 :=
  k2_pay1 (k2_pay7 (View.ld x0 rQ2) (View.ld x1 rK2) (View.ld x2 rK2)) (k2_pay8 (View.ld x2 rK2)) (k2_pay9 (View.ld x0 rQ2) (View.ld x1 rK2)) (k2_pay10 (View.ld x0 rQ2) (View.ld x1 rK2)) a (View.ld x3 rWa2) (View.ld x3 rWb2)

theorem sout2_B_eq (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : ¬cond2_1 i) (x0 : Vec F S1x512x128 .bf16) (x1 : Vec F S1x1024x128 .bf16) (x2 : Vec F S1x1024x128 .bf16) (x3 : Vec F S128x768 .bf16) (x4 : Vec F S768 .f32) (xs0 : Vec F S512x768 .f32) :
    sout2_B_0 c i arg3 harg3 arg4 harg4 arg5 harg5 arg6 harg6 arg7 harg7 arg8 harg8 arg9 harg9 hc0 hc1 x0 x1 x2 x3 x4 xs0 = step2 x0 x1 x2 x3 (View.ld xs0 rS2) := by
  unfold sout2_B_0
  rw [View.read_writes_eq_canon _ _ _ (scover2_B_0 c i arg3 harg3 arg4 harg4 arg5 harg5 arg6 harg6 arg7 harg7 arg8 harg8 arg9 harg9 hc0 hc1 x0 x1 x2 x3 x4 xs0)]
  unfold kernelRun2_B
  dsimp only
  sl_unfold_words
  rw [View.canon_unit_zero hz2_2]
  simp only [View.readAt_eq_ld, harg3.read_unread, harg4.read_unread, harg5.read_unread, harg6.read_unread, harg9.read_unread]
  rfl

theorem sout2_C_eq (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i) (x0 : Vec F S1x512x128 .bf16) (x1 : Vec F S1x1024x128 .bf16) (x2 : Vec F S1x1024x128 .bf16) (x3 : Vec F S128x768 .bf16) (x4 : Vec F S768 .f32) (xs0 : Vec F S512x768 .f32) :
    sout2_C_0 c i arg3 harg3 arg4 harg4 arg5 harg5 arg6 harg6 arg7 harg7 arg8 harg8 arg9 harg9 hc0 hc1 x0 x1 x2 x3 x4 xs0 = step2 x0 x1 x2 x3 (View.ld xs0 rS2) := by
  unfold sout2_C_0
  rw [View.read_writes_eq_canon _ _ _ (scover2_C_0 c i arg3 harg3 arg4 harg4 arg5 harg5 arg6 harg6 arg7 harg7 arg8 harg8 arg9 harg9 hc0 hc1 x0 x1 x2 x3 x4 xs0)]
  unfold kernelRun2_C
  dsimp only
  sl_unfold_words
  rw [View.canon_unit_zero hz2_2]
  simp only [View.readAt_eq_ld, harg3.read_unread, harg4.read_unread, harg5.read_unread, harg6.read_unread, harg9.read_unread]
  rfl

theorem out2_C_eq (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : ¬cond2_0 i) (hc1 : cond2_1 i) (x0 : Vec F S1x512x128 .bf16) (x1 : Vec F S1x1024x128 .bf16) (x2 : Vec F S1x1024x128 .bf16) (x3 : Vec F S128x768 .bf16) (x4 : Vec F S768 .f32) (xs0 : Vec F S512x768 .f32) :
    out2_C_5 c i arg3 harg3 arg4 harg4 arg5 harg5 arg6 harg6 arg7 harg7 arg8 harg8 arg9 harg9 hc0 hc1 x0 x1 x2 x3 x4 xs0 = k2_pay2 (step2 x0 x1 x2 x3 (View.ld xs0 rS2)) (View.ld x4 rB2) := by
  unfold out2_C_5
  rw [View.read_writes_eq_canon _ _ _ (cover2_C_5 c i arg3 harg3 arg4 harg4 arg5 harg5 arg6 harg6 arg7 harg7 arg8 harg8 arg9 harg9 hc0 hc1 x0 x1 x2 x3 x4 xs0)]
  unfold kernelRun2_C
  dsimp only
  sl_unfold_words
  rw [View.canon_unit_zero hz3_2]
  rw [View.readCov_unit_zero _ hz2_2]
  simp only [View.readAt_eq_ld, harg3.read_unread, harg4.read_unread, harg5.read_unread, harg6.read_unread, harg7.read_unread, harg9.read_unread]
  rfl

theorem sout2_A_eq (c : Dev nD) (i : grid2.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S128x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .f32) (harg9 : arg9.IsWhole) (hc0 : cond2_0 i) (hc1 : ¬cond2_1 i) (x0 : Vec F S1x512x128 .bf16) (x1 : Vec F S1x1024x128 .bf16) (x2 : Vec F S1x1024x128 .bf16) (x3 : Vec F S128x768 .bf16) (x4 : Vec F S768 .f32) :
    sout2_A_0 c i arg3 harg3 arg4 harg4 arg5 harg5 arg6 harg6 arg7 harg7 arg8 harg8 arg9 harg9 hc0 hc1 x0 x1 x2 x3 x4 = step2 x0 x1 x2 x3 (k2_pay3 (F := F)) := by
  unfold sout2_A_0
  rw [View.read_writes_eq_canon _ _ _ (scover2_A_0 c i arg3 harg3 arg4 harg4 arg5 harg5 arg6 harg6 arg7 harg7 arg8 harg8 arg9 harg9 hc0 hc1 x0 x1 x2 x3 x4)]
  unfold kernelRun2_A
  dsimp only
  sl_unfold_words
  rw [View.canon_cons_unit_zero hz2_2]
  rw [View.readCov_unit_zero _ hz2_2]
  simp only [View.readAt_eq_ld, harg3.read_unread, harg4.read_unread, harg5.read_unread, harg6.read_unread]
  rfl

end Cert.KernelIdeal.Hand

end
-- ==== Proof.Val2Blk.lean ====
/-
  Region 2: each input block is a restriction of its array. With the point's position t = (2·b + nb)·6 + h (batch b, row block nb,
  head pair h), the query block holds rows 512·nb .. of batch b at columns 128·h ..; the key and value blocks hold all 1024 rows of
  batch b at the same columns; the output matrix's block holds its rows 128·h ..; the bias block is the whole bias; the output block
  is rows 512·nb .. of batch b, all columns. A block's coordinate in its array is block index × block size + the coordinate inside.
-/
import proofs.«176245_j63866163691863_2_alg».proof.Proof.Region2Val
import proofs.«176245_j63866163691863_2_alg».proof.Proof.AttnHead
import Idealize.ShloMosaic.Lib.Pipeline.Value

set_option maxRecDepth 16384

noncomputable section

namespace Cert.KernelIdeal.Hand.Val2

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal.Hand.Attn (col)

variable (V : (c : Dev nD) → (b : Ref sig .tc) → Buf (Elt Ideal) ((c : Thread nD τ).loc b))

/-- The printed index maps, decided once over the grid's 96 points. -/
theorem idx_facts2 : ∀ t : Fin cfg2.N,
    win2_0.index t (0 : Fin 3) = t.val / 12 ∧ win2_0.index t (1 : Fin 3) = t.val / 6 % 2 ∧ win2_0.index t (2 : Fin 3) = t.val % 6
    ∧ win2_1.index t (0 : Fin 3) = t.val / 12 ∧ win2_1.index t (1 : Fin 3) = 0 ∧ win2_1.index t (2 : Fin 3) = t.val % 6
    ∧ win2_2.index t (0 : Fin 3) = t.val / 12 ∧ win2_2.index t (1 : Fin 3) = 0 ∧ win2_2.index t (2 : Fin 3) = t.val % 6
    ∧ win2_3.index t (0 : Fin 2) = t.val % 6 ∧ win2_3.index t (1 : Fin 2) = 0
    ∧ win2_4.index t (0 : Fin 1) = 0
    ∧ win2_5.index t (0 : Fin 3) = t.val / 12 ∧ win2_5.index t (1 : Fin 3) = t.val / 6 % 2 ∧ win2_5.index t (2 : Fin 3) = 0 :=
  (by decide +kernel : ∀ t : Fin grid2.N, _)

section Blocks
variable (c : Dev nD) (t : Fin cfg2.N) (b : Fin 8) (nb : Fin 2) (hp : Fin 6)
  (hb : b.val = t.val / 12) (hnb : nb.val = t.val / 6 % 2) (hh : hp.val = t.val % 6)

include hb hnb hh

/-- The query block. -/
theorem blk2_0 (r : Fin 512) (d : Fin 128) :
    (iblk2 V c 0 t : Vec Ideal S1x512x128 .bf16) (ix3 (0 : Fin 1) r d)
      = V c main_v8_3 (ix3 b ⟨512 * nb.val + r.val, by have := nb.isLt; have := r.isLt; omega⟩ (col hp d)) := by
  obtain ⟨e0, e1, e2, -⟩ := idx_facts2 t
  show V c main_v8_3 (((cfg2.win 0).blk t).view.emb (ix3 (0 : Fin 1) r d)) = _
  refine congrArg (V c main_v8_3) (funext fun a => Fin.ext ?_)
  match a with
  | ⟨0, _⟩ => show win2_0.index t (0 : Fin 3) * 1 + 1 * 0 = b.val; omega
  | ⟨1, _⟩ => show win2_0.index t (1 : Fin 3) * 512 + 1 * r.val = 512 * nb.val + r.val; omega
  | ⟨2, _⟩ => show win2_0.index t (2 : Fin 3) * 128 + 1 * d.val = 128 * hp.val + d.val; omega

/-- The key block. -/
theorem blk2_1 (kk : Fin 1024) (d : Fin 128) :
    (iblk2 V c 1 t : Vec Ideal S1x1024x128 .bf16) (ix3 (0 : Fin 1) kk d) = V c main_v8_1 (ix3 b kk (col hp d)) := by
  obtain ⟨-, -, -, e0, e1, e2, -⟩ := idx_facts2 t
  show V c main_v8_1 (((cfg2.win 1).blk t).view.emb (ix3 (0 : Fin 1) kk d)) = _
  refine congrArg (V c main_v8_1) (funext fun a => Fin.ext ?_)
  match a with
  | ⟨0, _⟩ => show win2_1.index t (0 : Fin 3) * 1 + 1 * 0 = b.val; omega
  | ⟨1, _⟩ => show win2_1.index t (1 : Fin 3) * 1024 + 1 * kk.val = kk.val; omega
  | ⟨2, _⟩ => show win2_1.index t (2 : Fin 3) * 128 + 1 * d.val = 128 * hp.val + d.val; omega

/-- The value block. -/
theorem blk2_2 (kk : Fin 1024) (d : Fin 128) :
    (iblk2 V c 2 t : Vec Ideal S1x1024x128 .bf16) (ix3 (0 : Fin 1) kk d) = V c main_v8_2 (ix3 b kk (col hp d)) := by
  obtain ⟨-, -, -, -, -, -, e0, e1, e2, -⟩ := idx_facts2 t
  show V c main_v8_2 (((cfg2.win 2).blk t).view.emb (ix3 (0 : Fin 1) kk d)) = _
  refine congrArg (V c main_v8_2) (funext fun a => Fin.ext ?_)
  match a with
  | ⟨0, _⟩ => show win2_2.index t (0 : Fin 3) * 1 + 1 * 0 = b.val; omega
  | ⟨1, _⟩ => show win2_2.index t (1 : Fin 3) * 1024 + 1 * kk.val = kk.val; omega
  | ⟨2, _⟩ => show win2_2.index t (2 : Fin 3) * 128 + 1 * d.val = 128 * hp.val + d.val; omega

/-- The output matrix's block. -/
theorem blk2_3 (d : Fin 128) (e : Fin 768) :
    (iblk2 V c 3 t : Vec Ideal S128x768 .bf16) (ix2 d e) = V c main_v7 (ix2 (col hp d) e) := by
  obtain ⟨-, -, -, -, -, -, -, -, -, e0, e1, -⟩ := idx_facts2 t
  show V c main_v7 (((cfg2.win 3).blk t).view.emb (ix2 d e)) = _
  refine congrArg (V c main_v7) (funext fun a => Fin.ext ?_)
  match a with
  | ⟨0, _⟩ => show win2_3.index t (0 : Fin 2) * 128 + 1 * d.val = 128 * hp.val + d.val; omega
  | ⟨1, _⟩ => show win2_3.index t (1 : Fin 2) * 768 + 1 * e.val = e.val; omega

/-- The bias block. -/
theorem blk2_4 (e : Fin 768) :
    (iblk2 V c 4 t : Vec Ideal S768 .f32) (ix1 e) = V c main_arg21 (ix1 e) := by
  obtain ⟨-, -, -, -, -, -, -, -, -, -, -, e0, -⟩ := idx_facts2 t
  show V c main_arg21 (((cfg2.win 4).blk t).view.emb (ix1 e)) = _
  refine congrArg (V c main_arg21) (funext fun a => Fin.ext ?_)
  match a with
  | ⟨0, _⟩ => show win2_4.index t (0 : Fin 1) * 768 + 1 * e.val = e.val; omega

/-- Where an element of the output block sits in the output array. -/
theorem emb2_5 (u : Fin 1) (r : Fin 512) (e : Fin 768) :
    ((cfg2.win 5).blk t).view.emb (ix3 u r e)
      = (ix3 b ⟨512 * nb.val + r.val, by have := nb.isLt; have := r.isLt; omega⟩ e : S8x1024x768.Idx) := by
  obtain ⟨-, -, -, -, -, -, -, -, -, -, -, -, e0, e1, e2⟩ := idx_facts2 t
  refine funext fun a => Fin.ext ?_
  have hu : u.val = 0 := by omega
  match a with
  | ⟨0, _⟩ => show win2_5.index t (0 : Fin 3) * 1 + 1 * u.val = b.val; omega
  | ⟨1, _⟩ => show win2_5.index t (1 : Fin 3) * 512 + 1 * r.val = 512 * nb.val + r.val; omega
  | ⟨2, _⟩ => show win2_5.index t (2 : Fin 3) * 768 + 1 * e.val = e.val; omega

end Blocks

end Cert.KernelIdeal.Hand.Val2

end
-- ==== Proof.AttnStep2.lean ====
/-
  One grid step of the fused attention + output-projection kernel (region 2), index by index: when the loaded blocks are the
  columns 128·hp .. 128·hp+127 of the query rows, of the key and value rows, and the same rows of the output matrix, the step
  adds to the accumulator block, at (r, e), the sum over those 128 columns d of (attended row r at column d) · (output
  matrix at (d, e)). Columns 0..63 of the blocks are head 2·hp, columns 64..127 head 2·hp+1; the two 64-term sums join into one
  128-term sum. The stored block is the accumulator plus the bias row.
-/
import proofs.«176245_j63866163691863_2_alg».proof.Proof.AttnHead

set_option maxRecDepth 16384

noncomputable section

namespace Cert.KernelIdeal.Hand.Attn

open Cert.KernelIdeal Cert.KernelIdeal.Gen
open Idealize.ShloMosaic Idealize.ShloMosaic.ValueIdx

section Generic
variable {F : FTy → Type} [FloatOps F]

/-- Head 0 of the pair is the generic head on the blocks' columns 0..63. -/
theorem k2_pay7_eq (v3 : Vec F S1x512x128 .bf16) (v5 v7 : Vec F S1x1024x128 .bf16) :
    k2_pay7 v3 v5 v7 =
      softPV (scores (extractStridedSlice S512x64 ![0, 0] (k2_pay4 v3) slices_S512x128_o0_0_S512x64)
                (extractStridedSlice S1024x64 ![0, 0] (k2_pay5 v5) slices_S1024x128_o0_0_S1024x64))
        (rowMaxCol (scores (extractStridedSlice S512x64 ![0, 0] (k2_pay4 v3) slices_S512x128_o0_0_S512x64)
                (extractStridedSlice S1024x64 ![0, 0] (k2_pay5 v5) slices_S1024x128_o0_0_S1024x64)))
        (extractStridedSlice S1024x64 ![0, 0] (k2_pay6 v7) slices_S1024x128_o0_0_S1024x64) := rfl

/-- Head 1's scores are the generic scores on the blocks' columns 64..127. -/
theorem k2_pay9_eq (v3 : Vec F S1x512x128 .bf16) (v5 : Vec F S1x1024x128 .bf16) :
    k2_pay9 v3 v5 =
      scores (extractStridedSlice S512x64 ![0, 64] (k2_pay4 v3) slices_S512x128_o0_64_S512x64)
                (extractStridedSlice S1024x64 ![0, 64] (k2_pay5 v5) slices_S1024x128_o0_64_S1024x64) := rfl

theorem k2_pay10_eq (v3 : Vec F S1x512x128 .bf16) (v5 : Vec F S1x1024x128 .bf16) :
    k2_pay10 v3 v5 = rowMaxCol (k2_pay9 v3 v5) := rfl

/-- The new accumulator is the generic step on head 0's output and head 1's weighted value sum. -/
theorem k2_pay1_eq (v27 : FVec F S512x64 .bf16) (v30 : FVec F S1024x64 .bf16) (v34 : FVec F S512x1024 .f32)
    (v36 : FVec F S512x1 .f32) (v47 : Vec F S512x768 .f32) (v48 v51 : Vec F S64x768 .bf16) :
    k2_pay1 v27 v30 v34 v36 v47 v48 v51 = stepAcc v27 (softPV v34 v36 v30) v47 v48 v51 := rfl

end Generic

section AtIdeal
variable (x0 : Vec Ideal S1x512x128 .bf16) (x1 x2 : Vec Ideal S1x1024x128 .bf16)
  (q : Fin 512 → Fin 768 → EReal) (K V : Fin 1024 → Fin 768 → EReal) (hp : Fin 6)
  (hq : ∀ (r : Fin 512) (d : Fin 128), x0 (ix3 (0 : Fin 1) r d) = q r (col hp d))
  (hk : ∀ (k : Fin 1024) (d : Fin 128), x1 (ix3 (0 : Fin 1) k d) = K k (col hp d))
  (hv : ∀ (k : Fin 1024) (d : Fin 128), x2 (ix3 (0 : Fin 1) k d) = V k (col hp d))

include hq hk hv

/-- Head 0 of the pair: the attended row at the pair's columns 0..63. -/
theorem k2_head0 (r : Fin 512) (j : Fin 64) :
    k2_pay7 x0 x1 x2 (ix2 r j) = AttnSpec.attnRow (q r) K V (col hp ⟨j.val, by have := j.isLt; omega⟩) := by
  rw [k2_pay7_eq]
  refine (head_apply _ _ _ q K V ⟨2 * hp.val, by have := hp.isLt; omega⟩ (fun r d => ?_) (fun k d => ?_) (fun k d => ?_) r j).trans ?_
  · exact (sliceQ_apply x0 0 slices_S512x128_o0_0_S512x64 r d ⟨d.val, by have := d.isLt; omega⟩ (Nat.zero_add _).symm).trans
      ((hq r _).trans (congrArg (q r) (headCol_even hp d).symm))
  · exact (sliceK_apply x1 0 slices_S1024x128_o0_0_S1024x64 k d ⟨d.val, by have := d.isLt; omega⟩ (Nat.zero_add _).symm).trans
      ((hk k _).trans (congrArg (K k) (headCol_even hp d).symm))
  · exact (sliceK_apply x2 0 slices_S1024x128_o0_0_S1024x64 k d ⟨d.val, by have := d.isLt; omega⟩ (Nat.zero_add _).symm).trans
      ((hv k _).trans (congrArg (V k) (headCol_even hp d).symm))
  · exact congrArg (AttnSpec.attnRow (q r) K V) (headCol_even hp j)

/-- Head 1 of the pair: the attended row at the pair's columns 64..127. -/
theorem k2_head1 (r : Fin 512) (j : Fin 64) :
    softPV (k2_pay9 x0 x1) (k2_pay10 x0 x1) (k2_pay8 x2) (ix2 r j)
      = AttnSpec.attnRow (q r) K V (col hp ⟨64 + j.val, by have := j.isLt; omega⟩) := by
  rw [k2_pay10_eq, k2_pay9_eq]
  refine (head_apply _ _ _ q K V ⟨2 * hp.val + 1, by have := hp.isLt; omega⟩ (fun r d => ?_) (fun k d => ?_) (fun k d => ?_) r j).trans ?_
  · exact (sliceQ_apply x0 64 slices_S512x128_o0_64_S512x64 r d ⟨64 + d.val, by have := d.isLt; omega⟩ rfl).trans
      ((hq r _).trans (congrArg (q r) (headCol_odd hp d).symm))
  · exact (sliceK_apply x1 64 slices_S1024x128_o0_64_S1024x64 k d ⟨64 + d.val, by have := d.isLt; omega⟩ rfl).trans
      ((hk k _).trans (congrArg (K k) (headCol_odd hp d).symm))
  · exact (sliceK_apply x2 64 slices_S1024x128_o0_64_S1024x64 k d ⟨64 + d.val, by have := d.isLt; omega⟩ rfl).trans
      ((hv k _).trans (congrArg (V k) (headCol_odd hp d).symm))
  · exact congrArg (AttnSpec.attnRow (q r) K V) (headCol_odd hp j)

/-- The step: the accumulator gains the 128-column sum of the attended row through the output matrix. -/
theorem k2_step (x3 : Vec Ideal S128x768 .bf16) (a : Vec Ideal S512x768 .f32) (wo : Fin 768 → Fin 768 → EReal)
    (hw : ∀ (d : Fin 128) (e : Fin 768), x3 (ix2 d e) = wo (col hp d) e) (r : Fin 512) (e : Fin 768) :
    k2_pay1
        (k2_pay7 (View.ld x0 (Rect.unit (s := S1x512x128) ![0, 0, 0] S1x512x128.size inb_S1x512x128_S1x512x128_0_0_0))
          (View.ld x1 (Rect.unit (s := S1x1024x128) ![0, 0, 0] S1x1024x128.size inb_S1x1024x128_S1x1024x128_0_0_0))
          (View.ld x2 (Rect.unit (s := S1x1024x128) ![0, 0, 0] S1x1024x128.size inb_S1x1024x128_S1x1024x128_0_0_0)))
        (k2_pay8 (View.ld x2 (Rect.unit (s := S1x1024x128) ![0, 0, 0] S1x1024x128.size inb_S1x1024x128_S1x1024x128_0_0_0)))
        (k2_pay9 (View.ld x0 (Rect.unit (s := S1x512x128) ![0, 0, 0] S1x512x128.size inb_S1x512x128_S1x512x128_0_0_0))
          (View.ld x1 (Rect.unit (s := S1x1024x128) ![0, 0, 0] S1x1024x128.size inb_S1x1024x128_S1x1024x128_0_0_0)))
        (k2_pay10 (View.ld x0 (Rect.unit (s := S1x512x128) ![0, 0, 0] S1x512x128.size inb_S1x512x128_S1x512x128_0_0_0))
          (View.ld x1 (Rect.unit (s := S1x1024x128) ![0, 0, 0] S1x1024x128.size inb_S1x1024x128_S1x1024x128_0_0_0)))
        a
        (View.ld x3 (Rect.unit (s := S128x768) ![0, 0] S64x768.size inb_S128x768_S64x768_0_0))
        (View.ld x3 (Rect.unit (s := S128x768) ![64, 0] S64x768.size inb_S128x768_S64x768_64_0))
        (ix2 r e)
      = a (ix2 r e) + ∑ d : Fin 128, AttnSpec.attnRow (q r) K V (col hp d) * wo (col hp d) e := by
  have hz : (![0, 0, 0] : Fin 3 → Nat) = fun _ => 0 :=
    funext fun a => match a with | ⟨0, _⟩ => rfl | ⟨1, _⟩ => rfl | ⟨2, _⟩ => rfl
  rw [View.ld_unit_zero (S := S1x512x128) hz inb_S1x512x128_S1x512x128_0_0_0 x0,
    View.ld_unit_zero (S := S1x1024x128) hz inb_S1x1024x128_S1x1024x128_0_0_0 x1,
    View.ld_unit_zero (S := S1x1024x128) hz inb_S1x1024x128_S1x1024x128_0_0_0 x2,
    k2_pay1_eq]
  refine (stepAcc_apply _ _ a _ _ r e).trans (congrArg (a (ix2 r e) + ·) ?_)
  rw [sum_split128]
  refine congrArg₂ (· + ·) (Finset.sum_congr rfl fun d _ => ?_) (Finset.sum_congr rfl fun d _ => ?_)
  · rw [k2_head0 x0 x1 x2 q K V hp hq hk hv r d,
      ld_rows_apply x3 0 inb_S128x768_S64x768_0_0 d e ⟨d.val, by have := d.isLt; omega⟩ (Nat.zero_add _).symm, hw]
  · rw [k2_head1 x0 x1 x2 q K V hp hq hk hv r d,
      ld_rows_apply x3 64 inb_S128x768_S64x768_64_0 d e ⟨64 + d.val, by have := d.isLt; omega⟩ rfl, hw]

end AtIdeal

/-! ## The zero block and the stored block -/

/-- The block the accumulator starts from is zero everywhere. -/
theorem k2_pay3_apply (j : S512x768.Idx) : k2_pay3 (F := Ideal) j = 0 := by
  unfold k2_pay3
  rw [shapeCast_self]
  exact Ideal.ofBits_zero_f32

/-- The stored block is the accumulator plus the bias row. -/
theorem k2_pay2_apply (a : Vec Ideal S512x768 .f32) (b : Vec Ideal S768 .f32) (u : Fin 1) (r : Fin 512) (e : Fin 768) :
    k2_pay2 a b (ix3 u r e) = a (ix2 r e) + b (ix1 e) := by
  unfold k2_pay2
  refine (shapeCast_ab_1ab_apply _ shapeCasts_S512x768_S1x512x768 u r e).trans ?_
  show a (ix2 r e) + broadcastTo S512x768 (shapeCast S1x768 b shapeCasts_S768_S1x768) broadcasts_S1x768_S512x768 (ix2 r e) = _
  rw [broadcastTo_1b_ab_apply, shapeCast_a_1a_apply]

end Cert.KernelIdeal.Hand.Attn

end
-- ==== Proof.Val2Acc.lean ====
/-
  Region 2: what the accumulator holds after each point. At a point whose head pair is h, for batch b and query row n, a step adds
  to the accumulator at (r, e) the sum over the pair's 128 columns d of (attended row at column d) · (output matrix at (d, e));
  at h = 0 it starts from zero, otherwise from what the point before left; at h = 5 the stored block is the accumulator plus the bias.
-/
import proofs.«176245_j63866163691863_2_alg».proof.Proof.Val2Blk
import proofs.«176245_j63866163691863_2_alg».proof.Proof.AttnStep2
import proofs.«176245_j63866163691863_2_alg».proof.Proof.AttnSum
import Idealize.ShloMosaic.Lib.Pipeline.Value

set_option maxRecDepth 16384

noncomputable section

namespace Cert.KernelIdeal.Hand.Val2

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal.Hand.Attn (col)

variable (V : (c : Dev nD) → (b : Ref sig .tc) → Buf (Elt Ideal) ((c : Thread nD τ).loc b))

/-- What the step at head pair `h` adds, for batch `b` and query row `n`, at output column `e`. -/
def term2 (c : Dev nD) (b : Fin 8) (n : Fin 1024) (h : Fin 6) (e : Fin 768) : EReal :=
  ∑ d : Fin 128, AttnSpec.attnRow (AttnSpec.v3 (V c main_v8_3) b n) (AttnSpec.v3 (V c main_v8_1) b) (AttnSpec.v3 (V c main_v8_2) b) (col h d)
      * AttnSpec.v2 (V c main_v7) (col h d) e

section Point
variable (c : Dev nD) (t : Fin cfg2.N) (b : Fin 8) (nb : Fin 2) (hp : Fin 6)
  (hb : b.val = t.val / 12) (hnb : nb.val = t.val / 6 % 2) (hh : hp.val = t.val % 6)

include hb hnb hh

/-- One step on the point's blocks, from any accumulator. -/
theorem step2_apply (a : Vec Ideal S512x768 .f32) (r : Fin 512) (e : Fin 768) :
    step2 (iblk2 V c 0 t) (iblk2 V c 1 t) (iblk2 V c 2 t) (iblk2 V c 3 t) a (ix2 r e)
      = a (ix2 r e) + term2 V c b ⟨512 * nb.val + r.val, by have := nb.isLt; have := r.isLt; omega⟩ hp e := by
  unfold step2 term2
  exact Attn.k2_step (iblk2 V c 0 t) (iblk2 V c 1 t) (iblk2 V c 2 t)
    (fun r => AttnSpec.v3 (V c main_v8_3) b ⟨512 * nb.val + r.val, by have := nb.isLt; have := r.isLt; omega⟩)
    (AttnSpec.v3 (V c main_v8_1) b) (AttnSpec.v3 (V c main_v8_2) b) hp
    (fun r d => blk2_0 V c t b nb hp hb hnb hh r d) (fun kk d => blk2_1 V c t b nb hp hb hnb hh kk d)
    (fun kk d => blk2_2 V c t b nb hp hb hnb hh kk d) (iblk2 V c 3 t) a (AttnSpec.v2 (V c main_v7))
    (fun d e => blk2_3 V c t b nb hp hb hnb hh d e) r e

/-- At the first point of a group the accumulator is the step from zero. -/
theorem acc2_first (h0 : t.val % 6 = 0) (r : Fin 512) (e : Fin 768) :
    (outsAt2 V c t.val t.isLt).2 (ix2 r e) = term2 V c b ⟨512 * nb.val + r.val, by have := nb.isLt; have := r.isLt; omega⟩ hp e := by
  have h1 : ¬t.val % 6 = 5 := by omega
  have E1 := congrArg Prod.snd (outsAt2_A V c t h0 h1)
  have E2 := sout2_A_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)
  dsimp only at E1
  refine (congrFun (E1.trans E2) (ix2 r e)).trans ?_
  refine (step2_apply V c t b nb hp hb hnb hh (k2_pay3 (F := Ideal)) r e).trans ?_
  exact (congrArg (· + term2 V c b ⟨512 * nb.val + r.val, by have := nb.isLt; have := r.isLt; omega⟩ hp e) (Attn.k2_pay3_apply (ix2 r e))).trans (zero_add _)

/-- At a later point of a group the accumulator is the step from what the point before left. -/
theorem acc2_next (h0 : ¬t.val % 6 = 0) (r : Fin 512) (e : Fin 768) :
    (outsAt2 V c t.val t.isLt).2 (ix2 r e)
      = (outsAt2 V c (t.val - 1) (Nat.lt_of_le_of_lt (Nat.sub_le _ _) t.isLt)).2 (ix2 r e) + term2 V c b ⟨512 * nb.val + r.val, by have := nb.isLt; have := r.isLt; omega⟩ hp e := by
  have hld : View.ld (outsAt2 V c (t.val - 1) (Nat.lt_of_le_of_lt (Nat.sub_le _ _) t.isLt)).2 rS2 = (outsAt2 V c (t.val - 1) (Nat.lt_of_le_of_lt (Nat.sub_le _ _) t.isLt)).2 :=
    View.ld_unit_zero (S := S512x768) hz2_2 inb_S512x768_S512x768_0_0 _
  by_cases h1 : t.val % 6 = 5
  · have E1 := congrArg Prod.snd (outsAt2_C V c t h0 h1)
    have E2 := sout2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2
    dsimp only at E1
    refine (congrFun (E1.trans E2) (ix2 r e)).trans ?_
    refine (step2_apply V c t b nb hp hb hnb hh (View.ld (outsAt2 V c (t.val - 1) (Nat.lt_of_le_of_lt (Nat.sub_le _ _) t.isLt)).2 rS2) r e).trans ?_
    exact congrArg (· + term2 V c b ⟨512 * nb.val + r.val, by have := nb.isLt; have := r.isLt; omega⟩ hp e) (congrFun hld (ix2 r e))
  · have E1 := congrArg Prod.snd (outsAt2_B V c t h0 h1)
    have E2 := sout2_B_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2
    dsimp only at E1
    refine (congrFun (E1.trans E2) (ix2 r e)).trans ?_
    refine (step2_apply V c t b nb hp hb hnb hh (View.ld (outsAt2 V c (t.val - 1) (Nat.lt_of_le_of_lt (Nat.sub_le _ _) t.isLt)).2 rS2) r e).trans ?_
    exact congrArg (· + term2 V c b ⟨512 * nb.val + r.val, by have := nb.isLt; have := r.isLt; omega⟩ hp e) (congrFun hld (ix2 r e))

end Point

/-- At the last point of a group the stored block is the accumulator plus the bias row. -/
theorem out2_last (c : Dev nD) (t : Fin cfg2.N) (h1 : t.val % 6 = 5) (u : Fin 1) (r : Fin 512) (e : Fin 768) :
    (outsAt2 V c t.val t.isLt).1 (ix3 u r e) = (outsAt2 V c t.val t.isLt).2 (ix2 r e) + V c main_arg21 (ix1 e) := by
  have hN : cfg2.N = 96 := N_2
  have ht : t.val < 96 := by have := t.isLt; omega
  have h0 : ¬t.val % 6 = 0 := by omega
  have E := outsAt2_C V c t h0 h1
  have E1 := congrArg Prod.fst E
  have E2 := congrArg Prod.snd E
  dsimp only at E1 E2
  have e1 := E1.trans
    (out2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2)
  have e2 := E2.trans
    (sout2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2)
  refine (congrFun e1 (ix3 u r e)).trans ?_
  refine (Attn.k2_pay2_apply _ _ u r e).trans ?_
  refine congrArg₂ (· + ·) (congrFun e2.symm (ix2 r e)) ?_
  have hld : View.ld (iblk2 V c 4 t : Vec Ideal S768 .f32) rB2 = iblk2 V c 4 t :=
    View.ld_unit_zero (S := S768) hz1_2 inb_S768_S768_0 _
  refine (congrFun hld (ix1 e)).trans ?_
  exact blk2_4 V c t ⟨t.val / 12, by omega⟩ ⟨t.val / 6 % 2, by omega⟩ ⟨t.val % 6, by omega⟩ rfl rfl rfl e

/-- The accumulator after position `n`, as a total function of the position. -/
def accAt2 (c : Dev nD) (n : ℕ) : Vec Ideal S512x768 .f32 :=
  if hn : n < cfg2.N then (outsAt2 V c n hn).2 else fun _ => 0

theorem accAt2_eq (c : Dev nD) (t : Fin cfg2.N) : accAt2 V c t.val = (outsAt2 V c t.val t.isLt).2 := dif_pos t.isLt

theorem N2_eq : cfg2.N = 96 := N_2

section Group
variable (c : Dev nD) (b : Fin 8) (nb : Fin 2) (r : Fin 512)

/-- The first point of a group, by its position. -/
theorem accAt2_first (n : ℕ) (hn : n < 96) (h0 : n % 6 = 0) (hp : Fin 6) (hb : b.val = n / 12) (hnb : nb.val = n / 6 % 2)
    (hh : hp.val = n % 6) (e : Fin 768) :
    accAt2 V c n (ix2 r e) = term2 V c b ⟨512 * nb.val + r.val, by have := nb.isLt; have := r.isLt; omega⟩ hp e := by
  have hN := N2_eq
  have ht : n < cfg2.N := by omega
  exact (congrFun (accAt2_eq V c ⟨n, ht⟩) (ix2 r e)).trans (acc2_first V c ⟨n, ht⟩ b nb hp hb hnb hh h0 r e)

/-- A later point of a group, by its position. -/
theorem accAt2_next (n : ℕ) (hn : n < 96) (h0 : ¬n % 6 = 0) (hp : Fin 6) (hb : b.val = n / 12) (hnb : nb.val = n / 6 % 2)
    (hh : hp.val = n % 6) (e : Fin 768) :
    accAt2 V c n (ix2 r e)
      = accAt2 V c (n - 1) (ix2 r e) + term2 V c b ⟨512 * nb.val + r.val, by have := nb.isLt; have := r.isLt; omega⟩ hp e := by
  have hN := N2_eq
  have ht : n < cfg2.N := by omega
  have ht' : n - 1 < cfg2.N := by omega
  refine (congrFun (accAt2_eq V c ⟨n, ht⟩) (ix2 r e)).trans ((acc2_next V c ⟨n, ht⟩ b nb hp hb hnb hh h0 r e).trans ?_)
  exact congrArg (· + _) (congrFun (accAt2_eq V c ⟨n - 1, ht'⟩).symm (ix2 r e))

/-- After the group's six points, accumulator plus bias is attention followed by the output projection. -/
theorem group2 (t : Fin cfg2.N) (h5 : t.val % 6 = 5) (hb : b.val = t.val / 12) (hnb : nb.val = t.val / 6 % 2) (e : Fin 768) :
    (outsAt2 V c t.val t.isLt).2 (ix2 r e) + V c main_arg21 (ix1 e)
      = (AttnSpec.attnArr (V c main_v8_3) (V c main_v8_1) (V c main_v8_2) (V c main_v7) (V c main_arg21)) (ix3 b ⟨512 * nb.val + r.val, by have := nb.isLt; have := r.isLt; omega⟩ e) := by
  have hN := N2_eq
  have ht : t.val < 96 := by have := t.isLt; omega
  have key := Attn.six_steps_nat
    (fun d e' => AttnSpec.attnRow (AttnSpec.v3 (V c main_v8_3) b ⟨512 * nb.val + r.val, by have := nb.isLt; have := r.isLt; omega⟩)
        (AttnSpec.v3 (V c main_v8_1) b) (AttnSpec.v3 (V c main_v8_2) b) d * AttnSpec.v2 (V c main_v7) d e')
    (fun j e' => if j = 0 then 0 else accAt2 V c (t.val - 5 + (j - 1)) (ix2 r e'))
    (fun e' => if_pos rfl)
    (fun h e' => by
      have hh6 := h.isLt
      show (if h.val + 1 = 0 then (0 : EReal) else accAt2 V c (t.val - 5 + (h.val + 1 - 1)) (ix2 r e'))
        = (if h.val = 0 then (0 : EReal) else accAt2 V c (t.val - 5 + (h.val - 1)) (ix2 r e')) + term2 V c b ⟨512 * nb.val + r.val, by have := nb.isLt; have := r.isLt; omega⟩ h e'
      rw [if_neg (Nat.succ_ne_zero _), Nat.add_sub_cancel]
      by_cases hz : h.val = 0
      · rw [if_pos hz, zero_add]
        exact accAt2_first V c b nb r (t.val - 5 + h.val) (by omega) (by omega) h (by omega) (by omega) (by omega) e'
      · rw [if_neg hz]
        have := accAt2_next V c b nb r (t.val - 5 + h.val) (by omega) (by omega) h (by omega) (by omega) (by omega) e'
        rw [show t.val - 5 + h.val - 1 = t.val - 5 + (h.val - 1) by omega] at this
        exact this)
    e
  have h6 : accAt2 V c (t.val - 5 + (6 - 1)) (ix2 r e) = (outsAt2 V c t.val t.isLt).2 (ix2 r e) := by
    rw [show t.val - 5 + (6 - 1) = t.val by omega]
    exact congrFun (accAt2_eq V c t) (ix2 r e)
  rw [if_neg (by decide : ¬(6 : ℕ) = 0), h6] at key
  show _ = AttnSpec.attnOut _ _ _ _ _ _
  unfold AttnSpec.attnOut AttnSpec.proj
  exact congrArg (· + V c main_arg21 (ix1 e)) key

end Group

/-- The block stored at a group's last point is attention followed by the output projection, at the block's rows. -/
theorem out_last2 (c : Dev nD) (t : Fin cfg2.N) (h5 : t.val % 6 = 5) (r : Fin 512) (e : Fin 768) :
    (outsAt2 (F := Ideal) V c t.val t.isLt).1 (ix3 (0 : Fin 1) r e)
      = (AttnSpec.attnArr (V c main_v8_3) (V c main_v8_1) (V c main_v8_2) (V c main_v7) (V c main_arg21))
          (ix3 (⟨t.val / 12, by have := t.isLt; have : cfg2.N = 96 := N_2; omega⟩ : Fin 8)
            (⟨512 * (t.val / 6 % 2) + r.val, by have := r.isLt; omega⟩ : Fin 1024) e) :=
  (out2_last V c t h5 (0 : Fin 1) r e).trans
    (group2 V c ⟨t.val / 12, by have := t.isLt; have : cfg2.N = 96 := N_2; omega⟩ ⟨t.val / 6 % 2, by omega⟩ r t h5 rfl rfl e)

end Cert.KernelIdeal.Hand.Val2

end
-- ==== Proof.Val2.lean ====
/-
  From blocks to the array, region 2. The 96 grid points are (batch entry `b`, half `nb` of the 1024 rows, head pair `h`),
  `t = (2 b + nb) · 6 + h`. Only the points with `h = 5` write the output block back: rows `[512 nb, 512 nb + 512)` of batch
  entry `b`, holding the accumulator after the sixth head pair plus the bias, that is every query row of the block attended
  over the keys and values of its batch entry and projected (`Cert.AttnSpec.attnArr`). Row `n` of batch entry `b` lies in the
  block of the flushing point `(2 b + n / 512) · 6 + 5`, so the blocks cover the array.
-/
import proofs.«176245_j63866163691863_2_alg».proof.Proof.Region2Val
import proofs.«176245_j63866163691863_2_alg».proof.Proof.Val2Acc
import proofs.«176245_j63866163691863_2_alg».proof.Proof.Spec
import Idealize.ShloMosaic.Lib.Pipeline.Value

set_option maxRecDepth 16384

noncomputable section

namespace Cert.KernelIdeal.Hand.Val2

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.AttnSpec

variable (V : (c : Dev nD) → (b : Ref sig .tc) → Buf (Elt Ideal) ((c : Thread nD τ).loc b))

/-- The output window's index map, decided over the grid: point `t` is batch entry `t / 12`, half `t / 6 % 2`. -/
theorem idx_out2 : ∀ t : Fin cfg2.N,
    win2_5.index t (0 : Fin 3) = t.val / 12 ∧ win2_5.index t (1 : Fin 3) = t.val / 6 % 2 ∧ win2_5.index t (2 : Fin 3) = 0 :=
  (by decide +kernel : ∀ t : Fin grid2.N, _)

/-- What a flushing point writes back is its block of the attended and projected array. -/
theorem flushed5_eq (c : Dev nD) (t : Fin cfg2.N) (hf : (cfg2.win 5).flush t = true) :
    (dat2 (F := Ideal) V c).flushed 5 t = ((cfg2.win 5).blk t).view.read (Elt Ideal) (attnArr (V c main_v8_3) (V c main_v8_1) (V c main_v8_2) (V c main_v7) (V c main_arg21)) := by
  have h5 : t.val % 6 = 5 := (flush2_5 t).mp hf
  have hN : t.val < 96 := lt_of_lt_of_eq t.isLt (show cfg2.N = 96 from N_2)
  show (cfg2.win 5).cut (grid2.coords t) ((dat2 (F := Ideal) V c).after 5 t) = _
  rw [after2_5]
  obtain ⟨o0, o1, o2⟩ := idx_out2 t
  funext j
  have hj0 : (j 0).val < 1 := (j 0).isLt
  have hj1 : (j 1).val < 512 := (j 1).isLt
  have hj2 : (j 2).val < 768 := (j 2).isLt
  show (outsAt2 (F := Ideal) V c t.val t.isLt).1 ((cfg2.win 5).xinj (grid2.coords t) j)
    = attnArr (V c main_v8_3) (V c main_v8_1) (V c main_v8_2) (V c main_v7) (V c main_arg21) (((cfg2.win 5).blk t).view.emb j)
  have e1 : (cfg2.win 5).xinj (grid2.coords t) j = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  have e2 : ((cfg2.win 5).blk t).view.emb j
      = ix3 (⟨t.val / 12, by omega⟩ : Fin 8) (⟨512 * (t.val / 6 % 2) + (j 1).val, by omega⟩ : Fin 1024) (⟨(j 2).val, hj2⟩ : Fin 768) := by
    funext a; apply Fin.ext
    match a with
    | ⟨0, _⟩ => show win2_5.index t (0 : Fin 3) * 1 + 1 * (j 0).val = t.val / 12; omega
    | ⟨1, _⟩ => show win2_5.index t (1 : Fin 3) * 512 + 1 * (j 1).val = 512 * (t.val / 6 % 2) + (j 1).val; omega
    | ⟨2, _⟩ => show win2_5.index t (2 : Fin 3) * 768 + 1 * (j 2).val = (j 2).val; omega
  rw [e1, e2]
  exact out_last2 V c t h5 ⟨(j 1).val, hj1⟩ ⟨(j 2).val, hj2⟩

/-- An index of the array is in point `t`'s block iff each coordinate is in the block's range on its axis. -/
theorem mem_blk5 (t : Fin cfg2.N) (i : S8x1024x768.Idx) :
    i ∈ ((cfg2.win 5).blk t).view.set ↔ ∀ a : Fin 3, win2_5.index t a * S1x512x768.size a ≤ (i a).val
      ∧ (i a).val < win2_5.index t a * S1x512x768.size a + S1x512x768.size a := by
  show i ∈ ((View.whole main_v10).slice (win2_5.rect t)).set ↔ _
  rw [View.set_slice_whole, Rect.mem_set_unit]
  exact Iff.rfl

/-- Row `n` of batch entry `b` is in the block of the flushing point `(2 b + n / 512) · 6 + 5`. -/
theorem cover5 (i : S8x1024x768.Idx) :
    ∃ t : Fin cfg2.N, (cfg2.win 5).flush t = true ∧ i ∈ ((cfg2.win 5).blk t).view.set := by
  have h0 : (i 0).val < 8 := (i 0).isLt
  have h1 : (i 1).val < 1024 := (i 1).isLt
  have h2 : (i 2).val < 768 := (i 2).isLt
  have hN : (2 * (i 0).val + (i 1).val / 512) * 6 + 5 < cfg2.N := by show _ < 96; omega
  refine ⟨⟨(2 * (i 0).val + (i 1).val / 512) * 6 + 5, hN⟩, (flush2_5 _).mpr (by show ((2 * (i 0).val + (i 1).val / 512) * 6 + 5) % 6 = 5; omega), ?_⟩
  rw [mem_blk5]
  obtain ⟨o0, o1, o2⟩ := idx_out2 ⟨(2 * (i 0).val + (i 1).val / 512) * 6 + 5, hN⟩
  have o0' : win2_5.index ⟨(2 * (i 0).val + (i 1).val / 512) * 6 + 5, hN⟩ (0 : Fin 3) = ((2 * (i 0).val + (i 1).val / 512) * 6 + 5) / 12 := o0
  have o1' : win2_5.index ⟨(2 * (i 0).val + (i 1).val / 512) * 6 + 5, hN⟩ (1 : Fin 3) = ((2 * (i 0).val + (i 1).val / 512) * 6 + 5) / 6 % 2 := o1
  intro a
  match a with
  | ⟨0, _⟩ =>
    show win2_5.index _ (0 : Fin 3) * 1 ≤ (i 0).val ∧ (i 0).val < win2_5.index _ (0 : Fin 3) * 1 + 1
    rw [o0']; omega
  | ⟨1, _⟩ =>
    show win2_5.index _ (1 : Fin 3) * 512 ≤ (i 1).val ∧ (i 1).val < win2_5.index _ (1 : Fin 3) * 512 + 512
    rw [o1']; omega
  | ⟨2, _⟩ =>
    show win2_5.index _ (2 : Fin 3) * 768 ≤ (i 2).val ∧ (i 2).val < win2_5.index _ (2 : Fin 3) * 768 + 768
    rw [o2]; omega

/-- The output array after the region: every query row attended over its batch entry's keys and values, and projected. -/
theorem final2_5 (c : Dev nD) : (dat2 (F := Ideal) V c).arrAt 5 cfg2.N = attnArr (V c main_v8_3) (V c main_v8_1) (V c main_v8_2) (V c main_v7) (V c main_arg21) :=
  (dat2 (F := Ideal) V c).arrAt_eq_of_cover 5 _ (fun t ht => flushed5_eq V c t ht) (cover5)

end Cert.KernelIdeal.Hand.Val2

end
-- ==== Proof.KernelValue.lean ====
/-
  The kernel program's two results at the ideal values, as functions of the launch memory: the first region leaves the six
  projected arrays (queries, keys, values of both inputs); each of the other two regions attends with the queries of one
  input over the keys and values of the other and applies its output projection. Read back through the boundaries'
  contents, the results are the specification's `wholeArr` of the argument arrays.
-/
import proofs.«176245_j63866163691863_2_alg».proof.Proof.HostVals
import proofs.«176245_j63866163691863_2_alg».proof.Proof.Val0
import proofs.«176245_j63866163691863_2_alg».proof.Proof.Val1
import proofs.«176245_j63866163691863_2_alg».proof.Proof.Val2

set_option maxRecDepth 16384

noncomputable section

namespace Cert.KernelIdeal.Hand

open Cert.KernelIdeal Cert.KernelIdeal.Gen Cert.AttnSpec
open Idealize.ShloMosaic Idealize.ShloMosaic.TcCoe
open Idealize.SL Idealize.SL.Sem

variable (m : (ℓ : Loc nD τ sig) → Buf (Elt Ideal) ℓ) (ρ : Dev nD → PrngReg)

/-! ## The first region's entry: the launch memory, the matrices in the other format -/

theorem V1_main_arg0 (c : Dev nD) : V1 (F := Ideal) m ρ c main_arg0 = m ((c : Thread nD τ).loc main_arg0) := W1_of m ρ c main_arg0 (by decide)
theorem V1_main_arg1 (c : Dev nD) : V1 (F := Ideal) m ρ c main_arg1 = m ((c : Thread nD τ).loc main_arg1) := W1_of m ρ c main_arg1 (by decide)
theorem V1_main_arg2 (c : Dev nD) : V1 (F := Ideal) m ρ c main_arg2 = m ((c : Thread nD τ).loc main_arg2) := W1_of m ρ c main_arg2 (by decide)
theorem V1_main_arg3 (c : Dev nD) : V1 (F := Ideal) m ρ c main_arg3 = m ((c : Thread nD τ).loc main_arg3) := W1_of m ρ c main_arg3 (by decide)
theorem V1_main_arg4 (c : Dev nD) : V1 (F := Ideal) m ρ c main_arg4 = m ((c : Thread nD τ).loc main_arg4) := W1_of m ρ c main_arg4 (by decide)
theorem V1_main_arg5 (c : Dev nD) : V1 (F := Ideal) m ρ c main_arg5 = m ((c : Thread nD τ).loc main_arg5) := W1_of m ρ c main_arg5 (by decide)
theorem V1_main_arg6 (c : Dev nD) : V1 (F := Ideal) m ρ c main_arg6 = m ((c : Thread nD τ).loc main_arg6) := W1_of m ρ c main_arg6 (by decide)
theorem V1_main_arg7 (c : Dev nD) : V1 (F := Ideal) m ρ c main_arg7 = m ((c : Thread nD τ).loc main_arg7) := W1_of m ρ c main_arg7 (by decide)
theorem V1_main_arg8 (c : Dev nD) : V1 (F := Ideal) m ρ c main_arg8 = m ((c : Thread nD τ).loc main_arg8) := W1_of m ρ c main_arg8 (by decide)
theorem V1_main_arg9 (c : Dev nD) : V1 (F := Ideal) m ρ c main_arg9 = m ((c : Thread nD τ).loc main_arg9) := W1_of m ρ c main_arg9 (by decide)
theorem V1_main_arg10 (c : Dev nD) : V1 (F := Ideal) m ρ c main_arg10 = m ((c : Thread nD τ).loc main_arg10) := W1_of m ρ c main_arg10 (by decide)
theorem V1_main_arg11 (c : Dev nD) : V1 (F := Ideal) m ρ c main_arg11 = m ((c : Thread nD τ).loc main_arg11) := W1_of m ρ c main_arg11 (by decide)
theorem V1_main_arg12 (c : Dev nD) : V1 (F := Ideal) m ρ c main_arg12 = m ((c : Thread nD τ).loc main_arg12) := W1_of m ρ c main_arg12 (by decide)
theorem V1_main_arg13 (c : Dev nD) : V1 (F := Ideal) m ρ c main_arg13 = m ((c : Thread nD τ).loc main_arg13) := W1_of m ρ c main_arg13 (by decide)
theorem V1_main_arg14 (c : Dev nD) : V1 (F := Ideal) m ρ c main_arg14 = m ((c : Thread nD τ).loc main_arg14) := W1_of m ρ c main_arg14 (by decide)
theorem V1_main_arg15 (c : Dev nD) : V1 (F := Ideal) m ρ c main_arg15 = m ((c : Thread nD τ).loc main_arg15) := W1_of m ρ c main_arg15 (by decide)
theorem V1_main_arg16 (c : Dev nD) : V1 (F := Ideal) m ρ c main_arg16 = m ((c : Thread nD τ).loc main_arg16) := W1_of m ρ c main_arg16 (by decide)
theorem V1_main_arg17 (c : Dev nD) : V1 (F := Ideal) m ρ c main_arg17 = m ((c : Thread nD τ).loc main_arg17) := W1_of m ρ c main_arg17 (by decide)
theorem V1_main_arg18 (c : Dev nD) : V1 (F := Ideal) m ρ c main_arg18 = m ((c : Thread nD τ).loc main_arg18) := W1_of m ρ c main_arg18 (by decide)
theorem V1_main_arg19 (c : Dev nD) : V1 (F := Ideal) m ρ c main_arg19 = m ((c : Thread nD τ).loc main_arg19) := W1_of m ρ c main_arg19 (by decide)
theorem V1_main_arg20 (c : Dev nD) : V1 (F := Ideal) m ρ c main_arg20 = m ((c : Thread nD τ).loc main_arg20) := W1_of m ρ c main_arg20 (by decide)
theorem V1_main_arg21 (c : Dev nD) : V1 (F := Ideal) m ρ c main_arg21 = m ((c : Thread nD τ).loc main_arg21) := W1_of m ρ c main_arg21 (by decide)

/-! ## What the first region leaves -/

theorem W2_main_v8_0 (c : Dev nD) : (W2 (F := Ideal) m ρ c (Proc.devRef .tc main_v8_0) : A3)
    = projArr (m ((c : Thread nD τ).loc main_arg0)) (m ((c : Thread nD τ).loc main_arg2)) (m ((c : Thread nD τ).loc main_arg3)) (m ((c : Thread nD τ).loc main_arg6)) (m ((c : Thread nD τ).loc main_arg7)) := by
  refine (W2_arr m ρ c 18).trans ?_
  refine (Val0.final0_18 (V1 m ρ) c).trans ?_
  rw [V1_main_arg0, V1_main_arg2, V1_main_arg3, V1_main_arg7]
  exact congrArg (fun w => projArr _ _ _ w _) (W1_main_v0 m ρ c)
theorem W2_main_v8_1 (c : Dev nD) : (W2 (F := Ideal) m ρ c (Proc.devRef .tc main_v8_1) : A3)
    = projArr (m ((c : Thread nD τ).loc main_arg0)) (m ((c : Thread nD τ).loc main_arg2)) (m ((c : Thread nD τ).loc main_arg3)) (m ((c : Thread nD τ).loc main_arg8)) (m ((c : Thread nD τ).loc main_arg9)) := by
  refine (W2_arr m ρ c 19).trans ?_
  refine (Val0.final0_19 (V1 m ρ) c).trans ?_
  rw [V1_main_arg0, V1_main_arg2, V1_main_arg3, V1_main_arg9]
  exact congrArg (fun w => projArr _ _ _ w _) (W1_main_v1 m ρ c)
theorem W2_main_v8_2 (c : Dev nD) : (W2 (F := Ideal) m ρ c (Proc.devRef .tc main_v8_2) : A3)
    = projArr (m ((c : Thread nD τ).loc main_arg0)) (m ((c : Thread nD τ).loc main_arg2)) (m ((c : Thread nD τ).loc main_arg3)) (m ((c : Thread nD τ).loc main_arg10)) (m ((c : Thread nD τ).loc main_arg11)) := by
  refine (W2_arr m ρ c 20).trans ?_
  refine (Val0.final0_20 (V1 m ρ) c).trans ?_
  rw [V1_main_arg0, V1_main_arg2, V1_main_arg3, V1_main_arg11]
  exact congrArg (fun w => projArr _ _ _ w _) (W1_main_v2 m ρ c)
theorem W2_main_v8_3 (c : Dev nD) : (W2 (F := Ideal) m ρ c (Proc.devRef .tc main_v8_3) : A3)
    = projArr (m ((c : Thread nD τ).loc main_arg1)) (m ((c : Thread nD τ).loc main_arg4)) (m ((c : Thread nD τ).loc main_arg5)) (m ((c : Thread nD τ).loc main_arg12)) (m ((c : Thread nD τ).loc main_arg13)) := by
  refine (W2_arr m ρ c 21).trans ?_
  refine (Val0.final0_21 (V1 m ρ) c).trans ?_
  rw [V1_main_arg1, V1_main_arg4, V1_main_arg5, V1_main_arg13]
  exact congrArg (fun w => projArr _ _ _ w _) (W1_main_v3 m ρ c)
theorem W2_main_v8_4 (c : Dev nD) : (W2 (F := Ideal) m ρ c (Proc.devRef .tc main_v8_4) : A3)
    = projArr (m ((c : Thread nD τ).loc main_arg1)) (m ((c : Thread nD τ).loc main_arg4)) (m ((c : Thread nD τ).loc main_arg5)) (m ((c : Thread nD τ).loc main_arg14)) (m ((c : Thread nD τ).loc main_arg15)) := by
  refine (W2_arr m ρ c 22).trans ?_
  refine (Val0.final0_22 (V1 m ρ) c).trans ?_
  rw [V1_main_arg1, V1_main_arg4, V1_main_arg5, V1_main_arg15]
  exact congrArg (fun w => projArr _ _ _ w _) (W1_main_v4 m ρ c)
theorem W2_main_v8_5 (c : Dev nD) : (W2 (F := Ideal) m ρ c (Proc.devRef .tc main_v8_5) : A3)
    = projArr (m ((c : Thread nD τ).loc main_arg1)) (m ((c : Thread nD τ).loc main_arg4)) (m ((c : Thread nD τ).loc main_arg5)) (m ((c : Thread nD τ).loc main_arg16)) (m ((c : Thread nD τ).loc main_arg17)) := by
  refine (W2_arr m ρ c 23).trans ?_
  refine (Val0.final0_23 (V1 m ρ) c).trans ?_
  rw [V1_main_arg1, V1_main_arg4, V1_main_arg5, V1_main_arg17]
  exact congrArg (fun w => projArr _ _ _ w _) (W1_main_v5 m ρ c)

/-! ## The two results -/

theorem out0_val (c : Dev nD) : (W4 (F := Ideal) m ρ c (Proc.devRef .tc main_v9) : A3)
    = wholeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg14)) (m ((c : Thread nD τ).loc main_arg15)) (m ((c : Thread nD τ).loc main_arg16)) (m ((c : Thread nD τ).loc main_arg17))
        (m ((c : Thread nD τ).loc main_arg18)) (m ((c : Thread nD τ).loc main_arg19)) := by
  refine (W4_main_v9 m ρ c).trans ?_
  refine (Val1.final1_5 (V2 m ρ) c).trans ?_
  unfold wholeArr
  have e0 : (V2 (F := Ideal) m ρ c main_v8_0 : A3) = _ := W2_main_v8_0 m ρ c
  have e4 : (V2 (F := Ideal) m ρ c main_v8_4 : A3) = _ := W2_main_v8_4 m ρ c
  have e5 : (V2 (F := Ideal) m ρ c main_v8_5 : A3) = _ := W2_main_v8_5 m ρ c
  have ew : (V2 (F := Ideal) m ρ c main_v6 : A2) = m ((c : Thread nD τ).loc main_arg18) :=
    (W2_of_ne m ρ c main_v6 (by decide)).trans (W1_main_v6 m ρ c)
  have eb : (V2 (F := Ideal) m ρ c main_arg19 : A1) = m ((c : Thread nD τ).loc main_arg19) :=
    (W2_of_ne m ρ c main_arg19 (by decide)).trans (W1_of m ρ c main_arg19 (by decide))
  rw [e0, e4, e5, ew, eb]

theorem out1_val (c : Dev nD) : (W4 (F := Ideal) m ρ c (Proc.devRef .tc main_v10) : A3)
    = wholeArr (m ((c : Thread nD τ).loc main_arg1)) (m ((c : Thread nD τ).loc main_arg0)) (m ((c : Thread nD τ).loc main_arg4)) (m ((c : Thread nD τ).loc main_arg5)) (m ((c : Thread nD τ).loc main_arg2)) (m ((c : Thread nD τ).loc main_arg3))
        (m ((c : Thread nD τ).loc main_arg12)) (m ((c : Thread nD τ).loc main_arg13)) (m ((c : Thread nD τ).loc main_arg8)) (m ((c : Thread nD τ).loc main_arg9)) (m ((c : Thread nD τ).loc main_arg10)) (m ((c : Thread nD τ).loc main_arg11))
        (m ((c : Thread nD τ).loc main_arg20)) (m ((c : Thread nD τ).loc main_arg21)) := by
  refine (W4_main_v10 m ρ c).trans ?_
  refine (Val2.final2_5 (V3 m ρ) c).trans ?_
  unfold wholeArr
  have e3 : (V3 (F := Ideal) m ρ c main_v8_3 : A3) = _ := (W3_of_ne m ρ c main_v8_3 (by decide)).trans (W2_main_v8_3 m ρ c)
  have e1 : (V3 (F := Ideal) m ρ c main_v8_1 : A3) = _ := (W3_of_ne m ρ c main_v8_1 (by decide)).trans (W2_main_v8_1 m ρ c)
  have e2 : (V3 (F := Ideal) m ρ c main_v8_2 : A3) = _ := (W3_of_ne m ρ c main_v8_2 (by decide)).trans (W2_main_v8_2 m ρ c)
  have ew : (V3 (F := Ideal) m ρ c main_v7 : A2) = m ((c : Thread nD τ).loc main_arg20) :=
    (W3_of_ne m ρ c main_v7 (by decide)).trans ((W2_of_ne m ρ c main_v7 (by decide)).trans (W1_main_v7 m ρ c))
  have eb : (V3 (F := Ideal) m ρ c main_arg21 : A1) = m ((c : Thread nD τ).loc main_arg21) :=
    (W3_of_ne m ρ c main_arg21 (by decide)).trans ((W2_of_ne m ρ c main_arg21 (by decide)).trans (W1_of m ρ c main_arg21 (by decide)))
  rw [e3, e1, e2, ew, eb]

end Cert.KernelIdeal.Hand

end
-- ==== Proof.RefSym.lean ====
/-
  The reference program spells its two layer normalisations, its six projections and its two attentions one after the
  other, each with its own constants. Spelled out, the second layer normalisation is the first one's term at other
  arguments, every projection is the first projection's term at other arguments, and the second result is the first
  result's term with the two inputs (and their weights) exchanged: the definitions unfold to the same operations.
-/
import proofs.«176245_j63866163691863_2_alg».proof.Proof.Gen.ReferenceIdeal.Read

noncomputable section

namespace Cert.ReferenceIdeal.RefSym

open Cert.ReferenceIdeal Cert.ReferenceIdeal.Gen Cert.ReferenceIdeal.Read Idealize.ShloMosaic

variable {F : FTy → Type} [FloatOps F]

/-- The contents of a [8, 1024, 768] buffer, of a [768, 768] buffer, of a [768] buffer. -/
abbrev T3 (F : FTy → Type) : Type := (⟨S8x1024x768, .f32⟩ : BufTy).Contents (Elt F)
abbrev T2 (F : FTy → Type) : Type := (⟨S768x768, .f32⟩ : BufTy).Contents (Elt F)
abbrev T1 (F : FTy → Type) : Type := (⟨S768, .f32⟩ : BufTy).Contents (Elt F)

/-- The second layer normalisation is the first, at its own arguments. -/
theorem ln47 (x : T3 F) (g b : T1 F) : val_main_v47 (F := F) x g b = val_main_v23 (F := F) x g b := rfl

/-- Each later projection is the first projection, at its own arguments. -/
theorem pj57 (x : T3 F) (g b : T1 F) (w : T2 F) (c : T1 F) : val_main_v57 (F := F) x g b w c = val_main_v51 (F := F) x g b w c := rfl
theorem pj63 (x : T3 F) (g b : T1 F) (w : T2 F) (c : T1 F) : val_main_v63 (F := F) x g b w c = val_main_v51 (F := F) x g b w c := rfl
theorem pj69 (x : T3 F) (g b : T1 F) (w : T2 F) (c : T1 F) : val_main_v69 (F := F) x g b w c = val_main_v51 (F := F) x g b w c := rfl
theorem pj75 (x : T3 F) (g b : T1 F) (w : T2 F) (c : T1 F) : val_main_v75 (F := F) x g b w c = val_main_v51 (F := F) x g b w c := rfl
theorem pj81 (x : T3 F) (g b : T1 F) (w : T2 F) (c : T1 F) : val_main_v81 (F := F) x g b w c = val_main_v51 (F := F) x g b w c := rfl

/-- The second result is the first result's term with the roles of the two inputs exchanged. -/
theorem out125 (x0 x1 : T3 F) (x2 x3 x4 x5 : T1 F) (x8 : T2 F) (x9 : T1 F) (x10 : T2 F) (x11 : T1 F) (x12 : T2 F) (x13 : T1 F) (x20 : T2 F) (x21 : T1 F) :
    val_main_v125 (F := F) x0 x1 x2 x3 x4 x5 x8 x9 x10 x11 x12 x13 x20 x21
      = val_main_v104 (F := F) x1 x0 x4 x5 x2 x3 x12 x13 x8 x9 x10 x11 x20 x21 := rfl

end Cert.ReferenceIdeal.RefSym

end
-- ==== Proof.RefLn.lean ====
/-
  The reference's layer normalisation, read at one index: the row's mean, the row's variance, and the normalised,
  scaled and shifted entry, in the specification's words. The host's sums start from the zero word; its divisions
  are the ideal division; every broadcast reads the one entry it copies.
-/
import proofs.«176245_j63866163691863_2_alg».proof.Proof.RefSym
import proofs.«176245_j63866163691863_2_alg».proof.Proof.Spec

noncomputable section

namespace Cert.ReferenceIdeal.RefLn

open Cert.ReferenceIdeal Cert.ReferenceIdeal.Gen Cert.ReferenceIdeal.Read Idealize.ShloMosaic Cert.AttnSpec
open Cert.ReferenceIdeal.RefSym (T1 T2 T3)
open Idealize.ShloMosaic.ValueIdx (ix1 ix2 ix3)

/-- A mean is the sum divided by the row length. -/
theorem mean_def (r : Fin 768 → EReal) : mean r = Ideal.div (∑ d : Fin 768, r d) c768 := rfl

/-- The mean of row `(b, n)`, as the program computes it. -/
theorem mean_at (x : T3 Ideal) (b : Fin 8) (n : Fin 1024) (z : Fin 1) :
    val_main_v3 (F := Ideal) x (ix3 b n z) = mean (fun d => x (ix3 b n d)) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  rw [mean_def]
  refine congrArg (fun s => Ideal.div s c768) (Finset.sum_congr rfl fun k _ => congrArg x ?_)
  exact funext fun a => Fin.ext (by match a with | ⟨0, _⟩ => rfl | ⟨1, _⟩ => rfl | ⟨2, _⟩ => rfl)

/-- The variance of row `(b, n)`: the mean of the squared distances from the mean. -/
theorem var_at (x : T3 Ideal) (b : Fin 8) (n : Fin 1024) (z : Fin 1) :
    val_main_v10 (F := Ideal) x (ix3 b n z)
      = mean (fun d => (x (ix3 b n d) - mean (fun d' => x (ix3 b n d'))) * (x (ix3 b n d) - mean (fun d' => x (ix3 b n d')))) := by
  rw [val_main_v10_apply, val_main_v8_apply, val_main_v7_apply, val_main_v9_apply, val_main_cst_2_apply,
    val_main_cst_1_apply]
  simp only [Ideal.hostDivf_def, Ideal.ofBits_def, Ideal.ofBits_zero_f32, zero_add]
  rw [mean_def]
  refine congrArg (fun s => Ideal.div s c768) (Finset.sum_congr rfl fun k _ => ?_)
  have hk : idx_main_v7 (idx_main_v8 (ix3 b n z)) k = ix3 b n k :=
    funext fun a => Fin.ext (by match a with | ⟨0, _⟩ => rfl | ⟨1, _⟩ => rfl | ⟨2, _⟩ => rfl)
  have h4 : idx_main_v4 (ix3 b n k) = ix3 b n (0 : Fin 1) :=
    funext fun a => Fin.ext (by match a with | ⟨0, _⟩ => rfl | ⟨1, _⟩ => rfl | ⟨2, _⟩ => rfl)
  rw [hk, val_main_v6_apply, val_main_v5_apply, val_main_v4_apply, h4, mean_at]
  simp only [Ideal.mulf_def, Ideal.subf_def]

/-- The normalised entry `(b, n, e)`. -/
theorem ln_at (x : T3 Ideal) (g β : T1 Ideal) (b : Fin 8) (n : Fin 1024) (e : Fin 768) :
    val_main_v23 (F := Ideal) x g β (ix3 b n e)
      = lnRow (fun d => x (ix3 b n d)) (fun d => g (ix1 d)) (fun d => β (ix1 d)) e := by
  have h11 : idx_main_v11 (ix3 b n e) = ix3 b n (0 : Fin 1) :=
    funext fun a => Fin.ext (by match a with | ⟨0, _⟩ => rfl | ⟨1, _⟩ => rfl | ⟨2, _⟩ => rfl)
  have h16 : idx_main_v16 (ix3 b n e) = ix3 b n (0 : Fin 1) :=
    funext fun a => Fin.ext (by match a with | ⟨0, _⟩ => rfl | ⟨1, _⟩ => rfl | ⟨2, _⟩ => rfl)
  have h18 : idx_main_v18 (idx_main_v19 (ix3 b n e)) = ix1 e :=
    funext fun a => Fin.ext (by match a with | ⟨0, _⟩ => rfl)
  have h21 : idx_main_v21 (idx_main_v22 (ix3 b n e)) = ix1 e :=
    funext fun a => Fin.ext (by match a with | ⟨0, _⟩ => rfl)
  have h13 : ∀ j, val_main_v13 (F := Ideal) j = eps := fun j => by
    rw [val_main_v13_apply, val_main_cst_3_apply]; rfl
  rw [val_main_v23_apply, val_main_v20_apply, val_main_v22_apply, val_main_v21_apply, h21, val_main_v19_apply,
    val_main_v18_apply, h18, val_main_v17_apply, val_main_v12_apply, val_main_v11_apply, h11, mean_at,
    val_main_v16_apply, h16, val_main_v15_apply, val_main_v14_apply, var_at, h13]
  simp only [Ideal.addf_def, Ideal.mulf_def, Ideal.subf_def, Ideal.hostUnary_rsqrt_def]
  rfl

/-- Layer normalisation of every row. -/
def lnArr (x : A3) (g β : A1) : A3 := fun i => lnRow (v3 x (i 0) (i 1)) (v1 g) (v1 β) (i 2)

/-- The reference's normalised array is the specification's. -/
theorem ln_eq (x : T3 Ideal) (g β : T1 Ideal) : val_main_v23 (F := Ideal) x g β = lnArr x g β := by
  funext i
  obtain ⟨b, n, e, rfl⟩ : ∃ (b : Fin 8) (n : Fin 1024) (e : Fin 768), i = ix3 b n e := ⟨i 0, i 1, i 2, ValueIdx.eq_ix3 i⟩
  exact ln_at x g β b n e

end Cert.ReferenceIdeal.RefLn

end
-- ==== Proof.RefProj.lean ====
/-
  A projection of the reference, read at one index: the normalised row against a column of the matrix, plus the bias.
  The host's contraction is the plain sum over the 768 row entries.
-/
import proofs.«176245_j63866163691863_2_alg».proof.Proof.RefLn

noncomputable section

namespace Cert.ReferenceIdeal.RefProj

open Cert.ReferenceIdeal Cert.ReferenceIdeal.Gen Cert.ReferenceIdeal.Read Idealize.ShloMosaic Cert.AttnSpec
open Cert.ReferenceIdeal.RefSym (T1 T2 T3)
open Cert.ReferenceIdeal.RefLn (ln_at)
open Idealize.ShloMosaic.ValueIdx (ix1 ix2 ix3)

/-- The projected entry `(b, n, e)`. -/
theorem proj_at (x : T3 Ideal) (g β : T1 Ideal) (w : T2 Ideal) (c : T1 Ideal) (b : Fin 8) (n : Fin 1024) (e : Fin 768) :
    val_main_v51 (F := Ideal) x g β w c (ix3 b n e)
      = proj (lnRow (fun d => x (ix3 b n d)) (fun d => g (ix1 d)) (fun d => β (ix1 d))) (fun d e' => w (ix2 d e'))
          (fun d => c (ix1 d)) e := by
  have hl : ∀ k : Fin 768, lidx_main_v48 (ix3 b n e) k = ix3 b n k := fun k =>
    funext fun a => Fin.ext (by match a with | ⟨0, _⟩ => rfl | ⟨1, _⟩ => rfl | ⟨2, _⟩ => rfl)
  have hr : ∀ k : Fin 768, ridx_main_v48 (ix3 b n e) k = ix2 k e := fun k =>
    funext fun a => Fin.ext (by match a with | ⟨0, _⟩ => rfl | ⟨1, _⟩ => rfl)
  have h49 : idx_main_v49 (idx_main_v50 (ix3 b n e)) = ix1 e :=
    funext fun a => Fin.ext (by match a with | ⟨0, _⟩ => rfl)
  rw [val_main_v51_apply, val_main_v48_apply, val_main_v50_apply, val_main_v49_apply, h49]
  simp only [Ideal.addf_def]
  unfold proj
  refine congrArg (fun s => s + c (ix1 e)) (Finset.sum_congr rfl fun k _ => ?_)
  rw [hl, hr, ln_at]

/-- The reference's projected array is the specification's. -/
theorem proj_eq (x : T3 Ideal) (g β : T1 Ideal) (w : T2 Ideal) (c : T1 Ideal) :
    val_main_v51 (F := Ideal) x g β w c = projArr x g β w c := by
  funext i
  obtain ⟨b, n, e, rfl⟩ : ∃ (b : Fin 8) (n : Fin 1024) (e : Fin 768), i = ix3 b n e := ⟨i 0, i 1, i 2, ValueIdx.eq_ix3 i⟩
  exact proj_at x g β w c b n e

end Cert.ReferenceIdeal.RefProj

end
-- ==== Proof.RefHeads.lean ====
/-
  The reference cuts the 768 columns of a projected array into twelve heads of 64 by a reshape and a transpose:
  entry `(b, h, n, d)` of the cut array is entry `(b, n, 64 h + d)` of the projected one. The way back (a transpose
  and a reshape) sends `(b, n, e)` to head `e / 64`, column `e % 64`.
-/
import proofs.«176245_j63866163691863_2_alg».proof.Proof.RefSym
import proofs.«176245_j63866163691863_2_alg».proof.Proof.Spec

noncomputable section

namespace Cert.ReferenceIdeal.RefHeads

open Cert.ReferenceIdeal Cert.ReferenceIdeal.Gen Cert.ReferenceIdeal.Read Idealize.ShloMosaic Cert.AttnSpec
open Cert.ReferenceIdeal.RefSym (T1 T2 T3)
open Idealize.ShloMosaic.ValueIdx (ix1 ix2 ix3 ix4)

variable {F : FTy → Type} [FloatOps F]

/-- Row-major position of `(b, n, h, d)` in [8, 1024, 12, 64], read back in [8, 1024, 768]. -/
theorem split_arith (b n h d : Nat) (hb : b < 8) (hn : n < 1024) (hh : h < 12) (hd : d < 64) :
    (((b * 1024 + n) * 12 + h) * 64 + d) / 786432 = b ∧ (((b * 1024 + n) * 12 + h) * 64 + d) / 768 % 1024 = n
      ∧ (((b * 1024 + n) * 12 + h) * 64 + d) % 768 = 64 * h + d := by omega

/-- Row-major position of `(b, n, e)` in [8, 1024, 768], read back in [8, 1024, 12, 64]. -/
theorem merge_arith (b n e : Nat) (hb : b < 8) (hn : n < 1024) (he : e < 768) :
    ((b * 1024 + n) * 768 + e) / 786432 = b ∧ ((b * 1024 + n) * 768 + e) / 768 % 1024 = n
      ∧ ((b * 1024 + n) * 768 + e) / 64 % 12 = e / 64 ∧ ((b * 1024 + n) * 768 + e) % 64 = e % 64 := by omega

/-- The column of `e` inside its head. -/
def colOf (e : Fin 768) : Fin 64 := ⟨e.val % 64, Nat.mod_lt _ (by decide)⟩

/-- A column is column `e % 64` of head `e / 64`. -/
theorem headCol_headOf (e : Fin 768) : headCol (headOf e) (colOf e) = e :=
  Fin.ext (by show 64 * (e.val / 64) + e.val % 64 = e.val; omega)

/-- The index a cut array's entry `(b, h, n, d)` is read from. -/
theorem head_idx (b : Fin 8) (h : Fin 12) (n : Fin 1024) (d : Fin 64) :
    idx_main_v52 (idx_main_v53 (ix4 b h n d)) = ix3 b n (headCol h d) := by
  have A := split_arith b.val n.val h.val d.val b.isLt n.isLt h.isLt d.isLt
  exact funext fun a => Fin.ext (by
    match a with
    | ⟨0, _⟩ => exact A.1
    | ⟨1, _⟩ => exact A.2.1
    | ⟨2, _⟩ => exact A.2.2)

/-- The queries cut into heads. -/
theorem cut_at (x : T3 F) (g β : T1 F) (w : T2 F) (c : T1 F) (b : Fin 8) (h : Fin 12) (n : Fin 1024) (d : Fin 64) :
    val_main_v53 (F := F) x g β w c (ix4 b h n d) = val_main_v51 (F := F) x g β w c (ix3 b n (headCol h d)) :=
  (val_main_v53_apply x g β w c _).trans ((val_main_v52_apply x g β w c _).trans
    (congrArg (val_main_v51 (F := F) x g β w c) (head_idx b h n d)))

/-- The keys and the values are cut by the same operations. -/
theorem cut77 (x : T3 F) (g β : T1 F) (w : T2 F) (c : T1 F) :
    val_main_v77 (F := F) x g β w c = val_main_v53 (F := F) x g β w c := rfl
theorem cut83 (x : T3 F) (g β : T1 F) (w : T2 F) (c : T1 F) :
    val_main_v83 (F := F) x g β w c = val_main_v53 (F := F) x g β w c := rfl

/-- The index the merged array's entry `(b, n, e)` is read from, in the attended array [8, 12, 1024, 64]. -/
theorem merge_idx (b : Fin 8) (n : Fin 1024) (e : Fin 768) :
    idx_main_v99 (idx_main_v100 (ix3 b n e)) = ix4 b (headOf e) n (colOf e) := by
  have A := merge_arith b.val n.val e.val b.isLt n.isLt e.isLt
  exact funext fun a => Fin.ext (by
    match a with
    | ⟨0, _⟩ => exact A.1
    | ⟨1, _⟩ => exact A.2.2.1
    | ⟨2, _⟩ => exact A.2.1
    | ⟨3, _⟩ => exact A.2.2.2)

end Cert.ReferenceIdeal.RefHeads

end
-- ==== Proof.RefLaws.lean ====
/-
  Two facts about single numbers that the reference's spelling of attention needs against the specification's:
  dividing by the float eight is multiplying by the float one eighth, and a maximum that was folded from a starting
  value already dominates that starting value.
-/
import Idealize.ShloMosaic.PureOps.Ideal
import Idealize.ShloMosaic.PureOps.Ideal.Laws
import Mathlib.Data.Finset.Fold

noncomputable section

namespace Cert.ReferenceIdeal.RefLaws

open Idealize.ShloMosaic

/-- The word `0x41000000` is the real eight. -/
theorem ofBits_eight : Ideal.ofBits .f32 0x41000000#32 = ((8 : ℝ) : EReal) := by
  simp [Ideal.ofBits, Ideal.ieee, -EReal.coe_mul]; norm_num

/-- The word `0x3E000000` is the real one eighth. -/
theorem ofBits_eighth : Ideal.ofBits .f32 0x3E000000#32 = ((1 / 8 : ℝ) : EReal) := by
  simp [Ideal.ofBits, Ideal.ieee, -EReal.coe_mul]; norm_num

/-- Division by eight is multiplication by one eighth, for every extended real. -/
theorem div_eight (x : EReal) :
    Ideal.div x (Ideal.ofBits .f32 0x41000000#32) = x * Ideal.ofBits .f32 0x3E000000#32 := by
  rw [ofBits_eight, ofBits_eighth]
  exact Ideal.div_coe (by norm_num : (8 : ℝ) ≠ 0) x

/-- A maximum folded from `a` is at least `a`, so taking the maximum with `a` once more changes nothing. -/
theorem max_fold_absorb {ι : Type} (S : Finset ι) (a : EReal) (f : ι → EReal) :
    max a (S.fold max a f) = S.fold max a f :=
  max_eq_right ((Finset.le_fold_max (s := S) (f := f) (b := a) (c := a)).2 (Or.inl le_rfl))

end Cert.ReferenceIdeal.RefLaws

end
-- ==== Proof.RefScore.lean ====
/-
  The reference's attention weights, read at one index. For batch entry `b`, head `h` and query row `n`: the score
  against key row `k` is the contraction over the head's 64 columns divided by eight, which is the specification's
  product with one eighth; the row maximum is the fold of the maximum from minus infinity (the program takes the
  maximum with minus infinity once more, which changes nothing); the weights are the shifted exponentials over their sum
  (the program's sum starts from the zero word).
-/
import proofs.«176245_j63866163691863_2_alg».proof.Proof.RefHeads
import proofs.«176245_j63866163691863_2_alg».proof.Proof.RefLaws

noncomputable section

namespace Cert.ReferenceIdeal.RefScore

open Cert.ReferenceIdeal Cert.ReferenceIdeal.Gen Cert.ReferenceIdeal.Read Idealize.ShloMosaic Cert.AttnSpec
open Cert.ReferenceIdeal.RefSym (T1 T2 T3)
open Cert.ReferenceIdeal.RefHeads (cut_at cut77)
open Idealize.ShloMosaic.ValueIdx (ix1 ix2 ix3 ix4)

variable (x0 x1 : T3 Ideal) (x2 x3 x4 x5 : T1 Ideal) (x6 : T2 Ideal) (x7 : T1 Ideal) (x14 : T2 Ideal) (x15 : T1 Ideal)

/-- The scores of query row `(b, n)` within head `h`, against every key row of batch entry `b`. -/
def srow (Q K : A3) (b : Fin 8) (h : Fin 12) (n : Fin 1024) : Fin 1024 → EReal :=
  fun k => score (fun e => Q (ix3 b n e)) (fun e => K (ix3 b k e)) h

/-- One score. -/
theorem score_at (b : Fin 8) (h : Fin 12) (n k : Fin 1024) :
    val_main_v86 (F := Ideal) x0 x1 x2 x3 x4 x5 x6 x7 x14 x15 (ix4 b h n k)
      = srow (val_main_v51 (F := Ideal) x0 x2 x3 x6 x7) (val_main_v75 (F := Ideal) x1 x4 x5 x14 x15) b h n k := by
  have hl : ∀ d : Fin 64, lidx_main_v84 (ix4 b h n k) d = ix4 b h n d := fun d =>
    funext fun a => Fin.ext (by match a with | ⟨0, _⟩ => rfl | ⟨1, _⟩ => rfl | ⟨2, _⟩ => rfl | ⟨3, _⟩ => rfl)
  have hr : ∀ d : Fin 64, ridx_main_v84 (ix4 b h n k) d = ix4 b h k d := fun d =>
    funext fun a => Fin.ext (by match a with | ⟨0, _⟩ => rfl | ⟨1, _⟩ => rfl | ⟨2, _⟩ => rfl | ⟨3, _⟩ => rfl)
  rw [val_main_v86_apply, val_main_v84_apply, val_main_v85_apply, val_main_cst_9_apply]
  simp only [Ideal.hostDivf_def, Ideal.ofBits_def]
  rw [RefLaws.div_eight]
  unfold srow score
  refine congrArg (fun s => s * sc) (Finset.sum_congr rfl fun d _ => ?_)
  rw [hl, hr, cut_at, cut77, cut_at]
  rfl

/-- The reduced index `(b, h, n)` with key row `k` put back. -/
theorem lift_ix (hR : S8x12x1024x1024.Reduces [3] S8x12x1024) (b : Fin 8) (h : Fin 12) (n : Fin 1024)
    (k : Fin (S8x12x1024x1024.size 3)) : hR.lift (ix3 b h n) k = ix4 b h n (⟨k.val, k.isLt⟩ : Fin 1024) := by
  funext c; apply Fin.ext
  match c with
  | ⟨0, _⟩ => rfl
  | ⟨1, _⟩ => rfl
  | ⟨2, _⟩ => rfl
  | ⟨3, _⟩ => rfl

/-- The row maximum. -/
theorem max_at (b : Fin 8) (h : Fin 12) (n : Fin 1024) :
    val_main_v89 (F := Ideal) x0 x1 x2 x3 x4 x5 x6 x7 x14 x15 (ix3 b h n)
      = (Finset.univ : Finset (Fin 1024)).fold max ninf
          (srow (val_main_v51 (F := Ideal) x0 x2 x3 x6 x7) (val_main_v75 (F := Ideal) x1 x4 x5 x14 x15) b h n) := by
  have hR : S8x12x1024x1024.Reduces [3] S8x12x1024 := by decide
  have h87 : val_main_v87 (F := Ideal) x0 x1 x2 x3 x4 x5 x6 x7 x14 x15 (ix3 b h n)
      = (Finset.univ : Finset (Fin 1024)).fold max ninf
          (srow (val_main_v51 (F := Ideal) x0 x2 x3 x6 x7) (val_main_v75 (F := Ideal) x1 x4 x5 x14 x15) b h n) := by
    unfold val_main_v87
    rw [Host.reduce_eq_fold_single FloatOps.maximumf _ _ reducesTo_S8x12x1024x1024_S8x12x1024_d3 hR h_S_]
    have hf : (val_main_v86 (F := Ideal) x0 x1 x2 x3 x4 x5 x6 x7 x14 x15 ∘ hR.lift (ix3 b h n))
        = srow (val_main_v51 (F := Ideal) x0 x2 x3 x6 x7) (val_main_v75 (F := Ideal) x1 x4 x5 x14 x15) b h n :=
      funext fun k => (congrArg (val_main_v86 (F := Ideal) x0 x1 x2 x3 x4 x5 x6 x7 x14 x15) (lift_ix hR b h n k)).trans
        (score_at x0 x1 x2 x3 x4 x5 x6 x7 x14 x15 b h n ⟨k.val, k.isLt⟩)
    exact congrArg (fun f => Finset.fold max ninf f (Finset.univ : Finset (Fin 1024))) hf
  rw [val_main_v89_apply, val_main_v88_apply, val_main_cst_11_apply, h87]
  simp only [Ideal.maximumf_def, Ideal.ofBits_def]
  exact RefLaws.max_fold_absorb _ _ _

/-- One shifted exponential. -/
theorem exp_at (b : Fin 8) (h : Fin 12) (n k : Fin 1024) :
    val_main_v93 (F := Ideal) x0 x1 x2 x3 x4 x5 x6 x7 x14 x15 (ix4 b h n k)
      = Ideal.exp (srow (val_main_v51 (F := Ideal) x0 x2 x3 x6 x7) (val_main_v75 (F := Ideal) x1 x4 x5 x14 x15) b h n k
          - (Finset.univ : Finset (Fin 1024)).fold max ninf
              (srow (val_main_v51 (F := Ideal) x0 x2 x3 x6 x7) (val_main_v75 (F := Ideal) x1 x4 x5 x14 x15) b h n)) := by
  have h91 : idx_main_v90 (idx_main_v91 (ix4 b h n k)) = ix3 b h n :=
    funext fun a => Fin.ext (by match a with | ⟨0, _⟩ => rfl | ⟨1, _⟩ => rfl | ⟨2, _⟩ => rfl)
  rw [val_main_v93_apply, val_main_v92_apply, val_main_v91_apply, val_main_v90_apply, h91, max_at, score_at]
  simp only [Ideal.hostUnary_exp_def, Ideal.subf_def]

/-- One weight. -/
theorem soft_at (b : Fin 8) (h : Fin 12) (n k : Fin 1024) :
    val_main_v97 (F := Ideal) x0 x1 x2 x3 x4 x5 x6 x7 x14 x15 (ix4 b h n k)
      = softmax (srow (val_main_v51 (F := Ideal) x0 x2 x3 x6 x7) (val_main_v75 (F := Ideal) x1 x4 x5 x14 x15) b h n) k := by
  have h95 : idx_main_v95 (idx_main_v96 (ix4 b h n k)) = ix3 b h n :=
    funext fun a => Fin.ext (by match a with | ⟨0, _⟩ => rfl | ⟨1, _⟩ => rfl | ⟨2, _⟩ => rfl)
  have h94 : ∀ k' : Fin 1024, idx_main_v94 (ix3 b h n) k' = ix4 b h n k' := fun k' =>
    funext fun a => Fin.ext (by match a with | ⟨0, _⟩ => rfl | ⟨1, _⟩ => rfl | ⟨2, _⟩ => rfl | ⟨3, _⟩ => rfl)
  rw [val_main_v97_apply, val_main_v96_apply, val_main_v95_apply, h95, val_main_v94_apply, val_main_cst_12_apply, exp_at]
  simp only [Ideal.hostDivf_def, Ideal.ofBits_def, Ideal.ofBits_zero_f32, zero_add]
  unfold softmax
  refine congrArg (fun s => Ideal.div _ s) (Finset.sum_congr rfl fun k' _ => ?_)
  rw [h94, exp_at]

end Cert.ReferenceIdeal.RefScore

end
-- ==== Proof.RefAttn.lean ====
/-
  The reference's attention, read at one index. The attended entry `(b, n, e)` is the sum over the key rows of the
  weight (of `e`'s head) times the value entry `(b, k, e)`: the program computes it per head and column and puts the
  heads back side by side, and column `e % 64` of head `e / 64` is column `e`. The result is the attended row
  against a column of the output matrix, plus the bias.
-/
import proofs.«176245_j63866163691863_2_alg».proof.Proof.RefScore

noncomputable section

namespace Cert.ReferenceIdeal.RefAttn

open Cert.ReferenceIdeal Cert.ReferenceIdeal.Gen Cert.ReferenceIdeal.Read Idealize.ShloMosaic Cert.AttnSpec
open Cert.ReferenceIdeal.RefSym (T1 T2 T3)
open Cert.ReferenceIdeal.RefHeads (cut_at cut83 merge_idx colOf headCol_headOf)
open Cert.ReferenceIdeal.RefScore (srow soft_at)
open Idealize.ShloMosaic.ValueIdx (ix1 ix2 ix3 ix4)

variable (x0 x1 : T3 Ideal) (x2 x3 x4 x5 : T1 Ideal) (x6 : T2 Ideal) (x7 : T1 Ideal) (x14 : T2 Ideal) (x15 : T1 Ideal)
  (x16 : T2 Ideal) (x17 : T1 Ideal) (x18 : T2 Ideal) (x19 : T1 Ideal)

/-- The attended entry `(b, n, e)`. -/
theorem row_at (b : Fin 8) (n : Fin 1024) (e : Fin 768) :
    val_main_v100 (F := Ideal) x0 x1 x2 x3 x4 x5 x6 x7 x14 x15 x16 x17 (ix3 b n e)
      = attnRow (fun d => val_main_v51 (F := Ideal) x0 x2 x3 x6 x7 (ix3 b n d))
          (fun k d => val_main_v75 (F := Ideal) x1 x4 x5 x14 x15 (ix3 b k d))
          (fun k d => val_main_v81 (F := Ideal) x1 x4 x5 x16 x17 (ix3 b k d)) e := by
  have hl : ∀ k : Fin 1024, lidx_main_v98 (ix4 b (headOf e) n (colOf e)) k = ix4 b (headOf e) n k := fun k =>
    funext fun a => Fin.ext (by match a with | ⟨0, _⟩ => rfl | ⟨1, _⟩ => rfl | ⟨2, _⟩ => rfl | ⟨3, _⟩ => rfl)
  have hr : ∀ k : Fin 1024, ridx_main_v98 (ix4 b (headOf e) n (colOf e)) k = ix4 b (headOf e) k (colOf e) := fun k =>
    funext fun a => Fin.ext (by match a with | ⟨0, _⟩ => rfl | ⟨1, _⟩ => rfl | ⟨2, _⟩ => rfl | ⟨3, _⟩ => rfl)
  rw [val_main_v100_apply, val_main_v99_apply, merge_idx, val_main_v98_apply]
  unfold attnRow
  refine Finset.sum_congr rfl fun k _ => ?_
  rw [hl, hr, soft_at, cut83, cut_at, headCol_headOf]
  rfl

/-- The result entry `(b, n, e)`. -/
theorem out_at (b : Fin 8) (n : Fin 1024) (e : Fin 768) :
    val_main_v104 (F := Ideal) x0 x1 x2 x3 x4 x5 x6 x7 x14 x15 x16 x17 x18 x19 (ix3 b n e)
      = attnOut (fun d => val_main_v51 (F := Ideal) x0 x2 x3 x6 x7 (ix3 b n d))
          (fun k d => val_main_v75 (F := Ideal) x1 x4 x5 x14 x15 (ix3 b k d))
          (fun k d => val_main_v81 (F := Ideal) x1 x4 x5 x16 x17 (ix3 b k d))
          (fun d e' => x18 (ix2 d e')) (fun d => x19 (ix1 d)) e := by
  have hl : ∀ k : Fin 768, lidx_main_v101 (ix3 b n e) k = ix3 b n k := fun k =>
    funext fun a => Fin.ext (by match a with | ⟨0, _⟩ => rfl | ⟨1, _⟩ => rfl | ⟨2, _⟩ => rfl)
  have hr : ∀ k : Fin 768, ridx_main_v101 (ix3 b n e) k = ix2 k e := fun k =>
    funext fun a => Fin.ext (by match a with | ⟨0, _⟩ => rfl | ⟨1, _⟩ => rfl)
  have h102 : idx_main_v102 (idx_main_v103 (ix3 b n e)) = ix1 e :=
    funext fun a => Fin.ext (by match a with | ⟨0, _⟩ => rfl)
  rw [val_main_v104_apply, val_main_v101_apply, val_main_v103_apply, val_main_v102_apply, h102]
  simp only [Ideal.addf_def]
  unfold attnOut proj
  refine congrArg (fun s => s + x19 (ix1 e)) (Finset.sum_congr rfl fun k _ => ?_)
  rw [hl, hr, row_at]

/-- The reference's first result is the specification's attention of its three projected arrays. -/
theorem attn_eq :
    val_main_v104 (F := Ideal) x0 x1 x2 x3 x4 x5 x6 x7 x14 x15 x16 x17 x18 x19
      = attnArr (val_main_v51 (F := Ideal) x0 x2 x3 x6 x7) (val_main_v75 (F := Ideal) x1 x4 x5 x14 x15)
          (val_main_v81 (F := Ideal) x1 x4 x5 x16 x17) x18 x19 := by
  funext i
  obtain ⟨b, n, e, rfl⟩ : ∃ (b : Fin 8) (n : Fin 1024) (e : Fin 768), i = ix3 b n e := ⟨i 0, i 1, i 2, ValueIdx.eq_ix3 i⟩
  exact out_at x0 x1 x2 x3 x4 x5 x6 x7 x14 x15 x16 x17 x18 x19 b n e

end Cert.ReferenceIdeal.RefAttn

end
-- ==== Proof.RefValue.lean ====
/-
  The reference program's two results, read index by index: each is the specification's whole computation of the
  argument arrays. The first result attends the queries of the first input over the keys and values of the second; the
  second result is the same term with the two inputs, and their weights, exchanged.
-/
import proofs.«176245_j63866163691863_2_alg».proof.Proof.Gen.ReferenceIdeal.Read
import proofs.«176245_j63866163691863_2_alg».proof.Proof.Spec
import proofs.«176245_j63866163691863_2_alg».proof.Proof.RefProj
import proofs.«176245_j63866163691863_2_alg».proof.Proof.RefAttn

noncomputable section

namespace Cert.ReferenceIdeal.RefValue

open Cert.ReferenceIdeal Cert.ReferenceIdeal.Gen Cert.ReferenceIdeal.Read Idealize.ShloMosaic Idealize.SL.Sem Cert.AttnSpec
open Cert.ReferenceIdeal.RefSym (T1 T2 T3)

/-- The first result's term is the whole computation: attention of the three projected arrays, each of which is the
    specification's projection of a normalised input. -/
theorem whole104 (x0 x1 : T3 Ideal) (x2 x3 x4 x5 : T1 Ideal) (x6 : T2 Ideal) (x7 : T1 Ideal) (x14 : T2 Ideal) (x15 : T1 Ideal)
    (x16 : T2 Ideal) (x17 : T1 Ideal) (x18 : T2 Ideal) (x19 : T1 Ideal) :
    val_main_v104 (F := Ideal) x0 x1 x2 x3 x4 x5 x6 x7 x14 x15 x16 x17 x18 x19 = wholeArr x0 x1 x2 x3 x4 x5 x6 x7 x14 x15 x16 x17 x18 x19 := by
  rw [RefAttn.attn_eq, RefSym.pj75, RefSym.pj81, RefProj.proj_eq, RefProj.proj_eq, RefProj.proj_eq]
  rfl

/-- The first result. -/
theorem out0_eq (m : (ℓ : Loc nD τ sig) → Buf (Elt Ideal) ℓ) (c : Dev nD) :
    Cert.ReferenceIdeal.Value.res_main_v104 (F := Ideal) m c
      = wholeArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [val_main_v104_eq]
  exact whole104 _ _ _ _ _ _ _ _ _ _ _ _ _ _

/-- The second result: the first one's term with the inputs exchanged. -/
theorem out1_eq (m : (ℓ : Loc nD τ sig) → Buf (Elt Ideal) ℓ) (c : Dev nD) :
    Cert.ReferenceIdeal.Value.res_main_v125 (F := Ideal) m c
      = wholeArr (m ((c.tc : Thread nD τ).loc main_arg1)) (m ((c.tc : Thread nD τ).loc main_arg0)) (m ((c.tc : Thread nD τ).loc main_arg4)) (m ((c.tc : Thread nD τ).loc main_arg5)) (m ((c.tc : Thread nD τ).loc main_arg2)) (m ((c.tc : Thread nD τ).loc main_arg3)) (m ((c.tc : Thread nD τ).loc main_arg12)) (m ((c.tc : Thread nD τ).loc main_arg13)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg20)) (m ((c.tc : Thread nD τ).loc main_arg21)) := by
  rw [val_main_v125_eq, RefSym.out125]
  exact whole104 _ _ _ _ _ _ _ _ _ _ _ _ _ _

end Cert.ReferenceIdeal.RefValue

end
-- ==== Proof.Algebraic.lean ====
/-
  The algebraic claim: run from memories that agree on the arguments, the idealized kernel program and the idealized reference
  both terminate, the arguments unchanged, and their two results are equal as extended reals, element by element — each is
  the specification's `wholeArr` of the argument arrays (two layer norms, six projections, twelve-head attention with the
  queries of one input over the keys and values of the other, the output projection).
-/
import proofs.«176245_j63866163691863_2_alg».proof.Defs
import proofs.«176245_j63866163691863_2_alg».proof.Proof.Gen.KernelIdeal
import proofs.«176245_j63866163691863_2_alg».proof.Proof.Gen.ReferenceIdeal
import proofs.«176245_j63866163691863_2_alg».proof.Proof.Gen.Pre_finite_inputs
import proofs.«176245_j63866163691863_2_alg».proof.Proof.KernelValue
import proofs.«176245_j63866163691863_2_alg».proof.Proof.RefValue

set_option maxRecDepth 16384

noncomputable section

namespace Cert.Proof.Claims

open Idealize.ShloMosaic Idealize.ShloMosaic.TcCoe Idealize.SL.Sem
open Cert.KernelIdeal.Hand

set_option maxHeartbeats 4000000 in
theorem algebraic : Cert.algebraic_KernelIdeal_ReferenceIdeal := by
  intro m ρ m' ρ' _ hagree
  refine ⟨fun c => Cert.AttnSpec.wholeArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.AttnSpec.wholeArr (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run Cert.KernelIdeal.defs _ _).mono (fun r h c => ?_) (Cert.KernelIdeal.Hand.run_all (F := Ideal) m ρ)
    exact ⟨(h c _ (mem_uc Cert.KernelIdeal.main_v9 (by decide))).trans (out0_val m ρ c),
      (h c _ (mem_uc Cert.KernelIdeal.main_v10 (by decide))).trans (out1_val m ρ c),
      (h c _ (mem_uc Cert.KernelIdeal.main_arg0 (by decide))).trans (W4_main_arg0 m ρ c),
      (h c _ (mem_uc Cert.KernelIdeal.main_arg1 (by decide))).trans (W4_main_arg1 m ρ c),
      (h c _ (mem_uc Cert.KernelIdeal.main_arg2 (by decide))).trans (W4_main_arg2 m ρ c),
      (h c _ (mem_uc Cert.KernelIdeal.main_arg3 (by decide))).trans (W4_main_arg3 m ρ c),
      (h c _ (mem_uc Cert.KernelIdeal.main_arg4 (by decide))).trans (W4_main_arg4 m ρ c),
      (h c _ (mem_uc Cert.KernelIdeal.main_arg5 (by decide))).trans (W4_main_arg5 m ρ c),
      (h c _ (mem_uc Cert.KernelIdeal.main_arg6 (by decide))).trans (W4_main_arg6 m ρ c),
      (h c _ (mem_uc Cert.KernelIdeal.main_arg7 (by decide))).trans (W4_main_arg7 m ρ c),
      (h c _ (mem_uc Cert.KernelIdeal.main_arg8 (by decide))).trans (W4_main_arg8 m ρ c),
      (h c _ (mem_uc Cert.KernelIdeal.main_arg9 (by decide))).trans (W4_main_arg9 m ρ c),
      (h c _ (mem_uc Cert.KernelIdeal.main_arg10 (by decide))).trans (W4_main_arg10 m ρ c),
      (h c _ (mem_uc Cert.KernelIdeal.main_arg11 (by decide))).trans (W4_main_arg11 m ρ c),
      (h c _ (mem_uc Cert.KernelIdeal.main_arg12 (by decide))).trans (W4_main_arg12 m ρ c),
      (h c _ (mem_uc Cert.KernelIdeal.main_arg13 (by decide))).trans (W4_main_arg13 m ρ c),
      (h c _ (mem_uc Cert.KernelIdeal.main_arg14 (by decide))).trans (W4_main_arg14 m ρ c),
      (h c _ (mem_uc Cert.KernelIdeal.main_arg15 (by decide))).trans (W4_main_arg15 m ρ c),
      (h c _ (mem_uc Cert.KernelIdeal.main_arg16 (by decide))).trans (W4_main_arg16 m ρ c),
      (h c _ (mem_uc Cert.KernelIdeal.main_arg17 (by decide))).trans (W4_main_arg17 m ρ c),
      (h c _ (mem_uc Cert.KernelIdeal.main_arg18 (by decide))).trans (W4_main_arg18 m ρ c),
      (h c _ (mem_uc Cert.KernelIdeal.main_arg19 (by decide))).trans (W4_main_arg19 m ρ c),
      (h c _ (mem_uc Cert.KernelIdeal.main_arg20 (by decide))).trans (W4_main_arg20 m ρ c),
      (h c _ (mem_uc Cert.KernelIdeal.main_arg21 (by decide))).trans (W4_main_arg21 m ρ c)⟩
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18, h19, h20, h21⟩ := hagree c
      rw [Cert.ReferenceIdeal.RefValue.out0_eq, h0, h1, h2, h3, h4, h5, h6, h7, h14, h15, h16, h17, h18, h19]
    · obtain ⟨h0, h1, h2, h3, h4, h5, h6, h7, h8, h9, h10, h11, h12, h13, h14, h15, h16, h17, h18, h19, h20, h21⟩ := hagree c
      rw [Cert.ReferenceIdeal.RefValue.out1_eq, h1, h0, h4, h5, h2, h3, h12, h13, h8, h9, h10, h11, h20, h21]

end Cert.Proof.Claims

end
-- ==== Proof.lean ====
/-
  The certificate's five claims. The three frames: the kernel program (as printed, and idealized) runs through its host lines
  and its three regions — layer norms and projections; then twice attention fused with the output projection, an accumulator
  carried over the head pairs — terminating without a fault with the argument arrays unchanged; the reference's run is its
  host operations in order. The idealization rewrote nothing, so `preserves` is trivial. The algebraic claim: both idealized
  programs compute the same function of the arguments over the extended reals.
-/
import proofs.«176245_j63866163691863_2_alg».proof.Defs
import proofs.«176245_j63866163691863_2_alg».proof.Proof.Gen.Kernel
import proofs.«176245_j63866163691863_2_alg».proof.Proof.Gen.KernelIdeal
import proofs.«176245_j63866163691863_2_alg».proof.Proof.Gen.ReferenceIdeal
import proofs.«176245_j63866163691863_2_alg».proof.Proof.Gen.Pre_finite_inputs
import proofs.«176245_j63866163691863_2_alg».proof.Proof.KMainRun
import proofs.«176245_j63866163691863_2_alg».proof.Proof.MainRun
import proofs.«176245_j63866163691863_2_alg».proof.Proof.RefFrame
import proofs.«176245_j63866163691863_2_alg».proof.Proof.Algebraic

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefFrame.frame_ri, trivial, Cert.Proof.Claims.algebraic⟩

end Cert.Proof

end
